-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S100000x64 : Shape := ⟨2, ![100000, 64]⟩
abbrev S192x64 : Shape := ⟨2, ![192, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S100000x64 : S_.BroadcastsInDim S100000x64 (![] : Fin 0 → Fin S100000x64.rank)
  reducesTo_S100000x64_S_d0_1 : S100000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x16 .f32) (main_arg11 : FVec F S16 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x16 .f32 := Host.absf main_arg10
  let main_cst_16 : FVec F S_ .f32 := constant S_ .f32 0x7F800000#32
  let main_v45 : FVec F S64x16 .f32 := broadcastInDim S64x16 ![] bcast_S_S64x16 main_cst_16
  let main_v46 : IVec S64x16 1 := cmpf .olt main_v44 main_v45
  let main_c_17 : IVec S_ 1 := constantI S_ 1 1#1
  let main_v47 : IVec S_ 1 := (fun x v => Host.reduce IntOp.andi x v reducesTo_S64x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x16 .f32) (main_arg11 : FVec F S16 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x3200000 32) (main_arg2 : FVec F S3200000 .f32) (main_arg3 : FVec F S100000x64 .f32) (main_arg4 : FVec F S192x64 .f32) (main_arg5 : FVec F S64 .f32) (main_arg6 : FVec F S64x64 .f32) (main_arg7 : FVec F S64 .f32) (main_arg8 : FVec F S64x64 .f32) (main_arg9 : FVec F S64 .f32) (main_arg10 : FVec F S64x16 .f32) (main_arg11 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S192x64 .f32 := Host.absf main_arg4
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S100000x64 : Shape := ⟨2, ![100000, 64]⟩
abbrev S192x64 : Shape := ⟨2, ![192, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x192 : Shape := ⟨2, ![100000, 192]⟩
abbrev S1x64 : Shape := ⟨2, ![1, 64]⟩
abbrev S5000x192 : Shape := ⟨2, ![5000, 192]⟩
abbrev S5000x64 : Shape := ⟨2, ![5000, 64]⟩
abbrev S3300000x64 : Shape := ⟨2, ![3300000, 64]⟩
abbrev S1x16 : Shape := ⟨2, ![1, 16]⟩
abbrev S100000x16 : Shape := ⟨2, ![100000, 16]⟩
abbrev S5000x16 : Shape := ⟨2, ![5000, 16]⟩
abbrev S5000 : Shape := ⟨1, ![5000]⟩
abbrev S5000x1 : Shape := ⟨2, ![5000, 1]⟩

abbrev nBuf : Space → Nat
  | .hbm => 94
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S100000x64, .f32⟩
  | .hbm, ⟨4, _⟩ => ⟨S192x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x16, .f32⟩
  | .hbm, ⟨11, _⟩ => ⟨S16, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S100000, .i32⟩
  | .hbm, ⟨17, _⟩ => ⟨S3300000, .i32⟩
  | .hbm, ⟨18, _⟩ => ⟨S3300000, .i32⟩
  | .hbm, ⟨19, _⟩ => ⟨S_, .f32⟩
  | .hbm, ⟨20, _⟩ => ⟨S100000, .f32⟩
  | .hbm, ⟨21, _⟩ => ⟨S3300000, .f32⟩
  | .hbm, ⟨22, _⟩ => ⟨S_, .f32⟩
  | .hbm, ⟨23, _⟩ => ⟨S100000, .f32⟩
  | .hbm, ⟨24, _⟩ => ⟨S3300000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000, .f32⟩
  | .hbm, ⟨53, _⟩ => ⟨S3300000, .f32⟩
  | .hbm, ⟨54, _⟩ => ⟨S100000x192, .f32⟩
  | .hbm, ⟨55, _⟩ => ⟨S1x64, .f32⟩
  | .hbm, ⟨56, _⟩ => ⟨S100000x64, .f32⟩
  | .hbm, ⟨57, _⟩ => ⟨S_, .i32⟩
  | .hbm, ⟨58, _⟩ => ⟨S3300000, .i32⟩
  | .hbm, ⟨59, _⟩ => ⟨S3300000, .i1⟩
  | .hbm, ⟨60, _⟩ => ⟨S_, .i32⟩
  | .hbm, ⟨61, _⟩ => ⟨S3300000, .i32⟩
  | .hbm, ⟨62, _⟩ => ⟨S3300000, .i32⟩
  | .hbm, ⟨63, _⟩ => ⟨S3300000, .i32⟩
  | .hbm, ⟨64, _⟩ => ⟨S3300000x1, .i32⟩
  | .hbm, ⟨65, _⟩ => ⟨S3300000x64, .f32⟩
  | .hbm, ⟨66, _⟩ => ⟨S3300000x1, .f32⟩
  | .hbm, ⟨67, _⟩ => ⟨S3300000x64, .f32⟩
  | .hbm, ⟨68, _⟩ => ⟨S3300000x64, .f32⟩
  | .hbm, ⟨69, _⟩ => ⟨S_, .f32⟩
  | .hbm, ⟨70, _⟩ => ⟨S100000x64, .f32⟩
  | .hbm, ⟨71, _⟩ => ⟨S3300000x1, .i32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000x64, .f32⟩
  | .hbm, ⟨84, _⟩ => ⟨S3300000x1, .f32⟩
  | .hbm, ⟨85, _⟩ => ⟨S3300000x64, .f32⟩
  | .hbm, ⟨86, _⟩ => ⟨S3300000x64, .f32⟩
  | .hbm, ⟨87, _⟩ => ⟨S_, .f32⟩
  | .hbm, ⟨88, _⟩ => ⟨S100000x64, .f32⟩
  | .hbm, ⟨89, _⟩ => ⟨S3300000x1, .i32⟩
  | .hbm, ⟨90, _⟩ => ⟨S100000x64, .f32⟩
  | .hbm, ⟨91, _⟩ => ⟨S1x64, .f32⟩
  | .hbm, ⟨92, _⟩ => ⟨S1x16, .f32⟩
  | .hbm, ⟨93, _⟩ => ⟨S100000x16, .f32⟩
  | .local _ .vmem, ⟨0, _⟩ => ⟨S5000x192, .f32⟩
  | .local _ .vmem, ⟨1, _⟩ => ⟨S5000x192, .f32⟩
  | .local _ .vmem, ⟨2, _⟩ => ⟨S192x64, .f32⟩
  | .local _ .vmem, ⟨3, _⟩ => ⟨S1x64, .f32⟩
  | .local _ .vmem, ⟨4, _⟩ => ⟨S64x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S64x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S1x64, .f32⟩
  | .local _ .vmem, ⟨16, _⟩ => ⟨S64x16, .f32⟩
  | .local _ .vmem, ⟨17, _⟩ => ⟨S1x16, .f32⟩
  | .local _ .vmem, ⟨18, _⟩ => ⟨S5000x16, .f32⟩
  | .local _ .vmem, ⟨19, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  concatenates_S100000x128_S100000x64_S100000x192_d1 : Shape.Concatenates [S100000x128, S100000x64] S100000x192 1
  shapeCasts_S64_S1x64 : S64.ShapeCasts S1x64
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  bitsLt_bf16_f32 : FTy.bits .bf16 < FTy.bits .f32
  inb_S192x64_S192x64_0_0 : ∀ a, (![0, 0] : Fin 2 → Nat) a + S192x64.size a ≤ S192x64.size a
  h_S192x64 : 0 < S192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S5000x64_S5000x64 : S5000x64.ShapeCasts S5000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x192_S192x64_S5000x64_1_0_0_1_n_n_wf : DotDims.WF S5000x192 S192x64 S5000x64 [1] [0] [0] [1] [] []
  dot_S5000x64_S64x64_S5000x64_1_0_0_1_n_n_wf : DotDims.WF S5000x64 S64x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x192.size a ≤ S100000x192.size a
  hwx0_0 : ∀ i : grid0.Coords, EltTy.bits .f32 = 32 ∨ (Rect.block (s := S100000x192) S5000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x64.size a ≤ S192x64.size a
  hwx0_1 : ∀ i : grid0.Coords, EltTy.bits .f32 = 32 ∨ (Rect.block (s := S192x64) S192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x16.size a ≤ S64x16.size a
  hwx2_2 : ∀ i : grid2.Coords, EltTy.bits .f32 = 32 ∨ (Rect.block (s := S64x16) S64x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S100000x16.size a
  hwx2_4 : ∀ i : grid2.Coords, EltTy.bits .f32 = 32 ∨ (Rect.block (s := S100000x16) S5000x16.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x192_S192x64_S5000x64_1_0_0_1_n_n : DotDims S5000x192 S192x64 S5000x64 where
  lhsContracting := [1]
  rhsContracting := [0]
  lhsNonContracting := [0]
  rhsNonContracting := [1]
  lhsBatch := []
  rhsBatch := []
  wf := dot_S5000x192_S192x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_v32) S5000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S5000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S100000x64 : Shape := ⟨2, ![100000, 64]⟩
abbrev S192x64 : Shape := ⟨2, ![192, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x192 : Shape := ⟨2, ![100000, 192]⟩
abbrev S1x64 : Shape := ⟨2, ![1, 64]⟩
abbrev S3300000x64 : Shape := ⟨2, ![3300000, 64]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S100000x64, .f32⟩
  | .hbm, ⟨4, _⟩ => ⟨S192x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x16, .f32⟩
  | .hbm, ⟨11, _⟩ => ⟨S16, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S100000, .i32⟩
  | .hbm, ⟨17, _⟩ => ⟨S3300000, .i32⟩
  | .hbm, ⟨18, _⟩ => ⟨S3300000, .i32⟩
  | .hbm, ⟨19, _⟩ => ⟨S_, .f32⟩
  | .hbm, ⟨20, _⟩ => ⟨S100000, .f32⟩
  | .hbm, ⟨21, _⟩ => ⟨S3300000, .f32⟩
  | .hbm, ⟨22, _⟩ => ⟨S_, .f32⟩
  | .hbm, ⟨23, _⟩ => ⟨S100000, .f32⟩
  | .hbm, ⟨24, _⟩ => ⟨S3300000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000, .f32⟩
  | .hbm, ⟨53, _⟩ => ⟨S3300000, .f32⟩
  | .hbm, ⟨54, _⟩ => ⟨S100000x192, .f32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x64, .f32⟩
  | .hbm, ⟨72, _⟩ => ⟨S3300000x1, .f32⟩
  | .hbm, ⟨73, _⟩ => ⟨S3300000x64, .f32⟩
  | .hbm, ⟨74, _⟩ => ⟨S3300000x64, .f32⟩
  | .hbm, ⟨75, _⟩ => ⟨S_, .f32⟩
  | .hbm, ⟨76, _⟩ => ⟨S100000x64, .f32⟩
  | .hbm, ⟨77, _⟩ => ⟨S3300000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S_, .i32⟩
  | .hbm, ⟨87, _⟩ => ⟨S3300000, .i32⟩
  | .hbm, ⟨88, _⟩ => ⟨S3300000, .i1⟩
  | .hbm, ⟨89, _⟩ => ⟨S_, .i32⟩
  | .hbm, ⟨90, _⟩ => ⟨S3300000, .i32⟩
  | .hbm, ⟨91, _⟩ => ⟨S3300000, .i32⟩
  | .hbm, ⟨92, _⟩ => ⟨S3300000, .i32⟩
  | .hbm, ⟨93, _⟩ => ⟨S3300000x1, .i32⟩
  | .hbm, ⟨94, _⟩ => ⟨S3300000x64, .f32⟩
  | .hbm, ⟨95, _⟩ => ⟨S3300000x1, .f32⟩
  | .hbm, ⟨96, _⟩ => ⟨S3300000x64, .f32⟩
  | .hbm, ⟨97, _⟩ => ⟨S3300000x64, .f32⟩
  | .hbm, ⟨98, _⟩ => ⟨S_, .f32⟩
  | .hbm, ⟨99, _⟩ => ⟨S100000x64, .f32⟩
  | .hbm, ⟨100, _⟩ => ⟨S3300000x1, .i32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x64, .f32⟩
  | .hbm, ⟨105, _⟩ => ⟨S_, .f32⟩
  | .hbm, ⟨106, _⟩ => ⟨S100000x64, .f32⟩
  | .hbm, ⟨107, _⟩ => ⟨S100000x64, .f32⟩
  | .hbm, ⟨108, _⟩ => ⟨S100000x16, .f32⟩
  | .hbm, ⟨109, _⟩ => ⟨S1x16, .f32⟩
  | .hbm, ⟨110, _⟩ => ⟨S100000x16, .f32⟩
  | .hbm, ⟨111, _⟩ => ⟨S100000x16, .f32⟩
  | .hbm, ⟨112, _⟩ => ⟨S_, .f32⟩
  | .hbm, ⟨113, _⟩ => ⟨S100000, .f32⟩
  | .hbm, ⟨114, _⟩ => ⟨S_, .f32⟩
  | .hbm, ⟨115, _⟩ => ⟨S100000, .f32⟩
  | .hbm, ⟨116, _⟩ => ⟨S100000, .f32⟩
  | .hbm, ⟨117, _⟩ => ⟨S100000x1, .f32⟩
  | .hbm, ⟨118, _⟩ => ⟨S100000x16, .f32⟩
  | .hbm, ⟨119, _⟩ => ⟨S100000x16, .f32⟩
  | .hbm, ⟨120, _⟩ => ⟨S100000x16, .f32⟩
  | .hbm, ⟨121, _⟩ => ⟨S_, .f32⟩
  | .hbm, ⟨122, _⟩ => ⟨S100000, .f32⟩
  | .hbm, ⟨123, _⟩ => ⟨S100000x1, .f32⟩
  | .hbm, ⟨124, _⟩ => ⟨S100000x1, .f32⟩
  | .hbm, ⟨125, _⟩ => ⟨S100000x16, .f32⟩
  | .hbm, ⟨126, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_cst : Ref sig .tc := ⟨.hbm, 59, rfl⟩
abbrev main_call1_v0 : Ref sig .tc := ⟨.hbm, 60, rfl⟩
abbrev main_v37 : Ref sig .tc := ⟨.hbm, 61, rfl⟩
abbrev main_v38 : Ref sig .tc := ⟨.hbm, 62, rfl⟩
abbrev main_c_6 : Ref sig .tc := ⟨.hbm, 63, rfl⟩
abbrev main_v39 : Ref sig .tc := ⟨.hbm, 64, rfl⟩
abbrev main_v40 : Ref sig .tc := ⟨.hbm, 65, rfl⟩
abbrev main_c_7 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call2_cst : Ref sig .tc := ⟨.hbm, 82, rfl⟩
abbrev main_call2_v0 : Ref sig .tc := ⟨.hbm, 83, rfl⟩
abbrev main_v55 : Ref sig .tc := ⟨.hbm, 84, rfl⟩
abbrev main_v56 : Ref sig .tc := ⟨.hbm, 85, rfl⟩
abbrev main_c_9 : Ref sig .tc := ⟨.hbm, 86, rfl⟩
abbrev main_v57 : Ref sig .tc := ⟨.hbm, 87, rfl⟩
abbrev main_v58 : Ref sig .tc := ⟨.hbm, 88, rfl⟩
abbrev main_c_10 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_call3_cst : Ref sig .tc := ⟨.hbm, 105, rfl⟩
abbrev main_call3_v0 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_call4_cst : Ref sig .tc := ⟨.hbm, 112, rfl⟩
abbrev main_call4_v0 : Ref sig .tc := ⟨.hbm, 113, rfl⟩
abbrev main_call4_cst_0 : Ref sig .tc := ⟨.hbm, 114, rfl⟩
abbrev main_call4_v1 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_v6 : Ref sig .tc := ⟨.hbm, 120, rfl⟩
abbrev main_call4_cst_1 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_v78 : Ref sig .tc := ⟨.hbm, 126, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  concatenates_S100000x128_S100000x64_S100000x192_d1 : Shape.Concatenates [S100000x128, S100000x64] S100000x192 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S3300000x1_S3300000x64_0_1 : S3300000x1.BroadcastsInDim S3300000x64 (![0, 1] : Fin 2 → Fin S3300000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x192_S192x64_S100000x64_1_0_0_1_n_n_wf : DotDims.WF S100000x192 S192x64 S100000x64 [1] [0] [0] [1] [] []
  dot_S100000x64_S64x64_S100000x64_1_0_0_1_n_n_wf : DotDims.WF S100000x64 S64x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x16_S100000x16_1_0_0_1_n_n_wf : DotDims.WF S100000x64 S64x16 S100000x16 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
/-
  The idealized kernel's run with its result named.

  @main is eight segments: three stretches of host operations, then region 0, a stretch, region 1, a stretch,
  region 2. Every weakly fair execution runs them in order; the thread state after the last segment holds every
  unscoped buffer at the contents `W8` of the last boundary (a fold from the launch memory: a host stretch applies
  its operations, a region leaves each of its arrays at what its write-backs make of it). Reading that state against
  the final memory gives the result buffer at `W8` and the twelve arguments as launched. This is the launch of the
  generated frame over the same segments, with a post that also names the result.
-/
import proofs.«163008_j1984274891426_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and every argument array ends as launched. -/
theorem run_named : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.RunValue

end
-- ==== Proof.LibHostFold.lean ====
/-
  A general fact about straight lines of host operations: the contents after two lines run one after the other are
  the contents after the second, started from the contents after the first. It lets a long line be read a stretch at a
  time, each stretch at whatever contents the earlier ones left.
-/
import Idealize.ShloMosaic.Lib.StableHlo.Run

namespace Idealize.ShloMosaic.StableHlo

variable {τ : Topo} {sig : RefSig} {Val : EltTy → Type}

/-- The fold of the operations' results over a concatenation is the fold over the second part of the fold over the
    first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Idealize.ShloMosaic.StableHlo
-- ==== Proof.LibTypedBuf.lean ====
/-
  Transport of a tensor value to and from its buffer.

  A typed reference carries an equation between its buffer's type and the value's type; contents move along it by
  `cast`. Whatever that equation's proof is, a cast changes nothing up to heterogeneous equality, so a cast value equals
  any value it is heterogeneously equal to, and a round trip is the identity. These let a composed term of typed
  operations be compared with the same term of untyped ones without ever evaluating a buffer's type.
-/
import Idealize.ShloMosaic.Lib.StableHlo

namespace Idealize.ShloMosaic.StableHlo.TRef

variable {sig : RefSig} {Val : EltTy → Type} {T : BufTy}

/-- Reading a buffer's contents at the value's type gives whatever the contents are heterogeneously equal to. -/
theorem ofBuf_eq_of_heq (x : TRef sig T) (v : x.ref.ty.Contents Val) (w : T.Contents Val) (h : HEq v w) : x.ofBuf v = w :=
  eq_of_heq ((cast_heq _ v).trans h)

/-- Storing a value into its buffer gives whatever the value is heterogeneously equal to. -/
theorem toBuf_eq_of_heq (x : TRef sig T) (v : T.Contents Val) (w : x.ref.ty.Contents Val) (h : HEq v w) : x.toBuf v = w :=
  eq_of_heq ((cast_heq _ v).trans h)

/-- Storing a value and reading it back is the identity. -/
theorem ofBuf_toBuf (x : TRef sig T) (v : T.Contents Val) : x.ofBuf (x.toBuf v) = v := by
  apply eq_of_heq
  exact (cast_heq _ _).trans (cast_heq _ v)

end Idealize.ShloMosaic.StableHlo.TRef
-- ==== Proof.RefRun.lean ====
/-
  The reference program's run, read a stretch at a time.

  The reference is one straight line of 115 whole-array operations. Its contents after the line are the fold of the
  operations' results over the launch contents, and a fold over a concatenation is the fold over the second part of the
  fold over the first. The line is cut into ten stretches, at every called function (the guarded reciprocal square root,
  the three rectifiers, the log-soft-max); after each stretch, each buffer a later stretch reads holds the reference's
  stage of the launch arguments, and an argument is never written. The last stretch leaves the result buffer at the
  reference's last stage, which is the statement of the run.
-/
import proofs.«163008_j1984274891426_1_alg».proof.Proof.RefRunP
import proofs.«163008_j1984274891426_1_alg».proof.Proof.RefReadP
import proofs.«163008_j1984274891426_1_alg».proof.Proof.LibHostFold
import proofs.«163008_j1984274891426_1_alg».proof.Proof.LibTypedBuf

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo

/-! ### The stretches -/

section Stretches
variable {F : FTy → Type} [FloatOps F]

/-- Operations 1 to 19: from the launch to the degree, its comparison with zero and its reciprocal square root. -/
abbrev seg1 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_v4 (iotaInDim S100000 32 0),
    binary main_v1 main_v4 main_v5 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v4 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- Operations 20 to 22: the guarded choice (a called function). -/
abbrev seg2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Operations 23 to 47: the edge norm, and the first layer up to its bias. -/
abbrev seg3 : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v5 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v5 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v5 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v8 main_v23 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v15 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)),
    binary main_arg0 main_arg3 main_v32 ((fun a b => concatenate S100000x192 1 [⟨S100000x128, a⟩, ⟨S100000x64, b⟩] concatenates_S100000x128_S100000x64_S100000x192_d1) : (⟨S100000x128, .f32⟩ : BufTy).Contents (Elt F) → (⟨S100000x64, .f32⟩ : BufTy).Contents (Elt F) → (⟨S100000x192, .f32⟩ : BufTy).Contents (Elt F)),
    binary main_v32 main_arg4 main_v33 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    unary main_arg5 main_v34 (broadcastInDim S1x64 ![1] bcast_S64_S1x64_1 : (⟨S64, .f32⟩ : BufTy).Contents (Elt F) → (⟨S1x64, .f32⟩ : BufTy).Contents (Elt F)),
    unary main_v34 main_v35 (broadcastInDim S100000x64 ![0, 1] bcast_S1x64_S100000x64_0_1 : (⟨S1x64, .f32⟩ : BufTy).Contents (Elt F) → (⟨S100000x64, .f32⟩ : BufTy).Contents (Elt F)),
    binary main_v33 main_v35 main_v36 (addf : (⟨S100000x64, .f32⟩ : BufTy).Contents (Elt F) → (⟨S100000x64, .f32⟩ : BufTy).Contents (Elt F) → (⟨S100000x64, .f32⟩ : BufTy).Contents (Elt F)) ]

/-- Operations 48 to 50: the first rectifier (a called function). -/
abbrev seg4 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v36) (TRef.of (T := ⟨S100000x64, .f32⟩) main_call1_v0) (TRef.of (T := ⟨S100000x64, .f32⟩) main_v37) maximumf ]

/-- Operations 51 to 70: the second layer: contraction, gather, scaling, aggregation, bias. -/
abbrev seg5 : List (HloOp τ sig (Elt F)) :=
  [ binary main_v37 main_arg6 main_v38 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_6 (constantI S_ 32 0#32),
    unary main_c_6 main_v39 (broadcastInDim S3300000 ![] bcast_S_S3300000 : (⟨S_, .i32⟩ : BufTy).Contents (Elt F) → (⟨S3300000, .i32⟩ : BufTy).Contents (Elt F)),
    binary main_v5 main_v39 main_v40 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v41 (broadcastInDim S3300000 ![] bcast_S_S3300000 : (⟨S_, .i32⟩ : BufTy).Contents (Elt F) → (⟨S3300000, .i32⟩ : BufTy).Contents (Elt F)),
    binary main_v5 main_v41 main_v42 (addi : (⟨S3300000, .i32⟩ : BufTy).Contents (Elt F) → (⟨S3300000, .i32⟩ : BufTy).Contents (Elt F) → (⟨S3300000, .i32⟩ : BufTy).Contents (Elt F)),
    ternary main_v40 main_v42 main_v5 main_v43 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v43 main_v44 (broadcastInDim S3300000x1 ![0] bcast_S3300000_S3300000x1_0 : (⟨S3300000, .i32⟩ : BufTy).Contents (Elt F) → (⟨S3300000x1, .i32⟩ : BufTy).Contents (Elt F)),
    binary main_v38 main_v44 main_v45 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v31 main_v46 (broadcastInDim S3300000x1 ![0] bcast_S3300000_S3300000x1_0 : (⟨S3300000, .f32⟩ : BufTy).Contents (Elt F) → (⟨S3300000x1, .f32⟩ : BufTy).Contents (Elt F)),
    unary main_v46 main_v47 (broadcastInDim S3300000x64 ![0, 1] bcast_S3300000x1_S3300000x64_0_1 : (⟨S3300000x1, .f32⟩ : BufTy).Contents (Elt F) → (⟨S3300000x64, .f32⟩ : BufTy).Contents (Elt F)),
    binary main_v45 main_v47 main_v48 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v49 (broadcastInDim S100000x64 ![] bcast_S_S100000x64 : (⟨S_, .f32⟩ : BufTy).Contents (Elt F) → (⟨S100000x64, .f32⟩ : BufTy).Contents (Elt F)),
    unary main_v6 main_v50 (broadcastInDim S3300000x1 ![0] bcast_S3300000_S3300000x1_0 : (⟨S3300000, .i32⟩ : BufTy).Contents (Elt F) → (⟨S3300000x1, .i32⟩ : BufTy).Contents (Elt F)),
    ternary main_v49 main_v50 main_v48 main_v51 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg7 main_v52 (broadcastInDim S1x64 ![1] bcast_S64_S1x64_1 : (⟨S64, .f32⟩ : BufTy).Contents (Elt F) → (⟨S1x64, .f32⟩ : BufTy).Contents (Elt F)),
    unary main_v52 main_v53 (broadcastInDim S100000x64 ![0, 1] bcast_S1x64_S100000x64_0_1 : (⟨S1x64, .f32⟩ : BufTy).Contents (Elt F) → (⟨S100000x64, .f32⟩ : BufTy).Contents (Elt F)),
    binary main_v51 main_v53 main_v54 (addf : (⟨S100000x64, .f32⟩ : BufTy).Contents (Elt F) → (⟨S100000x64, .f32⟩ : BufTy).Contents (Elt F) → (⟨S100000x64, .f32⟩ : BufTy).Contents (Elt F)) ]

/-- Operations 71 to 73: the second rectifier (a called function). -/
abbrev seg6 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v54) (TRef.of (T := ⟨S100000x64, .f32⟩) main_call2_v0) (TRef.of (T := ⟨S100000x64, .f32⟩) main_v55) maximumf ]

/-- Operations 74 to 93: the third layer, likewise. -/
abbrev seg7 : List (HloOp τ sig (Elt F)) :=
  [ binary main_v55 main_arg8 main_v56 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_9 (constantI S_ 32 0#32),
    unary main_c_9 main_v57 (broadcastInDim S3300000 ![] bcast_S_S3300000 : (⟨S_, .i32⟩ : BufTy).Contents (Elt F) → (⟨S3300000, .i32⟩ : BufTy).Contents (Elt F)),
    binary main_v5 main_v57 main_v58 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v59 (broadcastInDim S3300000 ![] bcast_S_S3300000 : (⟨S_, .i32⟩ : BufTy).Contents (Elt F) → (⟨S3300000, .i32⟩ : BufTy).Contents (Elt F)),
    binary main_v5 main_v59 main_v60 (addi : (⟨S3300000, .i32⟩ : BufTy).Contents (Elt F) → (⟨S3300000, .i32⟩ : BufTy).Contents (Elt F) → (⟨S3300000, .i32⟩ : BufTy).Contents (Elt F)),
    ternary main_v58 main_v60 main_v5 main_v61 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v61 main_v62 (broadcastInDim S3300000x1 ![0] bcast_S3300000_S3300000x1_0 : (⟨S3300000, .i32⟩ : BufTy).Contents (Elt F) → (⟨S3300000x1, .i32⟩ : BufTy).Contents (Elt F)),
    binary main_v56 main_v62 main_v63 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v31 main_v64 (broadcastInDim S3300000x1 ![0] bcast_S3300000_S3300000x1_0 : (⟨S3300000, .f32⟩ : BufTy).Contents (Elt F) → (⟨S3300000x1, .f32⟩ : BufTy).Contents (Elt F)),
    unary main_v64 main_v65 (broadcastInDim S3300000x64 ![0, 1] bcast_S3300000x1_S3300000x64_0_1 : (⟨S3300000x1, .f32⟩ : BufTy).Contents (Elt F) → (⟨S3300000x64, .f32⟩ : BufTy).Contents (Elt F)),
    binary main_v63 main_v65 main_v66 (mulf : (⟨S3300000x64, .f32⟩ : BufTy).Contents (Elt F) → (⟨S3300000x64, .f32⟩ : BufTy).Contents (Elt F) → (⟨S3300000x64, .f32⟩ : BufTy).Contents (Elt F)),
    nullary main_cst_11 (constant S_ .f32 0x00000000#32),
    unary main_cst_11 main_v67 (broadcastInDim S100000x64 ![] bcast_S_S100000x64 : (⟨S_, .f32⟩ : BufTy).Contents (Elt F) → (⟨S100000x64, .f32⟩ : BufTy).Contents (Elt F)),
    unary main_v6 main_v68 (broadcastInDim S3300000x1 ![0] bcast_S3300000_S3300000x1_0 : (⟨S3300000, .i32⟩ : BufTy).Contents (Elt F) → (⟨S3300000x1, .i32⟩ : BufTy).Contents (Elt F)),
    ternary main_v67 main_v68 main_v66 main_v69 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg9 main_v70 (broadcastInDim S1x64 ![1] bcast_S64_S1x64_1 : (⟨S64, .f32⟩ : BufTy).Contents (Elt F) → (⟨S1x64, .f32⟩ : BufTy).Contents (Elt F)),
    unary main_v70 main_v71 (broadcastInDim S100000x64 ![0, 1] bcast_S1x64_S100000x64_0_1 : (⟨S1x64, .f32⟩ : BufTy).Contents (Elt F) → (⟨S100000x64, .f32⟩ : BufTy).Contents (Elt F)),
    binary main_v69 main_v71 main_v72 (addf : (⟨S100000x64, .f32⟩ : BufTy).Contents (Elt F) → (⟨S100000x64, .f32⟩ : BufTy).Contents (Elt F) → (⟨S100000x64, .f32⟩ : BufTy).Contents (Elt F)) ]

/-- Operations 94 to 96: the third rectifier (a called function). -/
abbrev seg8 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v72) (TRef.of (T := ⟨S100000x64, .f32⟩) main_call3_v0) (TRef.of (T := ⟨S100000x64, .f32⟩) main_v73) maximumf ]

/-- Operations 97 to 100: the logits. -/
abbrev seg9 : List (HloOp τ sig (Elt F)) :=
  [ binary main_v73 main_arg10 main_v74 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg11 main_v75 (broadcastInDim S1x16 ![1] bcast_S16_S1x16_1 : (⟨S16, .f32⟩ : BufTy).Contents (Elt F) → (⟨S1x16, .f32⟩ : BufTy).Contents (Elt F)),
    unary main_v75 main_v76 (broadcastInDim S100000x16 ![0, 1] bcast_S1x16_S100000x16_0_1 : (⟨S1x16, .f32⟩ : BufTy).Contents (Elt F) → (⟨S100000x16, .f32⟩ : BufTy).Contents (Elt F)),
    binary main_v74 main_v76 main_v77 (addf : (⟨S100000x16, .f32⟩ : BufTy).Contents (Elt F) → (⟨S100000x16, .f32⟩ : BufTy).Contents (Elt F) → (⟨S100000x16, .f32⟩ : BufTy).Contents (Elt F)) ]

/-- Operations 101 to 115: the log-soft-max (a called function). -/
abbrev seg10 : List (HloOp τ sig (Elt F)) :=
  [ TRef.nullary (TRef.of (T := ⟨S_, .f32⟩) main_call4_cst) (constant S_ .f32 0xFF800000#32),
    TRef.binary (TRef.of (T := ⟨S100000x16, .f32⟩) main_v77) (TRef.of (T := ⟨S_, .f32⟩) main_call4_cst) (TRef.of (T := ⟨S100000, .f32⟩) main_call4_v0) (fun x v => Host.reduce FloatOps.maximumf x v reducesTo_S100000x16_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x16, .f32⟩) main_call4_v4) (broadcastInDim S100000x16 ![0, 1] bcast_S100000x1_S100000x16_0_1),
    TRef.binary (TRef.of (T := ⟨S100000x16, .f32⟩) main_v77) (TRef.of (T := ⟨S100000x16, .f32⟩) main_call4_v4) (TRef.of (T := ⟨S100000x16, .f32⟩) main_call4_v5) subf,
    TRef.unary (TRef.of (T := ⟨S100000x16, .f32⟩) main_call4_v5) (TRef.of (T := ⟨S100000x16, .f32⟩) main_call4_v6) Host.exp,
    TRef.nullary (TRef.of (T := ⟨S_, .f32⟩) main_call4_cst_1) (constant S_ .f32 0x00000000#32),
    TRef.binary (TRef.of (T := ⟨S100000x16, .f32⟩) main_call4_v6) (TRef.of (T := ⟨S_, .f32⟩) main_call4_cst_1) (TRef.of (T := ⟨S100000, .f32⟩) main_call4_v7) (fun x v => Host.reduceAdd x v reducesTo_S100000x16_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x16, .f32⟩) main_call4_v10) (broadcastInDim S100000x16 ![0, 1] bcast_S100000x1_S100000x16_0_1),
    TRef.binary (TRef.of (T := ⟨S100000x16, .f32⟩) main_call4_v5) (TRef.of (T := ⟨S100000x16, .f32⟩) main_call4_v10) (TRef.of (T := ⟨S100000x16, .f32⟩) main_v78) subf ]

end Stretches

set_option maxRecDepth 100000 in
set_option maxHeartbeats 4000000 in
/-- The program's operation list is the stretches, in order. -/
theorem ops_eq : (ValueP.ops : List (HloOp τ sig (Elt Ideal))) = seg1 ++ (seg2 ++ (seg3 ++ (seg4 ++ (seg5 ++ (seg6 ++ (seg7 ++ (seg8 ++ (seg9 ++ (seg10))))))))) := rfl

variable (m : (ℓ : Loc nD τ sig) → Buf (Elt Ideal) ℓ)

/-! ### The contents at each cut -/

/-- The launch contents of a device. -/
abbrev U0 : Dev nD → Valuation τ sig (Elt Ideal) := fun c => launchContents m c
/-- The contents after stretch 1. -/
abbrev U1 : Dev nD → Valuation τ sig (Elt Ideal) := fun c => StableHlo.after seg1 (U0 m c)
/-- The contents after stretch 2. -/
abbrev U2 : Dev nD → Valuation τ sig (Elt Ideal) := fun c => StableHlo.after seg2 (U1 m c)
/-- The contents after stretch 3. -/
abbrev U3 : Dev nD → Valuation τ sig (Elt Ideal) := fun c => StableHlo.after seg3 (U2 m c)
/-- The contents after stretch 4. -/
abbrev U4 : Dev nD → Valuation τ sig (Elt Ideal) := fun c => StableHlo.after seg4 (U3 m c)
/-- The contents after stretch 5. -/
abbrev U5 : Dev nD → Valuation τ sig (Elt Ideal) := fun c => StableHlo.after seg5 (U4 m c)
/-- The contents after stretch 6. -/
abbrev U6 : Dev nD → Valuation τ sig (Elt Ideal) := fun c => StableHlo.after seg6 (U5 m c)
/-- The contents after stretch 7. -/
abbrev U7 : Dev nD → Valuation τ sig (Elt Ideal) := fun c => StableHlo.after seg7 (U6 m c)
/-- The contents after stretch 8. -/
abbrev U8 : Dev nD → Valuation τ sig (Elt Ideal) := fun c => StableHlo.after seg8 (U7 m c)
/-- The contents after stretch 9. -/
abbrev U9 : Dev nD → Valuation τ sig (Elt Ideal) := fun c => StableHlo.after seg9 (U8 m c)
/-- The contents after stretch 10. -/
abbrev U10 : Dev nD → Valuation τ sig (Elt Ideal) := fun c => StableHlo.after seg10 (U9 m c)

/-! ### After stretch 1 -/

theorem u1_v5 (c : Dev nD) : U1 m c (Proc.devRef .tc main_v5) = Cert.ReferenceIdeal.ReadP.val_main_v5 (F := Ideal) (m ((c.tc : Thread nD τ).loc main_arg1)) := by
  show StableHlo.after seg1 (U0 m c) (Proc.devRef .tc main_v5) = _
  after_results
  all_goals rfl

theorem u1_v6 (c : Dev nD) : U1 m c (Proc.devRef .tc main_v6) = Cert.ReferenceIdeal.ReadP.val_main_v6 (F := Ideal) (m ((c.tc : Thread nD τ).loc main_arg1)) := by
  show StableHlo.after seg1 (U0 m c) (Proc.devRef .tc main_v6) = _
  after_results
  all_goals rfl

theorem u1_v8 (c : Dev nD) : U1 m c (Proc.devRef .tc main_v8) = Cert.ReferenceIdeal.ReadP.val_main_v8 (F := Ideal) (m ((c.tc : Thread nD τ).loc main_arg2)) := by
  show StableHlo.after seg1 (U0 m c) (Proc.devRef .tc main_v8) = _
  after_results
  all_goals rfl

theorem u1_v13 (c : Dev nD) : U1 m c (Proc.devRef .tc main_v13) = Cert.ReferenceIdeal.ReadP.val_main_v13 (F := Ideal) (m ((c.tc : Thread nD τ).loc main_arg1)) (m ((c.tc : Thread nD τ).loc main_arg2)) := by
  show StableHlo.after seg1 (U0 m c) (Proc.devRef .tc main_v13) = _
  after_results
  all_goals rfl

theorem u1_v14 (c : Dev nD) : U1 m c (Proc.devRef .tc main_v14) = Cert.ReferenceIdeal.ReadP.val_main_v14 (F := Ideal) (m ((c.tc : Thread nD τ).loc main_arg1)) (m ((c.tc : Thread nD τ).loc main_arg2)) := by
  show StableHlo.after seg1 (U0 m c) (Proc.devRef .tc main_v14) = _
  after_results
  all_goals rfl

theorem u1_cst_2 (c : Dev nD) : U1 m c (Proc.devRef .tc main_cst_2) = Cert.ReferenceIdeal.ReadP.val_main_cst_2 (F := Ideal) := by
  show StableHlo.after seg1 (U0 m c) (Proc.devRef .tc main_cst_2) = _
  after_results
  all_goals rfl

/-! ### After stretch 2 -/

theorem u2_v15 (c : Dev nD) : U2 m c (Proc.devRef .tc main_v15) = Cert.ReferenceIdeal.ReadP.val_main_v15 (F := Ideal) (m ((c.tc : Thread nD τ).loc main_arg1)) (m ((c.tc : Thread nD τ).loc main_arg2)) := by
  show StableHlo.after seg2 (U1 m c) (Proc.devRef .tc main_v15) = _
  have h0 := u1_v13 m c
  have h1 := u1_v14 m c
  have h2 := u1_cst_2 m c
  generalize U1 m c = Vp at *
  after_results
  simp only [TRef.ofBuf_toBuf]
  refine TRef.toBuf_eq_of_heq _ _ _ (heq_of_eq ?_)
  rw [TRef.ofBuf_eq_of_heq (TRef.of main_v13) _ _ (heq_of_eq h0),
    TRef.ofBuf_eq_of_heq (TRef.of main_v14) _ _ (heq_of_eq h1),
    TRef.ofBuf_eq_of_heq (TRef.of main_cst_2) _ _ (heq_of_eq h2)]
  rfl

theorem u2_v5 (c : Dev nD) : U2 m c (Proc.devRef .tc main_v5) = Cert.ReferenceIdeal.ReadP.val_main_v5 (F := Ideal) (m ((c.tc : Thread nD τ).loc main_arg1)) := by
  show StableHlo.after seg2 (U1 m c) (Proc.devRef .tc main_v5) = _
  have h0 := u1_v5 m c
  generalize U1 m c = Vp at *
  after_results
  rw [h0]
  all_goals rfl

theorem u2_v6 (c : Dev nD) : U2 m c (Proc.devRef .tc main_v6) = Cert.ReferenceIdeal.ReadP.val_main_v6 (F := Ideal) (m ((c.tc : Thread nD τ).loc main_arg1)) := by
  show StableHlo.after seg2 (U1 m c) (Proc.devRef .tc main_v6) = _
  have h0 := u1_v6 m c
  generalize U1 m c = Vp at *
  after_results
  rw [h0]
  all_goals rfl

theorem u2_v8 (c : Dev nD) : U2 m c (Proc.devRef .tc main_v8) = Cert.ReferenceIdeal.ReadP.val_main_v8 (F := Ideal) (m ((c.tc : Thread nD τ).loc main_arg2)) := by
  show StableHlo.after seg2 (U1 m c) (Proc.devRef .tc main_v8) = _
  have h0 := u1_v8 m c
  generalize U1 m c = Vp at *
  after_results
  rw [h0]
  all_goals rfl

theorem u2_arg0 (c : Dev nD) : U2 m c (Proc.devRef .tc main_arg0) = m ((c.tc : Thread nD τ).loc main_arg0) := by
  show StableHlo.after seg2 (StableHlo.after seg1 (launchContents m c)) (Proc.devRef .tc main_arg0) = _
  after_results
  all_goals rfl

theorem u2_arg3 (c : Dev nD) : U2 m c (Proc.devRef .tc main_arg3) = m ((c.tc : Thread nD τ).loc main_arg3) := by
  show StableHlo.after seg2 (StableHlo.after seg1 (launchContents m c)) (Proc.devRef .tc main_arg3) = _
  after_results
  all_goals rfl

theorem u2_arg4 (c : Dev nD) : U2 m c (Proc.devRef .tc main_arg4) = m ((c.tc : Thread nD τ).loc main_arg4) := by
  show StableHlo.after seg2 (StableHlo.after seg1 (launchContents m c)) (Proc.devRef .tc main_arg4) = _
  after_results
  all_goals rfl

theorem u2_arg5 (c : Dev nD) : U2 m c (Proc.devRef .tc main_arg5) = m ((c.tc : Thread nD τ).loc main_arg5) := by
  show StableHlo.after seg2 (StableHlo.after seg1 (launchContents m c)) (Proc.devRef .tc main_arg5) = _
  after_results
  all_goals rfl

/-! ### After stretch 3 -/

set_option maxHeartbeats 4000000 in
theorem u3_v31 (c : Dev nD) : U3 m c (Proc.devRef .tc main_v31) = Cert.ReferenceIdeal.ReadP.val_main_v31 (F := Ideal) (m ((c.tc : Thread nD τ).loc main_arg1)) (m ((c.tc : Thread nD τ).loc main_arg2)) := by
  show StableHlo.after seg3 (U2 m c) (Proc.devRef .tc main_v31) = _
  have h0 := u2_v15 m c
  have h1 := u2_v5 m c
  have h2 := u2_v8 m c
  have h3 := u2_v6 m c
  generalize U2 m c = Vp at *
  after_results
  rw [h0, h1, h2, h3]
  all_goals rfl

set_option maxHeartbeats 4000000 in
theorem u3_v36 (c : Dev nD) : U3 m c (Proc.devRef .tc main_v36) = Cert.ReferenceIdeal.ReadP.val_main_v36 (F := Ideal) (m ((c.tc : Thread nD τ).loc main_arg0)) (m ((c.tc : Thread nD τ).loc main_arg3)) (m ((c.tc : Thread nD τ).loc main_arg4)) (m ((c.tc : Thread nD τ).loc main_arg5)) := by
  show StableHlo.after seg3 (U2 m c) (Proc.devRef .tc main_v36) = _
  have h0 := u2_arg0 m c
  have h1 := u2_arg3 m c
  have h2 := u2_arg4 m c
  have h3 := u2_arg5 m c
  generalize U2 m c = Vp at *
  after_results
  rw [h0, h1, h2, h3]
  all_goals rfl

theorem u3_v5 (c : Dev nD) : U3 m c (Proc.devRef .tc main_v5) = Cert.ReferenceIdeal.ReadP.val_main_v5 (F := Ideal) (m ((c.tc : Thread nD τ).loc main_arg1)) := by
  show StableHlo.after seg3 (U2 m c) (Proc.devRef .tc main_v5) = _
  have h0 := u2_v5 m c
  generalize U2 m c = Vp at *
  after_results
  rw [h0]
  all_goals rfl

theorem u3_v6 (c : Dev nD) : U3 m c (Proc.devRef .tc main_v6) = Cert.ReferenceIdeal.ReadP.val_main_v6 (F := Ideal) (m ((c.tc : Thread nD τ).loc main_arg1)) := by
  show StableHlo.after seg3 (U2 m c) (Proc.devRef .tc main_v6) = _
  have h0 := u2_v6 m c
  generalize U2 m c = Vp at *
  after_results
  rw [h0]
  all_goals rfl

/-! ### After stretch 4 -/

theorem u4_v37 (c : Dev nD) : U4 m c (Proc.devRef .tc main_v37) = Cert.ReferenceIdeal.ReadP.val_main_v37 (F := Ideal) (m ((c.tc : Thread nD τ).loc main_arg0)) (m ((c.tc : Thread nD τ).loc main_arg3)) (m ((c.tc : Thread nD τ).loc main_arg4)) (m ((c.tc : Thread nD τ).loc main_arg5)) := by
  show StableHlo.after seg4 (U3 m c) (Proc.devRef .tc main_v37) = _
  have h0 := u3_v36 m c
  generalize U3 m c = Vp at *
  after_results
  simp only [TRef.ofBuf_toBuf]
  refine TRef.toBuf_eq_of_heq _ _ _ (heq_of_eq ?_)
  rw [TRef.ofBuf_eq_of_heq (TRef.of main_v36) _ _ (heq_of_eq h0)]
  rfl

theorem u4_v31 (c : Dev nD) : U4 m c (Proc.devRef .tc main_v31) = Cert.ReferenceIdeal.ReadP.val_main_v31 (F := Ideal) (m ((c.tc : Thread nD τ).loc main_arg1)) (m ((c.tc : Thread nD τ).loc main_arg2)) := by
  show StableHlo.after seg4 (U3 m c) (Proc.devRef .tc main_v31) = _
  have h0 := u3_v31 m c
  generalize U3 m c = Vp at *
  after_results
  rw [h0]
  all_goals rfl

theorem u4_v5 (c : Dev nD) : U4 m c (Proc.devRef .tc main_v5) = Cert.ReferenceIdeal.ReadP.val_main_v5 (F := Ideal) (m ((c.tc : Thread nD τ).loc main_arg1)) := by
  show StableHlo.after seg4 (U3 m c) (Proc.devRef .tc main_v5) = _
  have h0 := u3_v5 m c
  generalize U3 m c = Vp at *
  after_results
  rw [h0]
  all_goals rfl

theorem u4_v6 (c : Dev nD) : U4 m c (Proc.devRef .tc main_v6) = Cert.ReferenceIdeal.ReadP.val_main_v6 (F := Ideal) (m ((c.tc : Thread nD τ).loc main_arg1)) := by
  show StableHlo.after seg4 (U3 m c) (Proc.devRef .tc main_v6) = _
  have h0 := u3_v6 m c
  generalize U3 m c = Vp at *
  after_results
  rw [h0]
  all_goals rfl

theorem u4_arg6 (c : Dev nD) : U4 m c (Proc.devRef .tc main_arg6) = m ((c.tc : Thread nD τ).loc main_arg6) := by
  show StableHlo.after seg4 (StableHlo.after seg3 (StableHlo.after seg2 (StableHlo.after seg1 (launchContents m c)))) (Proc.devRef .tc main_arg6) = _
  after_results
  all_goals rfl

theorem u4_arg7 (c : Dev nD) : U4 m c (Proc.devRef .tc main_arg7) = m ((c.tc : Thread nD τ).loc main_arg7) := by
  show StableHlo.after seg4 (StableHlo.after seg3 (StableHlo.after seg2 (StableHlo.after seg1 (launchContents m c)))) (Proc.devRef .tc main_arg7) = _
  after_results
  all_goals rfl

/-! ### After stretch 5 -/

set_option maxHeartbeats 4000000 in
theorem u5_v54 (c : Dev nD) : U5 m c (Proc.devRef .tc main_v54) = Cert.ReferenceIdeal.ReadP.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after seg5 (U4 m c) (Proc.devRef .tc main_v54) = _
  have h0 := u4_v6 m c
  have h1 := u4_v37 m c
  have h2 := u4_arg6 m c
  have h3 := u4_v5 m c
  have h4 := u4_v31 m c
  have h5 := u4_arg7 m c
  generalize U4 m c = Vp at *
  after_results
  rw [h0, h1, h2, h3, h4, h5]
  all_goals rfl

theorem u5_v31 (c : Dev nD) : U5 m c (Proc.devRef .tc main_v31) = Cert.ReferenceIdeal.ReadP.val_main_v31 (F := Ideal) (m ((c.tc : Thread nD τ).loc main_arg1)) (m ((c.tc : Thread nD τ).loc main_arg2)) := by
  show StableHlo.after seg5 (U4 m c) (Proc.devRef .tc main_v31) = _
  have h0 := u4_v31 m c
  generalize U4 m c = Vp at *
  after_results
  rw [h0]
  all_goals rfl

theorem u5_v5 (c : Dev nD) : U5 m c (Proc.devRef .tc main_v5) = Cert.ReferenceIdeal.ReadP.val_main_v5 (F := Ideal) (m ((c.tc : Thread nD τ).loc main_arg1)) := by
  show StableHlo.after seg5 (U4 m c) (Proc.devRef .tc main_v5) = _
  have h0 := u4_v5 m c
  generalize U4 m c = Vp at *
  after_results
  rw [h0]
  all_goals rfl

theorem u5_v6 (c : Dev nD) : U5 m c (Proc.devRef .tc main_v6) = Cert.ReferenceIdeal.ReadP.val_main_v6 (F := Ideal) (m ((c.tc : Thread nD τ).loc main_arg1)) := by
  show StableHlo.after seg5 (U4 m c) (Proc.devRef .tc main_v6) = _
  have h0 := u4_v6 m c
  generalize U4 m c = Vp at *
  after_results
  rw [h0]
  all_goals rfl

/-! ### After stretch 6 -/

theorem u6_v55 (c : Dev nD) : U6 m c (Proc.devRef .tc main_v55) = Cert.ReferenceIdeal.ReadP.val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after seg6 (U5 m c) (Proc.devRef .tc main_v55) = _
  have h0 := u5_v54 m c
  generalize U5 m c = Vp at *
  after_results
  simp only [TRef.ofBuf_toBuf]
  refine TRef.toBuf_eq_of_heq _ _ _ (heq_of_eq ?_)
  rw [TRef.ofBuf_eq_of_heq (TRef.of main_v54) _ _ (heq_of_eq h0)]
  rfl

theorem u6_v31 (c : Dev nD) : U6 m c (Proc.devRef .tc main_v31) = Cert.ReferenceIdeal.ReadP.val_main_v31 (F := Ideal) (m ((c.tc : Thread nD τ).loc main_arg1)) (m ((c.tc : Thread nD τ).loc main_arg2)) := by
  show StableHlo.after seg6 (U5 m c) (Proc.devRef .tc main_v31) = _
  have h0 := u5_v31 m c
  generalize U5 m c = Vp at *
  after_results
  rw [h0]
  all_goals rfl

theorem u6_v5 (c : Dev nD) : U6 m c (Proc.devRef .tc main_v5) = Cert.ReferenceIdeal.ReadP.val_main_v5 (F := Ideal) (m ((c.tc : Thread nD τ).loc main_arg1)) := by
  show StableHlo.after seg6 (U5 m c) (Proc.devRef .tc main_v5) = _
  have h0 := u5_v5 m c
  generalize U5 m c = Vp at *
  after_results
  rw [h0]
  all_goals rfl

theorem u6_v6 (c : Dev nD) : U6 m c (Proc.devRef .tc main_v6) = Cert.ReferenceIdeal.ReadP.val_main_v6 (F := Ideal) (m ((c.tc : Thread nD τ).loc main_arg1)) := by
  show StableHlo.after seg6 (U5 m c) (Proc.devRef .tc main_v6) = _
  have h0 := u5_v6 m c
  generalize U5 m c = Vp at *
  after_results
  rw [h0]
  all_goals rfl

theorem u6_arg8 (c : Dev nD) : U6 m c (Proc.devRef .tc main_arg8) = m ((c.tc : Thread nD τ).loc main_arg8) := by
  show StableHlo.after seg6 (StableHlo.after seg5 (StableHlo.after seg4 (StableHlo.after seg3 (StableHlo.after seg2 (StableHlo.after seg1 (launchContents m c)))))) (Proc.devRef .tc main_arg8) = _
  after_results
  all_goals rfl

theorem u6_arg9 (c : Dev nD) : U6 m c (Proc.devRef .tc main_arg9) = m ((c.tc : Thread nD τ).loc main_arg9) := by
  show StableHlo.after seg6 (StableHlo.after seg5 (StableHlo.after seg4 (StableHlo.after seg3 (StableHlo.after seg2 (StableHlo.after seg1 (launchContents m c)))))) (Proc.devRef .tc main_arg9) = _
  after_results
  all_goals rfl

/-! ### After stretch 7 -/

set_option maxHeartbeats 4000000 in
theorem u7_v72 (c : Dev nD) : U7 m c (Proc.devRef .tc main_v72) = Cert.ReferenceIdeal.ReadP.val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show StableHlo.after seg7 (U6 m c) (Proc.devRef .tc main_v72) = _
  have h0 := u6_v6 m c
  have h1 := u6_v55 m c
  have h2 := u6_arg8 m c
  have h3 := u6_v5 m c
  have h4 := u6_v31 m c
  have h5 := u6_arg9 m c
  generalize U6 m c = Vp at *
  after_results
  rw [h0, h1, h2, h3, h4, h5]
  all_goals rfl

/-! ### After stretch 8 -/

theorem u8_v73 (c : Dev nD) : U8 m c (Proc.devRef .tc main_v73) = Cert.ReferenceIdeal.ReadP.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show StableHlo.after seg8 (U7 m c) (Proc.devRef .tc main_v73) = _
  have h0 := u7_v72 m c
  generalize U7 m c = Vp at *
  after_results
  simp only [TRef.ofBuf_toBuf]
  refine TRef.toBuf_eq_of_heq _ _ _ (heq_of_eq ?_)
  rw [TRef.ofBuf_eq_of_heq (TRef.of main_v72) _ _ (heq_of_eq h0)]
  rfl

theorem u8_arg10 (c : Dev nD) : U8 m c (Proc.devRef .tc main_arg10) = m ((c.tc : Thread nD τ).loc main_arg10) := by
  show StableHlo.after seg8 (StableHlo.after seg7 (StableHlo.after seg6 (StableHlo.after seg5 (StableHlo.after seg4 (StableHlo.after seg3 (StableHlo.after seg2 (StableHlo.after seg1 (launchContents m c)))))))) (Proc.devRef .tc main_arg10) = _
  after_results
  all_goals rfl

theorem u8_arg11 (c : Dev nD) : U8 m c (Proc.devRef .tc main_arg11) = m ((c.tc : Thread nD τ).loc main_arg11) := by
  show StableHlo.after seg8 (StableHlo.after seg7 (StableHlo.after seg6 (StableHlo.after seg5 (StableHlo.after seg4 (StableHlo.after seg3 (StableHlo.after seg2 (StableHlo.after seg1 (launchContents m c)))))))) (Proc.devRef .tc main_arg11) = _
  after_results
  all_goals rfl

/-! ### After stretch 9 -/

set_option maxHeartbeats 4000000 in
theorem u9_v77 (c : Dev nD) : U9 m c (Proc.devRef .tc main_v77) = Cert.ReferenceIdeal.ReadP.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after seg9 (U8 m c) (Proc.devRef .tc main_v77) = _
  have h0 := u8_v73 m c
  have h1 := u8_arg10 m c
  have h2 := u8_arg11 m c
  generalize U8 m c = Vp at *
  after_results
  rw [h0, h1, h2]
  all_goals rfl

/-! ### After stretch 10 -/

set_option maxHeartbeats 4000000 in
theorem u10_v78 (c : Dev nD) : U10 m c (Proc.devRef .tc main_v78) = Cert.ReferenceIdeal.ReadP.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after seg10 (U9 m c) (Proc.devRef .tc main_v78) = _
  have h0 := u9_v77 m c
  generalize U9 m c = Vp at *
  after_results
  simp only [TRef.ofBuf_toBuf]
  refine TRef.toBuf_eq_of_heq _ _ _ (heq_of_eq ?_)
  rw [TRef.ofBuf_eq_of_heq (TRef.of main_v77) _ _ (heq_of_eq h0)]
  rfl

/-! ### The whole line -/

/-- The contents after the whole line are the contents after the last stretch. -/
theorem after_ops (c : Dev nD) : StableHlo.after (ValueP.ops (F := Ideal)) (launchContents m c) = U10 m c := by
  rw [ops_eq, after_append, after_append, after_append, after_append, after_append, after_append, after_append, after_append,
    after_append]

/-- The result buffer after the whole line holds the reference's last stage of the launch arguments. -/
theorem final_v78 (c : Dev nD) : StableHlo.after (ValueP.ops (F := Ideal)) (launchContents m c) (Proc.devRef .tc main_v78) = Cert.ReferenceIdeal.ReadP.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [after_ops]
  exact u10_v78 m c

set_option maxHeartbeats 4000000 in
/-- Argument 0 is never written. -/
theorem final_arg0 (c : Dev nD) : StableHlo.after (ValueP.ops (F := Ideal)) (launchContents m c) (Proc.devRef .tc main_arg0) = m ((c.tc : Thread nD τ).loc main_arg0) := by
  after_results
  all_goals rfl

set_option maxHeartbeats 4000000 in
/-- Argument 1 is never written. -/
theorem final_arg1 (c : Dev nD) : StableHlo.after (ValueP.ops (F := Ideal)) (launchContents m c) (Proc.devRef .tc main_arg1) = m ((c.tc : Thread nD τ).loc main_arg1) := by
  after_results
  all_goals rfl

set_option maxHeartbeats 4000000 in
/-- Argument 2 is never written. -/
theorem final_arg2 (c : Dev nD) : StableHlo.after (ValueP.ops (F := Ideal)) (launchContents m c) (Proc.devRef .tc main_arg2) = m ((c.tc : Thread nD τ).loc main_arg2) := by
  after_results
  all_goals rfl

set_option maxHeartbeats 4000000 in
/-- Argument 3 is never written. -/
theorem final_arg3 (c : Dev nD) : StableHlo.after (ValueP.ops (F := Ideal)) (launchContents m c) (Proc.devRef .tc main_arg3) = m ((c.tc : Thread nD τ).loc main_arg3) := by
  after_results
  all_goals rfl

set_option maxHeartbeats 4000000 in
/-- Argument 4 is never written. -/
theorem final_arg4 (c : Dev nD) : StableHlo.after (ValueP.ops (F := Ideal)) (launchContents m c) (Proc.devRef .tc main_arg4) = m ((c.tc : Thread nD τ).loc main_arg4) := by
  after_results
  all_goals rfl

set_option maxHeartbeats 4000000 in
/-- Argument 5 is never written. -/
theorem final_arg5 (c : Dev nD) : StableHlo.after (ValueP.ops (F := Ideal)) (launchContents m c) (Proc.devRef .tc main_arg5) = m ((c.tc : Thread nD τ).loc main_arg5) := by
  after_results
  all_goals rfl

set_option maxHeartbeats 4000000 in
/-- Argument 6 is never written. -/
theorem final_arg6 (c : Dev nD) : StableHlo.after (ValueP.ops (F := Ideal)) (launchContents m c) (Proc.devRef .tc main_arg6) = m ((c.tc : Thread nD τ).loc main_arg6) := by
  after_results
  all_goals rfl

set_option maxHeartbeats 4000000 in
/-- Argument 7 is never written. -/
theorem final_arg7 (c : Dev nD) : StableHlo.after (ValueP.ops (F := Ideal)) (launchContents m c) (Proc.devRef .tc main_arg7) = m ((c.tc : Thread nD τ).loc main_arg7) := by
  after_results
  all_goals rfl

set_option maxHeartbeats 4000000 in
/-- Argument 8 is never written. -/
theorem final_arg8 (c : Dev nD) : StableHlo.after (ValueP.ops (F := Ideal)) (launchContents m c) (Proc.devRef .tc main_arg8) = m ((c.tc : Thread nD τ).loc main_arg8) := by
  after_results
  all_goals rfl

set_option maxHeartbeats 4000000 in
/-- Argument 9 is never written. -/
theorem final_arg9 (c : Dev nD) : StableHlo.after (ValueP.ops (F := Ideal)) (launchContents m c) (Proc.devRef .tc main_arg9) = m ((c.tc : Thread nD τ).loc main_arg9) := by
  after_results
  all_goals rfl

set_option maxHeartbeats 4000000 in
/-- Argument 10 is never written. -/
theorem final_arg10 (c : Dev nD) : StableHlo.after (ValueP.ops (F := Ideal)) (launchContents m c) (Proc.devRef .tc main_arg10) = m ((c.tc : Thread nD τ).loc main_arg10) := by
  after_results
  all_goals rfl

set_option maxHeartbeats 4000000 in
/-- Argument 11 is never written. -/
theorem final_arg11 (c : Dev nD) : StableHlo.after (ValueP.ops (F := Ideal)) (launchContents m c) (Proc.devRef .tc main_arg11) = m ((c.tc : Thread nD τ).loc main_arg11) := by
  after_results
  all_goals rfl

/-! ### The run -/

/-- Every weakly fair execution of the reference terminates with the result buffer at the reference's last stage of the
    launch arguments, and every argument as launched. -/
theorem run (ρ : Dev nD → PrngReg) : θ_run defs (onTc (τ := τ) (main (F := Ideal))) ⟨m, fun _ => 0, ρ⟩ fun r => ∀ c : Dev nD,
    r.2.mem ((c.tc : Thread nD τ).loc main_v78) = Cert.ReferenceIdeal.ReadP.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  (θ_run defs _ _).mono (fun _ h c => ⟨(h c main_v78).trans (final_v78 m c), (h c main_arg0).trans (final_arg0 m c),
    (h c main_arg1).trans (final_arg1 m c),
    (h c main_arg2).trans (final_arg2 m c),
    (h c main_arg3).trans (final_arg3 m c),
    (h c main_arg4).trans (final_arg4 m c),
    (h c main_arg5).trans (final_arg5 m c),
    (h c main_arg6).trans (final_arg6 m c),
    (h c main_arg7).trans (final_arg7 m c),
    (h c main_arg8).trans (final_arg8 m c),
    (h c main_arg9).trans (final_arg9 m c),
    (h c main_arg10).trans (final_arg10 m c),
    (h c main_arg11).trans (final_arg11 m c)⟩)
    (run_seq ValueP.scopedRefs_eq ValueP.scopedSems_eq defs main (fun _ => ValueP.ops) ValueP.main_eq (fun _ => ValueP.ops_sub) m ρ)

end Cert.ReferenceIdeal.RunValue

end
-- ==== Proof.HostToRegion0.lean ====
/-
  The host operations from the launch to region 0, read at the buffers the later steps use.

  Both programs begin with the same graph normalisation: the edge list gets a self loop per node, the degree of a node is
  the scatter-added weight of its incoming edges, the inverse square root of a positive degree (zero otherwise) scales
  both ends of an edge, and the node features are the input features beside the embedding. The kernel's operations are
  the reference's, one for one, so each buffer holds the reference's stage of the same arguments: the extended source
  and target lists (stages 5 and 6), the extended weights (8), the inverse-root degrees (15), the edge norm (31), the
  concatenated features (32); the first bias is re-laid as one row, and the weight matrices are as launched.
-/
import proofs.«163008_j1984274891426_1_alg».proof.Proof.Gen.KernelIdeal.Frame
import proofs.«163008_j1984274891426_1_alg».proof.Proof.RefReadP
import proofs.«163008_j1984274891426_1_alg».proof.Proof.LibTypedBuf
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

theorem w1_v5 (c : Dev nD) : W1 m ρ c (Proc.devRef .tc main_v5) = Cert.ReferenceIdeal.ReadP.val_main_v5 (F := Ideal) (m ((c.tc : Thread nD τ).loc main_arg1)) := by
  show StableHlo.after hostOps0 (W0 m ρ c) (Proc.devRef .tc main_v5) = _
  after_results
  all_goals rfl

theorem w1_v6 (c : Dev nD) : W1 m ρ c (Proc.devRef .tc main_v6) = Cert.ReferenceIdeal.ReadP.val_main_v6 (F := Ideal) (m ((c.tc : Thread nD τ).loc main_arg1)) := by
  show StableHlo.after hostOps0 (W0 m ρ c) (Proc.devRef .tc main_v6) = _
  after_results
  all_goals rfl

theorem w1_v8 (c : Dev nD) : W1 m ρ c (Proc.devRef .tc main_v8) = Cert.ReferenceIdeal.ReadP.val_main_v8 (F := Ideal) (m ((c.tc : Thread nD τ).loc main_arg2)) := by
  show StableHlo.after hostOps0 (W0 m ρ c) (Proc.devRef .tc main_v8) = _
  after_results
  all_goals rfl

theorem w1_v13 (c : Dev nD) : W1 m ρ c (Proc.devRef .tc main_v13) = Cert.ReferenceIdeal.ReadP.val_main_v13 (F := Ideal) (m ((c.tc : Thread nD τ).loc main_arg1)) (m ((c.tc : Thread nD τ).loc main_arg2)) := by
  show StableHlo.after hostOps0 (W0 m ρ c) (Proc.devRef .tc main_v13) = _
  after_results
  all_goals rfl

theorem w1_v14 (c : Dev nD) : W1 m ρ c (Proc.devRef .tc main_v14) = Cert.ReferenceIdeal.ReadP.val_main_v14 (F := Ideal) (m ((c.tc : Thread nD τ).loc main_arg1)) (m ((c.tc : Thread nD τ).loc main_arg2)) := by
  show StableHlo.after hostOps0 (W0 m ρ c) (Proc.devRef .tc main_v14) = _
  after_results
  all_goals rfl

theorem w1_cst_2 (c : Dev nD) : W1 m ρ c (Proc.devRef .tc main_cst_2) = Cert.ReferenceIdeal.ReadP.val_main_cst_2 (F := Ideal) := by
  show StableHlo.after hostOps0 (W0 m ρ c) (Proc.devRef .tc main_cst_2) = _
  after_results
  all_goals rfl

theorem w1_arg0 (c : Dev nD) : W1 m ρ c (Proc.devRef .tc main_arg0) = m ((c.tc : Thread nD τ).loc main_arg0) := by
  show StableHlo.after hostOps0 (W0 m ρ c) (Proc.devRef .tc main_arg0) = _
  after_results
  all_goals rfl

theorem w1_arg3 (c : Dev nD) : W1 m ρ c (Proc.devRef .tc main_arg3) = m ((c.tc : Thread nD τ).loc main_arg3) := by
  show StableHlo.after hostOps0 (W0 m ρ c) (Proc.devRef .tc main_arg3) = _
  after_results
  all_goals rfl

theorem w1_arg4 (c : Dev nD) : W1 m ρ c (Proc.devRef .tc main_arg4) = m ((c.tc : Thread nD τ).loc main_arg4) := by
  show StableHlo.after hostOps0 (W0 m ρ c) (Proc.devRef .tc main_arg4) = _
  after_results
  all_goals rfl

theorem w1_arg5 (c : Dev nD) : W1 m ρ c (Proc.devRef .tc main_arg5) = m ((c.tc : Thread nD τ).loc main_arg5) := by
  show StableHlo.after hostOps0 (W0 m ρ c) (Proc.devRef .tc main_arg5) = _
  after_results
  all_goals rfl

theorem w1_arg6 (c : Dev nD) : W1 m ρ c (Proc.devRef .tc main_arg6) = m ((c.tc : Thread nD τ).loc main_arg6) := by
  show StableHlo.after hostOps0 (W0 m ρ c) (Proc.devRef .tc main_arg6) = _
  after_results
  all_goals rfl

theorem w1_arg7 (c : Dev nD) : W1 m ρ c (Proc.devRef .tc main_arg7) = m ((c.tc : Thread nD τ).loc main_arg7) := by
  show StableHlo.after hostOps0 (W0 m ρ c) (Proc.devRef .tc main_arg7) = _
  after_results
  all_goals rfl

theorem w1_arg8 (c : Dev nD) : W1 m ρ c (Proc.devRef .tc main_arg8) = m ((c.tc : Thread nD τ).loc main_arg8) := by
  show StableHlo.after hostOps0 (W0 m ρ c) (Proc.devRef .tc main_arg8) = _
  after_results
  all_goals rfl

theorem w1_arg9 (c : Dev nD) : W1 m ρ c (Proc.devRef .tc main_arg9) = m ((c.tc : Thread nD τ).loc main_arg9) := by
  show StableHlo.after hostOps0 (W0 m ρ c) (Proc.devRef .tc main_arg9) = _
  after_results
  all_goals rfl

theorem w1_arg10 (c : Dev nD) : W1 m ρ c (Proc.devRef .tc main_arg10) = m ((c.tc : Thread nD τ).loc main_arg10) := by
  show StableHlo.after hostOps0 (W0 m ρ c) (Proc.devRef .tc main_arg10) = _
  after_results
  all_goals rfl

theorem w1_arg11 (c : Dev nD) : W1 m ρ c (Proc.devRef .tc main_arg11) = m ((c.tc : Thread nD τ).loc main_arg11) := by
  show StableHlo.after hostOps0 (W0 m ρ c) (Proc.devRef .tc main_arg11) = _
  after_results
  all_goals rfl

theorem w2_v15 (c : Dev nD) : W2 m ρ c (Proc.devRef .tc main_v15) = Cert.ReferenceIdeal.ReadP.val_main_v15 (F := Ideal) (m ((c.tc : Thread nD τ).loc main_arg1)) (m ((c.tc : Thread nD τ).loc main_arg2)) := by
  show StableHlo.after hostOps0_1 (W1 m ρ c) (Proc.devRef .tc main_v15) = _
  have h0 := w1_v13 m ρ c
  have h1 := w1_v14 m ρ c
  have h2 := w1_cst_2 m ρ c
  generalize W1 m ρ c = Vp at *
  after_results
  simp only [TRef.ofBuf_toBuf]
  refine TRef.toBuf_eq_of_heq _ _ _ (heq_of_eq ?_)
  rw [TRef.ofBuf_eq_of_heq (TRef.of main_v13) _ _ (heq_of_eq h0), TRef.ofBuf_eq_of_heq (TRef.of main_v14) _ _ (heq_of_eq h1),
    TRef.ofBuf_eq_of_heq (TRef.of main_cst_2) _ _ (heq_of_eq h2)]
  rfl

theorem w2_v5 (c : Dev nD) : W2 m ρ c (Proc.devRef .tc main_v5) = Cert.ReferenceIdeal.ReadP.val_main_v5 (F := Ideal) (m ((c.tc : Thread nD τ).loc main_arg1)) := by
  show StableHlo.after hostOps0_1 (W1 m ρ c) (Proc.devRef .tc main_v5) = _
  have h0 := w1_v5 m ρ c
  generalize W1 m ρ c = Vp at *
  after_results
  rw [h0]
  all_goals rfl

theorem w2_v6 (c : Dev nD) : W2 m ρ c (Proc.devRef .tc main_v6) = Cert.ReferenceIdeal.ReadP.val_main_v6 (F := Ideal) (m ((c.tc : Thread nD τ).loc main_arg1)) := by
  show StableHlo.after hostOps0_1 (W1 m ρ c) (Proc.devRef .tc main_v6) = _
  have h0 := w1_v6 m ρ c
  generalize W1 m ρ c = Vp at *
  after_results
  rw [h0]
  all_goals rfl

theorem w2_v8 (c : Dev nD) : W2 m ρ c (Proc.devRef .tc main_v8) = Cert.ReferenceIdeal.ReadP.val_main_v8 (F := Ideal) (m ((c.tc : Thread nD τ).loc main_arg2)) := by
  show StableHlo.after hostOps0_1 (W1 m ρ c) (Proc.devRef .tc main_v8) = _
  have h0 := w1_v8 m ρ c
  generalize W1 m ρ c = Vp at *
  after_results
  rw [h0]
  all_goals rfl

theorem w2_arg0 (c : Dev nD) : W2 m ρ c (Proc.devRef .tc main_arg0) = m ((c.tc : Thread nD τ).loc main_arg0) := by
  show StableHlo.after hostOps0_1 (W1 m ρ c) (Proc.devRef .tc main_arg0) = _
  have h0 := w1_arg0 m ρ c
  generalize W1 m ρ c = Vp at *
  after_results
  rw [h0]
  all_goals rfl

theorem w2_arg3 (c : Dev nD) : W2 m ρ c (Proc.devRef .tc main_arg3) = m ((c.tc : Thread nD τ).loc main_arg3) := by
  show StableHlo.after hostOps0_1 (W1 m ρ c) (Proc.devRef .tc main_arg3) = _
  have h0 := w1_arg3 m ρ c
  generalize W1 m ρ c = Vp at *
  after_results
  rw [h0]
  all_goals rfl

theorem w2_arg4 (c : Dev nD) : W2 m ρ c (Proc.devRef .tc main_arg4) = m ((c.tc : Thread nD τ).loc main_arg4) := by
  show StableHlo.after hostOps0_1 (W1 m ρ c) (Proc.devRef .tc main_arg4) = _
  have h0 := w1_arg4 m ρ c
  generalize W1 m ρ c = Vp at *
  after_results
  rw [h0]
  all_goals rfl

theorem w2_arg5 (c : Dev nD) : W2 m ρ c (Proc.devRef .tc main_arg5) = m ((c.tc : Thread nD τ).loc main_arg5) := by
  show StableHlo.after hostOps0_1 (W1 m ρ c) (Proc.devRef .tc main_arg5) = _
  have h0 := w1_arg5 m ρ c
  generalize W1 m ρ c = Vp at *
  after_results
  rw [h0]
  all_goals rfl

theorem w2_arg6 (c : Dev nD) : W2 m ρ c (Proc.devRef .tc main_arg6) = m ((c.tc : Thread nD τ).loc main_arg6) := by
  show StableHlo.after hostOps0_1 (W1 m ρ c) (Proc.devRef .tc main_arg6) = _
  have h0 := w1_arg6 m ρ c
  generalize W1 m ρ c = Vp at *
  after_results
  rw [h0]
  all_goals rfl

theorem w2_arg7 (c : Dev nD) : W2 m ρ c (Proc.devRef .tc main_arg7) = m ((c.tc : Thread nD τ).loc main_arg7) := by
  show StableHlo.after hostOps0_1 (W1 m ρ c) (Proc.devRef .tc main_arg7) = _
  have h0 := w1_arg7 m ρ c
  generalize W1 m ρ c = Vp at *
  after_results
  rw [h0]
  all_goals rfl

theorem w2_arg8 (c : Dev nD) : W2 m ρ c (Proc.devRef .tc main_arg8) = m ((c.tc : Thread nD τ).loc main_arg8) := by
  show StableHlo.after hostOps0_1 (W1 m ρ c) (Proc.devRef .tc main_arg8) = _
  have h0 := w1_arg8 m ρ c
  generalize W1 m ρ c = Vp at *
  after_results
  rw [h0]
  all_goals rfl

theorem w2_arg9 (c : Dev nD) : W2 m ρ c (Proc.devRef .tc main_arg9) = m ((c.tc : Thread nD τ).loc main_arg9) := by
  show StableHlo.after hostOps0_1 (W1 m ρ c) (Proc.devRef .tc main_arg9) = _
  have h0 := w1_arg9 m ρ c
  generalize W1 m ρ c = Vp at *
  after_results
  rw [h0]
  all_goals rfl

theorem w2_arg10 (c : Dev nD) : W2 m ρ c (Proc.devRef .tc main_arg10) = m ((c.tc : Thread nD τ).loc main_arg10) := by
  show StableHlo.after hostOps0_1 (W1 m ρ c) (Proc.devRef .tc main_arg10) = _
  have h0 := w1_arg10 m ρ c
  generalize W1 m ρ c = Vp at *
  after_results
  rw [h0]
  all_goals rfl

theorem w2_arg11 (c : Dev nD) : W2 m ρ c (Proc.devRef .tc main_arg11) = m ((c.tc : Thread nD τ).loc main_arg11) := by
  show StableHlo.after hostOps0_1 (W1 m ρ c) (Proc.devRef .tc main_arg11) = _
  have h0 := w1_arg11 m ρ c
  generalize W1 m ρ c = Vp at *
  after_results
  rw [h0]
  all_goals rfl

set_option maxHeartbeats 4000000 in
theorem w3_v31 (c : Dev nD) : W3 m ρ c (Proc.devRef .tc main_v31) = Cert.ReferenceIdeal.ReadP.val_main_v31 (F := Ideal) (m ((c.tc : Thread nD τ).loc main_arg1)) (m ((c.tc : Thread nD τ).loc main_arg2)) := by
  show StableHlo.after hostOps0_2 (W2 m ρ c) (Proc.devRef .tc main_v31) = _
  have h0 := w2_v15 m ρ c
  have h1 := w2_v5 m ρ c
  have h2 := w2_v6 m ρ c
  have h3 := w2_v8 m ρ c
  generalize W2 m ρ c = Vp at *
  after_results
  rw [h0, h1, h2, h3]
  all_goals rfl

theorem w3_v32 (c : Dev nD) : W3 m ρ c (Proc.devRef .tc main_v32) = Cert.ReferenceIdeal.ReadP.val_main_v32 (F := Ideal) (m ((c.tc : Thread nD τ).loc main_arg0)) (m ((c.tc : Thread nD τ).loc main_arg3)) := by
  show StableHlo.after hostOps0_2 (W2 m ρ c) (Proc.devRef .tc main_v32) = _
  have h0 := w2_arg0 m ρ c
  have h1 := w2_arg3 m ρ c
  generalize W2 m ρ c = Vp at *
  after_results
  rw [h0, h1]
  all_goals rfl

theorem w3_v5 (c : Dev nD) : W3 m ρ c (Proc.devRef .tc main_v5) = Cert.ReferenceIdeal.ReadP.val_main_v5 (F := Ideal) (m ((c.tc : Thread nD τ).loc main_arg1)) := by
  show StableHlo.after hostOps0_2 (W2 m ρ c) (Proc.devRef .tc main_v5) = _
  have h0 := w2_v5 m ρ c
  generalize W2 m ρ c = Vp at *
  after_results
  rw [h0]
  all_goals rfl

theorem w3_v6 (c : Dev nD) : W3 m ρ c (Proc.devRef .tc main_v6) = Cert.ReferenceIdeal.ReadP.val_main_v6 (F := Ideal) (m ((c.tc : Thread nD τ).loc main_arg1)) := by
  show StableHlo.after hostOps0_2 (W2 m ρ c) (Proc.devRef .tc main_v6) = _
  have h0 := w2_v6 m ρ c
  generalize W2 m ρ c = Vp at *
  after_results
  rw [h0]
  all_goals rfl

theorem w3_arg4 (c : Dev nD) : W3 m ρ c (Proc.devRef .tc main_arg4) = m ((c.tc : Thread nD τ).loc main_arg4) := by
  show StableHlo.after hostOps0_2 (W2 m ρ c) (Proc.devRef .tc main_arg4) = _
  have h0 := w2_arg4 m ρ c
  generalize W2 m ρ c = Vp at *
  after_results
  rw [h0]
  all_goals rfl

theorem w3_arg6 (c : Dev nD) : W3 m ρ c (Proc.devRef .tc main_arg6) = m ((c.tc : Thread nD τ).loc main_arg6) := by
  show StableHlo.after hostOps0_2 (W2 m ρ c) (Proc.devRef .tc main_arg6) = _
  have h0 := w2_arg6 m ρ c
  generalize W2 m ρ c = Vp at *
  after_results
  rw [h0]
  all_goals rfl

theorem w3_arg7 (c : Dev nD) : W3 m ρ c (Proc.devRef .tc main_arg7) = m ((c.tc : Thread nD τ).loc main_arg7) := by
  show StableHlo.after hostOps0_2 (W2 m ρ c) (Proc.devRef .tc main_arg7) = _
  have h0 := w2_arg7 m ρ c
  generalize W2 m ρ c = Vp at *
  after_results
  rw [h0]
  all_goals rfl

theorem w3_arg8 (c : Dev nD) : W3 m ρ c (Proc.devRef .tc main_arg8) = m ((c.tc : Thread nD τ).loc main_arg8) := by
  show StableHlo.after hostOps0_2 (W2 m ρ c) (Proc.devRef .tc main_arg8) = _
  have h0 := w2_arg8 m ρ c
  generalize W2 m ρ c = Vp at *
  after_results
  rw [h0]
  all_goals rfl

theorem w3_arg9 (c : Dev nD) : W3 m ρ c (Proc.devRef .tc main_arg9) = m ((c.tc : Thread nD τ).loc main_arg9) := by
  show StableHlo.after hostOps0_2 (W2 m ρ c) (Proc.devRef .tc main_arg9) = _
  have h0 := w2_arg9 m ρ c
  generalize W2 m ρ c = Vp at *
  after_results
  rw [h0]
  all_goals rfl

theorem w3_arg10 (c : Dev nD) : W3 m ρ c (Proc.devRef .tc main_arg10) = m ((c.tc : Thread nD τ).loc main_arg10) := by
  show StableHlo.after hostOps0_2 (W2 m ρ c) (Proc.devRef .tc main_arg10) = _
  have h0 := w2_arg10 m ρ c
  generalize W2 m ρ c = Vp at *
  after_results
  rw [h0]
  all_goals rfl

theorem w3_arg11 (c : Dev nD) : W3 m ρ c (Proc.devRef .tc main_arg11) = m ((c.tc : Thread nD τ).loc main_arg11) := by
  show StableHlo.after hostOps0_2 (W2 m ρ c) (Proc.devRef .tc main_arg11) = _
  have h0 := w2_arg11 m ρ c
  generalize W2 m ρ c = Vp at *
  after_results
  rw [h0]
  all_goals rfl

end Cert.KernelIdeal.HostValue

end
-- ==== Proof.HostToRegion1.lean ====
/-
  The host operations between region 0 and region 1, read at the buffers the later steps use.

  A region writes only its own arrays, so across region 0 every other buffer holds what it held before: the extended
  source and target lists (stages 5 and 6), the edge norm (31) and the later weight matrices and biases. The seventeen
  host operations after region 0 are the reference's first propagation, one for one: each edge gathers the row of
  region 0's output at its source node, scales it by the edge's norm, and the rows are scatter-added at the target
  nodes (the reference's stage 51, when region 0's output is the reference's stage 38). A bias re-laid from [64] to
  [1, 64] reads, at (0, k), the bias at k: the two positions are the same in row-major order.
-/
import proofs.«163008_j1984274891426_1_alg».proof.Proof.HostToRegion0
import Idealize.ShloMosaic.Lib.ValueLayout

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The first bias re-laid as one row: the [64] array cast to [1, 64]. -/
theorem w3_v33 (c : Dev nD) : W3 m ρ c (Proc.devRef .tc main_v33) = shapeCast S1x64 (m ((c.tc : Thread nD τ).loc main_arg5)) Facts₀.shapeCasts_S64_S1x64 := by
  show StableHlo.after hostOps0_2 (W2 m ρ c) (Proc.devRef .tc main_v33) = _
  have h0 := w2_arg5 m ρ c
  generalize W2 m ρ c = Vp at *
  after_results
  rw [h0]
  all_goals rfl

theorem w3_v33_at (c : Dev nD) (k : Fin 64) : (W3 m ρ c (Proc.devRef .tc main_v33)) (ValueIdx.ix2 0 k) = (m ((c.tc : Thread nD τ).loc main_arg5)) (ValueIdx.ix1 k) := by
  rw [w3_v33]
  exact ValueIdx.shapeCast_a_1a_apply _ _ 0 k

theorem w4_v5 (c : Dev nD) : W4 m ρ c (Proc.devRef .tc main_v5) = Cert.ReferenceIdeal.ReadP.val_main_v5 (F := Ideal) (m ((c.tc : Thread nD τ).loc main_arg1)) :=
  (W4_of_ne m ρ c main_v5 (by decide)).trans (w3_v5 m ρ c)

theorem w4_v6 (c : Dev nD) : W4 m ρ c (Proc.devRef .tc main_v6) = Cert.ReferenceIdeal.ReadP.val_main_v6 (F := Ideal) (m ((c.tc : Thread nD τ).loc main_arg1)) :=
  (W4_of_ne m ρ c main_v6 (by decide)).trans (w3_v6 m ρ c)

theorem w4_v31 (c : Dev nD) : W4 m ρ c (Proc.devRef .tc main_v31) = Cert.ReferenceIdeal.ReadP.val_main_v31 (F := Ideal) (m ((c.tc : Thread nD τ).loc main_arg1)) (m ((c.tc : Thread nD τ).loc main_arg2)) :=
  (W4_of_ne m ρ c main_v31 (by decide)).trans (w3_v31 m ρ c)

theorem w4_arg7 (c : Dev nD) : W4 m ρ c (Proc.devRef .tc main_arg7) = m ((c.tc : Thread nD τ).loc main_arg7) :=
  (W4_of_ne m ρ c main_arg7 (by decide)).trans (w3_arg7 m ρ c)

theorem w4_arg8 (c : Dev nD) : W4 m ρ c (Proc.devRef .tc main_arg8) = m ((c.tc : Thread nD τ).loc main_arg8) :=
  (W4_of_ne m ρ c main_arg8 (by decide)).trans (w3_arg8 m ρ c)

theorem w4_arg9 (c : Dev nD) : W4 m ρ c (Proc.devRef .tc main_arg9) = m ((c.tc : Thread nD τ).loc main_arg9) :=
  (W4_of_ne m ρ c main_arg9 (by decide)).trans (w3_arg9 m ρ c)

theorem w4_arg10 (c : Dev nD) : W4 m ρ c (Proc.devRef .tc main_arg10) = m ((c.tc : Thread nD τ).loc main_arg10) :=
  (W4_of_ne m ρ c main_arg10 (by decide)).trans (w3_arg10 m ρ c)

theorem w4_arg11 (c : Dev nD) : W4 m ρ c (Proc.devRef .tc main_arg11) = m ((c.tc : Thread nD τ).loc main_arg11) :=
  (W4_of_ne m ρ c main_arg11 (by decide)).trans (w3_arg11 m ρ c)

set_option maxHeartbeats 4000000 in
theorem w5_v47 (c : Dev nD) (h34 : W4 m ρ c (Proc.devRef .tc main_v34) = Cert.ReferenceIdeal.ReadP.val_main_v38 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) : W5 m ρ c (Proc.devRef .tc main_v47) = Cert.ReferenceIdeal.ReadP.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps1 (W4 m ρ c) (Proc.devRef .tc main_v47) = _
  have h0 := h34
  have h1 := w4_v5 m ρ c
  have h2 := w4_v6 m ρ c
  have h3 := w4_v31 m ρ c
  generalize W4 m ρ c = Vp at *
  after_results
  rw [h0, h1, h2, h3]
  all_goals rfl

/-- The second bias re-laid as one row. -/
theorem w5_v48 (c : Dev nD) : W5 m ρ c (Proc.devRef .tc main_v48) = shapeCast S1x64 (m ((c.tc : Thread nD τ).loc main_arg7)) Facts₀.shapeCasts_S64_S1x64 := by
  show StableHlo.after hostOps1 (W4 m ρ c) (Proc.devRef .tc main_v48) = _
  have h0 := w4_arg7 m ρ c
  generalize W4 m ρ c = Vp at *
  after_results
  rw [h0]
  all_goals rfl

theorem w5_v48_at (c : Dev nD) (k : Fin 64) : (W5 m ρ c (Proc.devRef .tc main_v48)) (ValueIdx.ix2 0 k) = (m ((c.tc : Thread nD τ).loc main_arg7)) (ValueIdx.ix1 k) := by
  rw [w5_v48]
  exact ValueIdx.shapeCast_a_1a_apply _ _ 0 k

theorem w5_v5 (c : Dev nD) : W5 m ρ c (Proc.devRef .tc main_v5) = Cert.ReferenceIdeal.ReadP.val_main_v5 (F := Ideal) (m ((c.tc : Thread nD τ).loc main_arg1)) := by
  show StableHlo.after hostOps1 (W4 m ρ c) (Proc.devRef .tc main_v5) = _
  have h0 := w4_v5 m ρ c
  generalize W4 m ρ c = Vp at *
  after_results
  rw [h0]
  all_goals rfl

theorem w5_v6 (c : Dev nD) : W5 m ρ c (Proc.devRef .tc main_v6) = Cert.ReferenceIdeal.ReadP.val_main_v6 (F := Ideal) (m ((c.tc : Thread nD τ).loc main_arg1)) := by
  show StableHlo.after hostOps1 (W4 m ρ c) (Proc.devRef .tc main_v6) = _
  have h0 := w4_v6 m ρ c
  generalize W4 m ρ c = Vp at *
  after_results
  rw [h0]
  all_goals rfl

theorem w5_v31 (c : Dev nD) : W5 m ρ c (Proc.devRef .tc main_v31) = Cert.ReferenceIdeal.ReadP.val_main_v31 (F := Ideal) (m ((c.tc : Thread nD τ).loc main_arg1)) (m ((c.tc : Thread nD τ).loc main_arg2)) := by
  show StableHlo.after hostOps1 (W4 m ρ c) (Proc.devRef .tc main_v31) = _
  have h0 := w4_v31 m ρ c
  generalize W4 m ρ c = Vp at *
  after_results
  rw [h0]
  all_goals rfl

theorem w5_arg8 (c : Dev nD) : W5 m ρ c (Proc.devRef .tc main_arg8) = m ((c.tc : Thread nD τ).loc main_arg8) := by
  show StableHlo.after hostOps1 (W4 m ρ c) (Proc.devRef .tc main_arg8) = _
  have h0 := w4_arg8 m ρ c
  generalize W4 m ρ c = Vp at *
  after_results
  rw [h0]
  all_goals rfl

theorem w5_arg9 (c : Dev nD) : W5 m ρ c (Proc.devRef .tc main_arg9) = m ((c.tc : Thread nD τ).loc main_arg9) := by
  show StableHlo.after hostOps1 (W4 m ρ c) (Proc.devRef .tc main_arg9) = _
  have h0 := w4_arg9 m ρ c
  generalize W4 m ρ c = Vp at *
  after_results
  rw [h0]
  all_goals rfl

theorem w5_arg10 (c : Dev nD) : W5 m ρ c (Proc.devRef .tc main_arg10) = m ((c.tc : Thread nD τ).loc main_arg10) := by
  show StableHlo.after hostOps1 (W4 m ρ c) (Proc.devRef .tc main_arg10) = _
  have h0 := w4_arg10 m ρ c
  generalize W4 m ρ c = Vp at *
  after_results
  rw [h0]
  all_goals rfl

theorem w5_arg11 (c : Dev nD) : W5 m ρ c (Proc.devRef .tc main_arg11) = m ((c.tc : Thread nD τ).loc main_arg11) := by
  show StableHlo.after hostOps1 (W4 m ρ c) (Proc.devRef .tc main_arg11) = _
  have h0 := w4_arg11 m ρ c
  generalize W4 m ρ c = Vp at *
  after_results
  rw [h0]
  all_goals rfl

end Cert.KernelIdeal.HostValue

end
-- ==== Proof.HostToRegion2.lean ====
/-
  The host operations between region 1 and region 2, read at the buffers the last region uses.

  Across region 1 every buffer that is not one of its arrays holds what it held before. The eighteen host operations
  after it are the reference's second propagation, one for one: each edge gathers the row of region 1's output at its
  source node, scales it by the edge's norm, and the rows are scatter-added at the target nodes (the reference's stage
  69, when region 1's output is the reference's stage 56). The last two biases are re-laid from [64] to [1, 64] and
  from [16] to [1, 16]: at (0, k) each reads the bias at k.
-/
import proofs.«163008_j1984274891426_1_alg».proof.Proof.HostToRegion1

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

theorem w6_v5 (c : Dev nD) : W6 m ρ c (Proc.devRef .tc main_v5) = Cert.ReferenceIdeal.ReadP.val_main_v5 (F := Ideal) (m ((c.tc : Thread nD τ).loc main_arg1)) :=
  (W6_of_ne m ρ c main_v5 (by decide)).trans (w5_v5 m ρ c)

theorem w6_v6 (c : Dev nD) : W6 m ρ c (Proc.devRef .tc main_v6) = Cert.ReferenceIdeal.ReadP.val_main_v6 (F := Ideal) (m ((c.tc : Thread nD τ).loc main_arg1)) :=
  (W6_of_ne m ρ c main_v6 (by decide)).trans (w5_v6 m ρ c)

theorem w6_v31 (c : Dev nD) : W6 m ρ c (Proc.devRef .tc main_v31) = Cert.ReferenceIdeal.ReadP.val_main_v31 (F := Ideal) (m ((c.tc : Thread nD τ).loc main_arg1)) (m ((c.tc : Thread nD τ).loc main_arg2)) :=
  (W6_of_ne m ρ c main_v31 (by decide)).trans (w5_v31 m ρ c)

theorem w6_arg9 (c : Dev nD) : W6 m ρ c (Proc.devRef .tc main_arg9) = m ((c.tc : Thread nD τ).loc main_arg9) :=
  (W6_of_ne m ρ c main_arg9 (by decide)).trans (w5_arg9 m ρ c)

theorem w6_arg10 (c : Dev nD) : W6 m ρ c (Proc.devRef .tc main_arg10) = m ((c.tc : Thread nD τ).loc main_arg10) :=
  (W6_of_ne m ρ c main_arg10 (by decide)).trans (w5_arg10 m ρ c)

theorem w6_arg11 (c : Dev nD) : W6 m ρ c (Proc.devRef .tc main_arg11) = m ((c.tc : Thread nD τ).loc main_arg11) :=
  (W6_of_ne m ρ c main_arg11 (by decide)).trans (w5_arg11 m ρ c)

set_option maxHeartbeats 4000000 in
theorem w7_v62 (c : Dev nD) (h49 : W6 m ρ c (Proc.devRef .tc main_v49) = Cert.ReferenceIdeal.ReadP.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) : W7 m ρ c (Proc.devRef .tc main_v62) = Cert.ReferenceIdeal.ReadP.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps2 (W6 m ρ c) (Proc.devRef .tc main_v62) = _
  have h0 := h49
  have h1 := w6_v5 m ρ c
  have h2 := w6_v6 m ρ c
  have h3 := w6_v31 m ρ c
  generalize W6 m ρ c = Vp at *
  after_results
  rw [h0, h1, h2, h3]
  all_goals rfl

/-- The third bias re-laid as one row. -/
theorem w7_v63 (c : Dev nD) : W7 m ρ c (Proc.devRef .tc main_v63) = shapeCast S1x64 (m ((c.tc : Thread nD τ).loc main_arg9)) Facts₀.shapeCasts_S64_S1x64 := by
  show StableHlo.after hostOps2 (W6 m ρ c) (Proc.devRef .tc main_v63) = _
  have h0 := w6_arg9 m ρ c
  generalize W6 m ρ c = Vp at *
  after_results
  rw [h0]
  all_goals rfl

theorem w7_v63_at (c : Dev nD) (k : Fin 64) : (W7 m ρ c (Proc.devRef .tc main_v63)) (ValueIdx.ix2 0 k) = (m ((c.tc : Thread nD τ).loc main_arg9)) (ValueIdx.ix1 k) := by
  rw [w7_v63]
  exact ValueIdx.shapeCast_a_1a_apply _ _ 0 k

/-- The last bias re-laid as one row. -/
theorem w7_v64 (c : Dev nD) : W7 m ρ c (Proc.devRef .tc main_v64) = shapeCast S1x16 (m ((c.tc : Thread nD τ).loc main_arg11)) Facts₀.shapeCasts_S16_S1x16 := by
  show StableHlo.after hostOps2 (W6 m ρ c) (Proc.devRef .tc main_v64) = _
  have h0 := w6_arg11 m ρ c
  generalize W6 m ρ c = Vp at *
  after_results
  rw [h0]
  all_goals rfl

theorem w7_v64_at (c : Dev nD) (k : Fin 16) : (W7 m ρ c (Proc.devRef .tc main_v64)) (ValueIdx.ix2 0 k) = (m ((c.tc : Thread nD τ).loc main_arg11)) (ValueIdx.ix1 k) := by
  rw [w7_v64]
  exact ValueIdx.shapeCast_a_1a_apply _ _ 0 k

theorem w7_arg10 (c : Dev nD) : W7 m ρ c (Proc.devRef .tc main_arg10) = m ((c.tc : Thread nD τ).loc main_arg10) := by
  show StableHlo.after hostOps2 (W6 m ρ c) (Proc.devRef .tc main_arg10) = _
  have h0 := w6_arg10 m ρ c
  generalize W6 m ρ c = Vp at *
  after_results
  rw [h0]
  all_goals rfl

end Cert.KernelIdeal.HostValue

end
-- ==== Proof.Region0.lean ====
/-
  Region 0 of the kernel's program (the first of its three row-tiled passes): what its output array holds when the
  region ends, as one function of the arrays the region finds, index by index.

  * The body at an index: the stored value at (p, q) of a tile is the sum over the 64 contracted positions k of
    max (sum over the 192 positions j of X (p, j) · Wf (j, k) + Bf (0, k), 0) · Wc (k, q); rounding to the narrower
    format is the identity on extended reals and each product's accumulator is the zero splat.
  * Blocks: the row-tiled input's block at a grid point is the array's rows of that point; the two weights' and the
    bias's windows always show their whole arrays.
  * Cover: the twenty row tiles of 5000 rows fill the 100000 rows, so the array ends at the function everywhere.
-/
import proofs.«163008_j1984274891426_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The two products' operand positions: at output position (r, c) and contracted position k the left operand is
    read at (r, k) and the right one at (k, c). -/

theorem lhsR0a_0 (i : S5000x64.Idx) (q : dot_S5000x192_S192x64_S5000x64_1_0_0_1_n_n.contr.Idx) :
    (dot_S5000x192_S192x64_S5000x64_1_0_0_1_n_n.lhsIdx i q 0).val = (i 0).val := by
  unfold DotDims.lhsIdx
  rw [dif_neg (show ¬(0 : Fin S5000x192.rank) ∈ dot_S5000x192_S192x64_S5000x64_1_0_0_1_n_n.lhsBatch by decide), dif_pos (show (0 : Fin S5000x192.rank) ∈ dot_S5000x192_S192x64_S5000x64_1_0_0_1_n_n.lhsNonContracting by decide)]
  rfl
theorem lhsR0a_1 (i : S5000x64.Idx) (q : dot_S5000x192_S192x64_S5000x64_1_0_0_1_n_n.contr.Idx) :
    (dot_S5000x192_S192x64_S5000x64_1_0_0_1_n_n.lhsIdx i q 1).val = (q ⟨0, by decide⟩).val :=
  dot_S5000x192_S192x64_S5000x64_1_0_0_1_n_n.lhsIdx_val_of_single rfl i q
theorem rhsR0a_0 (i : S5000x64.Idx) (q : dot_S5000x192_S192x64_S5000x64_1_0_0_1_n_n.contr.Idx) :
    (dot_S5000x192_S192x64_S5000x64_1_0_0_1_n_n.rhsIdx i q 0).val = (q ⟨0, by decide⟩).val :=
  dot_S5000x192_S192x64_S5000x64_1_0_0_1_n_n.rhsIdx_val_of_single rfl i q
theorem rhsR0a_1 (i : S5000x64.Idx) (q : dot_S5000x192_S192x64_S5000x64_1_0_0_1_n_n.contr.Idx) :
    (dot_S5000x192_S192x64_S5000x64_1_0_0_1_n_n.rhsIdx i q 1).val = (i 1).val := by
  unfold DotDims.rhsIdx
  rw [dif_neg (show ¬(1 : Fin S192x64.rank) ∈ dot_S5000x192_S192x64_S5000x64_1_0_0_1_n_n.rhsBatch by decide), dif_pos (show (1 : Fin S192x64.rank) ∈ dot_S5000x192_S192x64_S5000x64_1_0_0_1_n_n.rhsNonContracting by decide)]
  rfl

theorem lhsR0b_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsR0b_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsR0b_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsR0b_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The first product of region 0 at an index: the sum over the 192 contracted positions. -/
theorem stem_apply (x0 : FVec Ideal S5000x192 .f32) (x1 : FVec Ideal S192x64 .f32) (p : Fin 5000) (k : Fin 64) :
    (matmul dot_S5000x192_S192x64_S5000x64_1_0_0_1_n_n none (truncf .bf16 (shapeCast S5000x192 x0 shapeCasts_S5000x192_S5000x192) bitsLt_bf16_f32)
        (truncf .bf16 x1 bitsLt_bf16_f32) (constant (F := Ideal) S5000x64 .f32 0x00000000#32) : FVec Ideal S5000x64 .f32) (ix2 p k)
      = ∑ j : Fin 192, x0 (ix2 p j) * x1 (ix2 j k) := by
  refine (Ideal.matmul_constant_zero_apply dot_S5000x192_S192x64_S5000x64_1_0_0_1_n_n none _ _ (ix2 p k)).trans ?_
  rw [← Equiv.sum_comp (contrEquiv1 dot_S5000x192_S192x64_S5000x64_1_0_0_1_n_n 192 rfl rfl).symm]
  refine Finset.sum_congr rfl fun j _ => ?_
  have hk := contrEquiv1_symm_val dot_S5000x192_S192x64_S5000x64_1_0_0_1_n_n 192 rfl rfl j
  have el : dot_S5000x192_S192x64_S5000x64_1_0_0_1_n_n.lhsIdx (ix2 p k) ((contrEquiv1 dot_S5000x192_S192x64_S5000x64_1_0_0_1_n_n 192 rfl rfl).symm j) = ix2 p j := funext fun a => Fin.ext (by
    match a with
    | ⟨0, _⟩ => exact lhsR0a_0 _ _
    | ⟨1, _⟩ => exact (lhsR0a_1 _ _).trans hk)
  have er : dot_S5000x192_S192x64_S5000x64_1_0_0_1_n_n.rhsIdx (ix2 p k) ((contrEquiv1 dot_S5000x192_S192x64_S5000x64_1_0_0_1_n_n 192 rfl rfl).symm j) = ix2 j k := funext fun a => Fin.ext (by
    match a with
    | ⟨0, _⟩ => exact (rhsR0a_0 _ _).trans hk
    | ⟨1, _⟩ => exact rhsR0a_1 _ _)
  rw [el, er]
  show shapeCast S5000x192 x0 shapeCasts_S5000x192_S5000x192 (ix2 p j) * x1 (ix2 j k) = _
  rw [shapeCast_self]

/-- The payload of region 0 at an index: the sum over the 64 contracted positions k of
    max (sum over j of X (r, j) · Wf (j, k) + Bf (0, k), 0) times Wc (k, c). -/
theorem pay0_apply (x0 : Vec Ideal S5000x192 .f32) (x1 : Vec Ideal S192x64 .f32) (x2 : Vec Ideal S1x64 .f32) (x3 : Vec Ideal S64x64 .f32)
    (p : Fin 5000) (q : Fin 64) :
    k0_pay1 (F := Ideal) x0 x1 x2 x3 (ix2 p q)
      = ∑ k : Fin 64, max ((∑ j : Fin 192, x0 (ix2 p j) * x1 (ix2 j k)) + x2 (ix2 0 k)) 0 * x3 (ix2 k q) := by
  unfold k0_pay1
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhsR0b_0 _ _
    | ⟨1, _⟩ => exact (lhsR0b_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhsR0b_0 _ _).trans hk
    | ⟨1, _⟩ => exact rhsR0b_1 _ _)
  rw [el, er]
  show max ((matmul dot_S5000x192_S192x64_S5000x64_1_0_0_1_n_n none (truncf .bf16 (shapeCast S5000x192 x0 shapeCasts_S5000x192_S5000x192) bitsLt_bf16_f32)
          (truncf .bf16 x1 bitsLt_bf16_f32) (constant (F := Ideal) S5000x64 .f32 0x00000000#32) : FVec Ideal S5000x64 .f32) (ix2 p k)
        + broadcastTo S5000x64 (shapeCast S1x64 x2 shapeCasts_S1x64_S1x64) broadcasts_S1x64_S5000x64 (ix2 p k))
      (Ideal.ofBits .f32 0x00000000#32) * x3 (ix2 k q) = _
  rw [stem_apply, shapeCast_self, Ideal.ofBits_zero_f32,
    broadcastTo_apply x2 broadcasts_S1x64_S5000x64 (ix2 p k) (ix2 0 k) (by
      intro a
      match a with
      | ⟨0, _⟩ => rfl
      | ⟨1, _⟩ => rfl)]

variable (V : (c : Dev nD) → (b : Ref sig .tc) → Buf (Elt Ideal) ((c : Thread nD τ).loc b))

theorem hz0 : (![0, 0] : Fin 2 → Nat) = fun _ => 0 := funext fun a => by fin_cases a <;> rfl

/-- What region 0 leaves in its output array, index by index: at (r, c) the sum over the 64 contracted positions k of
    max (sum over the 192 positions j of X (r, j) · Wf (j, k) + Bf (0, k), 0) times Wc (k, c). -/
abbrev stemReluProduct (X : S100000x192.Idx → EReal) (Wf : S192x64.Idx → EReal) (Bf : S1x64.Idx → EReal) (Wc : S64x64.Idx → EReal) :
    S100000x64.Idx → EReal :=
  fun i => ∑ k : Fin 64, max ((∑ j : Fin 192, X (ix2 (i 0) j) * Wf (ix2 j k)) + Bf (ix2 0 k)) 0 * Wc (ix2 k (i 1))

/-- The printed index maps over the 20 grid points: the row-tiled input moves with the output, whose row block is the
    point's number; the two weights and the bias stay at block (0, 0). -/
theorem idx_facts0 : ∀ t : Fin cfg0.N,
    win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The row-tiled input's block at point t, read at (p, j), is the array at the output block's row and column j. -/
theorem blk0_0 (c : Dev nD) (t : Fin cfg0.N) (p : Fin 5000) (j : Fin 192) (i : S100000x192.Idx)
    (hi0 : (i 0).val = win0_4.index t (0 : Fin 2) * 5000 + 1 * p.val) (hi1 : (i 1).val = j.val) :
    iblk0 V c 0 t (ix2 p j) = (V c (Pipeline.arrRef spec0 0) : S100000x192.Idx → EReal) i := by
  obtain ⟨e0, e1, e2, e3, e4, e5, e6, e7, e8, e9⟩ := idx_facts0 t
  show (V c (Pipeline.arrRef spec0 0) : S100000x192.Idx → EReal) (((cfg0.win 0).blk t).view.emb (ix2 p j)) = _
  refine congrArg (V c (Pipeline.arrRef spec0 0) : S100000x192.Idx → EReal) (funext fun a => Fin.ext ?_)
  match a with
  | ⟨0, _⟩ => show win0_0.index t (0 : Fin 2) * 5000 + 1 * p.val = (i 0).val; omega
  | ⟨1, _⟩ => show win0_0.index t (1 : Fin 2) * 192 + 1 * j.val = (i 1).val; omega

/-- The first weight's window always shows the whole array. -/
theorem blk0_1 (c : Dev nD) (t : Fin cfg0.N) (j : Fin 192) (k : Fin 64) :
    iblk0 V c 1 t (ix2 j k) = (V c (Pipeline.arrRef spec0 1) : S192x64.Idx → EReal) (ix2 j k) := by
  obtain ⟨e0, e1, e2, e3, e4, e5, e6, e7, e8, e9⟩ := idx_facts0 t
  show (V c (Pipeline.arrRef spec0 1) : S192x64.Idx → EReal) (((cfg0.win 1).blk t).view.emb (ix2 j k)) = _
  refine congrArg (V c (Pipeline.arrRef spec0 1) : S192x64.Idx → EReal) (funext fun a => Fin.ext ?_)
  match a with
  | ⟨0, _⟩ => show win0_1.index t (0 : Fin 2) * 192 + 1 * j.val = j.val; omega
  | ⟨1, _⟩ => show win0_1.index t (1 : Fin 2) * 64 + 1 * k.val = k.val; omega

/-- The bias window always shows the whole array. -/
theorem blk0_2 (c : Dev nD) (t : Fin cfg0.N) (k : Fin 64) :
    iblk0 V c 2 t (ix2 0 k) = (V c (Pipeline.arrRef spec0 2) : S1x64.Idx → EReal) (ix2 0 k) := by
  obtain ⟨e0, e1, e2, e3, e4, e5, e6, e7, e8, e9⟩ := idx_facts0 t
  show (V c (Pipeline.arrRef spec0 2) : S1x64.Idx → EReal) (((cfg0.win 2).blk t).view.emb (ix2 0 k)) = _
  refine congrArg (V c (Pipeline.arrRef spec0 2) : S1x64.Idx → EReal) (funext fun a => Fin.ext ?_)
  match a with
  | ⟨0, _⟩ => show win0_2.index t (0 : Fin 2) * 1 + 1 * 0 = 0; omega
  | ⟨1, _⟩ => show win0_2.index t (1 : Fin 2) * 64 + 1 * k.val = k.val; omega

/-- The second weight's window shows the whole array; the output block's column is the array's column. -/
theorem blk0_3 (c : Dev nD) (t : Fin cfg0.N) (k : Fin 64) (q : Fin 64) (i : S64x64.Idx)
    (hi0 : (i 0).val = k.val) (hi1 : (i 1).val = win0_4.index t (1 : Fin 2) * 64 + 1 * q.val) :
    iblk0 V c 3 t (ix2 k q) = (V c (Pipeline.arrRef spec0 3) : S64x64.Idx → EReal) i := by
  obtain ⟨e0, e1, e2, e3, e4, e5, e6, e7, e8, e9⟩ := idx_facts0 t
  show (V c (Pipeline.arrRef spec0 3) : S64x64.Idx → EReal) (((cfg0.win 3).blk t).view.emb (ix2 k q)) = _
  refine congrArg (V c (Pipeline.arrRef spec0 3) : S64x64.Idx → EReal) (funext fun a => Fin.ext ?_)
  match a with
  | ⟨0, _⟩ => show win0_3.index t (0 : Fin 2) * 64 + 1 * k.val = (i 0).val; omega
  | ⟨1, _⟩ => show win0_3.index t (1 : Fin 2) * 64 + 1 * q.val = (i 1).val; omega

/-- What point t writes back is block t of the region's function of the arrays the region finds. -/
theorem flushed0_eq (c : Dev nD) (t : Fin cfg0.N) :
    (dat0 (F := Ideal) V c).flushed 4 t = ((cfg0.win 4).blk t).view.read (Elt Ideal)
      (stemReluProduct (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  unfold out0_4
  rw [View.canon_unit_zero hz0]
  simp only [View.ld_unit_zero (S := S5000x192) hz0, View.ld_unit_zero (S := S192x64) hz0, View.ld_unit_zero (S := S1x64) hz0, View.ld_unit_zero (S := S64x64) hz0]
  funext j
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (iblk0 V c 3 t) (ix2 p q) = _
  refine (pay0_apply (iblk0 V c 0 t) (iblk0 V c 1 t) (iblk0 V c 2 t) (iblk0 V c 3 t) p q).trans ?_
  show _ = stemReluProduct (V c (Pipeline.arrRef spec0 0)) (V c (Pipeline.arrRef spec0 1)) (V c (Pipeline.arrRef spec0 2)) (V c (Pipeline.arrRef spec0 3))
      (((cfg0.win 4).blk t).view.emb (ix2 p q))
  refine Finset.sum_congr rfl fun k _ => ?_
  rw [blk0_2 V c t k, blk0_3 V c t k q (ix2 k ((((cfg0.win 4).blk t).view.emb (ix2 p q)) 1)) rfl rfl]
  refine congrArg (fun s => max (s + _) 0 * _) (Finset.sum_congr rfl fun j _ => ?_)
  rw [blk0_0 V c t p j (ix2 ((((cfg0.win 4).blk t).view.emb (ix2 p q)) 0) j) rfl rfl, blk0_1 V c t j k]

/-- An index of the array is in point t's block iff each coordinate is in the block's range on its axis. -/
theorem mem_blk0 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v34).slice (win0_4.rect t)).set ↔ _
  rw [View.set_slice_whole, Rect.mem_set_unit]
  exact Iff.rfl

/-- Every row of the array lies in the block of the point numbered by the row's quotient by the tile height. -/
theorem cover0 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ : ∃ t : Fin cfg0.N, t.val = (i 0).val / 5000 := ⟨⟨(i 0).val / 5000, by rw [show cfg0.N = 20 from N_0]; omega⟩, rfl⟩
  obtain ⟨e0, e1, e2, e3, e4, e5, e6, e7, e8, e9⟩ := idx_facts0 t
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- REGION 0: after its 20 points the output array holds, at (r, c), the sum over k of
    max (sum over j of X (r, j) · Wf (j, k) + Bf (0, k), 0) · Wc (k, c) of the arrays the region finds. -/
theorem region0 (c : Dev nD) :
    (dat0 (F := Ideal) V c).arrAt 4 cfg0.N
      = stemReluProduct (V c (Pipeline.arrRef spec0 0)) (V c (Pipeline.arrRef spec0 1)) (V c (Pipeline.arrRef spec0 2)) (V c (Pipeline.arrRef spec0 3)) :=
  (dat0 V c).arrAt_eq_of_cover 4
    (stemReluProduct (V c (Pipeline.arrRef spec0 0)) (V c (Pipeline.arrRef spec0 1)) (V c (Pipeline.arrRef spec0 2)) (V c (Pipeline.arrRef spec0 3)))
    (fun t _ => flushed0_eq V c t) cover0

end Cert.KernelIdeal.RegionValue

end
-- ==== Proof.Region1.lean ====
/-
  Region 1 of the kernel's program (the second of its three row-tiled passes): what its output array holds when the
  region ends, as one function of the arrays the region finds, index by index.

  * The body at an index: the stored value at (p, q) of a tile is the sum over the 64 contracted positions k of
    max (A (p, k) + B (0, k), 0) · W (k, q); rounding to the narrower format is the identity on extended reals and the
    accumulator of the product is the zero splat.
  * Blocks: the row-tiled input's block at a grid point is the array's rows of that point; the bias and the weight
    windows always show their whole arrays.
  * Cover: the twenty row tiles of 5000 rows fill the 100000 rows, so the array ends at the function everywhere.
-/
import proofs.«163008_j1984274891426_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The product's operand positions: at output position (r, c) and contracted position k the left operand is read
    at (r, k) and the right one at (k, c). -/

theorem lhsR1_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsR1_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsR1_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsR1_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The payload of region 1 at an index: the sum over the 64 contracted positions of
    max (A + B, 0) times the weight. -/
theorem pay1_apply (x0 : Vec Ideal S5000x64 .f32) (x1 : Vec Ideal S1x64 .f32) (x2 : Vec Ideal S64x64 .f32)
    (p : Fin 5000) (q : Fin 64) :
    k1_pay1 (F := Ideal) x0 x1 x2 (ix2 p q)
      = ∑ k : Fin 64, max (x0 (ix2 p k) + x1 (ix2 0 k)) 0 * x2 (ix2 k q) := by
  unfold k1_pay1
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhsR1_0 _ _
    | ⟨1, _⟩ => exact (lhsR1_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhsR1_0 _ _).trans hk
    | ⟨1, _⟩ => exact rhsR1_1 _ _)
  rw [el, er]
  show max (shapeCast S5000x64 x0 shapeCasts_S5000x64_S5000x64 (ix2 p k)
        + broadcastTo S5000x64 (shapeCast S1x64 x1 shapeCasts_S1x64_S1x64) broadcasts_S1x64_S5000x64 (ix2 p k))
      (Ideal.ofBits .f32 0x00000000#32) * x2 (ix2 k q) = _
  rw [shapeCast_self, shapeCast_self, Ideal.ofBits_zero_f32,
    broadcastTo_apply x1 broadcasts_S1x64_S5000x64 (ix2 p k) (ix2 0 k) (by
      intro a
      match a with
      | ⟨0, _⟩ => rfl
      | ⟨1, _⟩ => rfl)]

variable (V : (c : Dev nD) → (b : Ref sig .tc) → Buf (Elt Ideal) ((c : Thread nD τ).loc b))

theorem hz1 : (![0, 0] : Fin 2 → Nat) = fun _ => 0 := funext fun a => by fin_cases a <;> rfl

/-- What region 1 leaves in its output array, index by index: at (r, c) the sum over the 64 contracted positions k of
    max (A (r, k) + B (0, k), 0) times W (k, c). -/
abbrev reluProduct (A : S100000x64.Idx → EReal) (B : S1x64.Idx → EReal) (W : S64x64.Idx → EReal) : S100000x64.Idx → EReal :=
  fun i => ∑ k : Fin 64, max (A (ix2 (i 0) k) + B (ix2 0 k)) 0 * W (ix2 k (i 1))

/-- The printed index maps over the 20 grid points: the row-tiled input moves with the output, whose row block is the
    point's number; the bias and the weight stay at block (0, 0). -/
theorem idx_facts1 : ∀ t : Fin cfg1.N,
    win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row-tiled input's block at point t, read at (p, k), is the array at the output block's row and column k. -/
theorem blk1_0 (c : Dev nD) (t : Fin cfg1.N) (p : Fin 5000) (k : Fin 64) (i : S100000x64.Idx)
    (hi0 : (i 0).val = win1_3.index t (0 : Fin 2) * 5000 + 1 * p.val) (hi1 : (i 1).val = k.val) :
    iblk1 V c 0 t (ix2 p k) = (V c (Pipeline.arrRef spec1 0) : S100000x64.Idx → EReal) i := by
  obtain ⟨e0, e1, e2, e3, e4, e5, e6, e7⟩ := idx_facts1 t
  show (V c (Pipeline.arrRef spec1 0) : S100000x64.Idx → EReal) (((cfg1.win 0).blk t).view.emb (ix2 p k)) = _
  refine congrArg (V c (Pipeline.arrRef spec1 0) : S100000x64.Idx → EReal) (funext fun a => Fin.ext ?_)
  match a with
  | ⟨0, _⟩ => show win1_0.index t (0 : Fin 2) * 5000 + 1 * p.val = (i 0).val; omega
  | ⟨1, _⟩ => show win1_0.index t (1 : Fin 2) * 64 + 1 * k.val = (i 1).val; omega

/-- The bias window's block is the bias array. -/
theorem blk1_1 (c : Dev nD) (t : Fin cfg1.N) (k : Fin 64) :
    iblk1 V c 1 t (ix2 0 k) = (V c (Pipeline.arrRef spec1 1) : S1x64.Idx → EReal) (ix2 0 k) := by
  obtain ⟨e0, e1, e2, e3, e4, e5, e6, e7⟩ := idx_facts1 t
  show (V c (Pipeline.arrRef spec1 1) : S1x64.Idx → EReal) (((cfg1.win 1).blk t).view.emb (ix2 0 k)) = _
  refine congrArg (V c (Pipeline.arrRef spec1 1) : S1x64.Idx → EReal) (funext fun a => Fin.ext ?_)
  match a with
  | ⟨0, _⟩ => show win1_1.index t (0 : Fin 2) * 1 + 1 * 0 = 0; omega
  | ⟨1, _⟩ => show win1_1.index t (1 : Fin 2) * 64 + 1 * k.val = k.val; omega

/-- The weight window's block is the weight array. -/
theorem blk1_2 (c : Dev nD) (t : Fin cfg1.N) (k : Fin 64) (q : Fin 64) (i : S64x64.Idx)
    (hi0 : (i 0).val = k.val) (hi1 : (i 1).val = win1_3.index t (1 : Fin 2) * 64 + 1 * q.val) :
    iblk1 V c 2 t (ix2 k q) = (V c (Pipeline.arrRef spec1 2) : S64x64.Idx → EReal) i := by
  obtain ⟨e0, e1, e2, e3, e4, e5, e6, e7⟩ := idx_facts1 t
  show (V c (Pipeline.arrRef spec1 2) : S64x64.Idx → EReal) (((cfg1.win 2).blk t).view.emb (ix2 k q)) = _
  refine congrArg (V c (Pipeline.arrRef spec1 2) : S64x64.Idx → EReal) (funext fun a => Fin.ext ?_)
  match a with
  | ⟨0, _⟩ => show win1_2.index t (0 : Fin 2) * 64 + 1 * k.val = (i 0).val; omega
  | ⟨1, _⟩ => show win1_2.index t (1 : Fin 2) * 64 + 1 * q.val = (i 1).val; omega

/-- What point t writes back is block t of the region's function of the arrays the region finds. -/
theorem flushed1_eq (c : Dev nD) (t : Fin cfg1.N) :
    (dat1 (F := Ideal) V c).flushed 3 t = ((cfg1.win 3).blk t).view.read (Elt Ideal)
      (reluProduct (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S5000x64) hz1, View.ld_unit_zero (S := S1x64) hz1, View.ld_unit_zero (S := S64x64) hz1]
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (ix2 p q) = _
  refine (pay1_apply (iblk1 V c 0 t) (iblk1 V c 1 t) (iblk1 V c 2 t) p q).trans ?_
  show _ = reluProduct (V c (Pipeline.arrRef spec1 0)) (V c (Pipeline.arrRef spec1 1)) (V c (Pipeline.arrRef spec1 2))
      (((cfg1.win 3).blk t).view.emb (ix2 p q))
  refine Finset.sum_congr rfl fun k _ => ?_
  rw [blk1_0 V c t p k (ix2 ((((cfg1.win 3).blk t).view.emb (ix2 p q)) 0) k) rfl rfl, blk1_1 V c t k,
    blk1_2 V c t k q (ix2 k ((((cfg1.win 3).blk t).view.emb (ix2 p q)) 1)) rfl rfl]

/-- An index of the array is in point t's block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v49).slice (win1_3.rect t)).set ↔ _
  rw [View.set_slice_whole, Rect.mem_set_unit]
  exact Iff.rfl

/-- Every row of the array lies in the block of the point numbered by the row's quotient by the tile height. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 5000 := ⟨⟨(i 0).val / 5000, by rw [show cfg1.N = 20 from N_1]; omega⟩, rfl⟩
  obtain ⟨e0, e1, e2, e3, e4, e5, e6, e7⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- REGION 1: after its 20 points the output array holds, at (r, c), the sum over k of max (A (r, k) + B (0, k), 0) · W (k, c)
    of the arrays the region finds. -/
theorem region1 (c : Dev nD) :
    (dat1 (F := Ideal) V c).arrAt 3 cfg1.N
      = reluProduct (V c (Pipeline.arrRef spec1 0)) (V c (Pipeline.arrRef spec1 1)) (V c (Pipeline.arrRef spec1 2)) :=
  (dat1 V c).arrAt_eq_of_cover 3
    (reluProduct (V c (Pipeline.arrRef spec1 0)) (V c (Pipeline.arrRef spec1 1)) (V c (Pipeline.arrRef spec1 2)))
    (fun t _ => flushed1_eq V c t) cover1

end Cert.KernelIdeal.RegionValue

end
-- ==== Proof.RowDefs.lean ====
/-
  Shared vocabulary for this certificate's value proof, over the extended reals.

  * an extended real is REAL when it is the image of a real number (neither infinity);
  * the maximum of a finite row, folded from the bottom element (the value a max-reduction starts from);
  * the two groupings of a row's log-soft-max that the two programs compute:
      the kernel subtracts the whole log-sum-exp at once,   a c - (M + log (sum of exp (a c' - M))),
      the reference subtracts the maximum first,            (a c - M) - log (sum of exp (a c' - M)),
    where M is the row's maximum. They agree when the row is real; at an infinite entry they need not.
-/
import Idealize.ShloMosaic.PureOps.Ideal

noncomputable section

open scoped BigOperators

namespace Cert.Row

open Idealize.ShloMosaic

/-- An extended real that is a real number. -/
def IsReal (x : EReal) : Prop := ∃ r : ℝ, x = (r : EReal)

/-- Every entry of a family is a real number. -/
def AllReal {ι : Type} (v : ι → EReal) : Prop := ∀ i, IsReal (v i)

/-- The maximum of a row, folded from the bottom element. -/
def rowMax {n : Nat} (a : Fin n → EReal) : EReal := (Finset.univ : Finset (Fin n)).fold max ⊥ a

/-- The log-sum-exp of a row, shifted by its maximum: log of the sum of exp (a c' - M). -/
def shiftedLogSum {n : Nat} (a : Fin n → EReal) : EReal := Ideal.log (∑ c' : Fin n, Ideal.exp (a c' - rowMax a))

/-- The kernel's grouping: the entry minus (maximum plus shifted log-sum). -/
def lseAtOnce {n : Nat} (a : Fin n → EReal) (c : Fin n) : EReal := a c - (rowMax a + shiftedLogSum a)

/-- The reference's grouping: (the entry minus the maximum) minus the shifted log-sum. -/
def maxThenLse {n : Nat} (a : Fin n → EReal) (c : Fin n) : EReal := (a c - rowMax a) - shiftedLogSum a

end Cert.Row

end
-- ==== Proof.Region2.lean ====
/-
  Region 2 of the kernel's program (the last of its three row-tiled passes): what its output array holds when the
  region ends, as one function of the arrays the region finds, index by index.

  * The body in two halves. The logits of a tile: at (p, c') the sum over the 64 contracted positions k of
    max (A (p, k) + B (0, k), 0) · W (k, c'), plus the output bias Bo (0, c'); rounding to the narrower format is the
    identity on extended reals and the product's accumulator is the zero splat. Then, along each row of 16 logits, the
    maximum M folded from the bottom element, the sum S of exp (logit - M), and the stored value logit - (M + log S):
    the log-soft-max in the grouping that subtracts the whole log-sum-exp at once.
  * Blocks: the row-tiled input's block at a grid point is the array's rows of that point; the weight's and the two
    biases' windows always show their whole arrays.
  * Cover: the twenty row tiles of 5000 rows fill the 100000 rows, so the array ends at the function everywhere.
-/
import proofs.«163008_j1984274891426_1_alg».proof.Proof.Gen.KernelIdeal.Frame
import proofs.«163008_j1984274891426_1_alg».proof.Proof.RowDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The product's operand positions: at output position (r, c) and contracted position k the left operand is read
    at (r, k) and the right one at (k, c). -/

theorem lhsR2_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem lhsR2_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
theorem rhsR2_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
theorem rhsR2_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-! ## Layout: a column kept as a unit axis -/

/-- An [a] array cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] array broadcast to [a, b] reads, at (p, c), the operand's one column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body in two halves: the logits, then the row-wise log-soft-max of them -/

/-- The logits of a tile: max (A + B, 0) times the weight, plus the output bias. -/
def logitsTile (x0 : Vec Ideal S5000x64 .f32) (x1 : Vec Ideal S1x64 .f32) (x2 : Vec Ideal S64x16 .f32) (x3 : Vec Ideal S1x16 .f32) :
    FVec Ideal S5000x16 .f32 :=
  addf (matmul dot_S5000x64_S64x16_S5000x16_1_0_0_1_n_n none
      (truncf .bf16 (maximumf (addf (shapeCast S5000x64 x0 shapeCasts_S5000x64_S5000x64)
          (broadcastTo S5000x64 (shapeCast S1x64 x1 shapeCasts_S1x64_S1x64) broadcasts_S1x64_S5000x64))
        (broadcast S5000x64 (Scalar.ofBits (F := Ideal) .f32 0x00000000#32))) bitsLt_bf16_f32)
      (truncf .bf16 x2 bitsLt_bf16_f32) (constant (F := Ideal) S5000x16 .f32 0x00000000#32))
    (broadcastTo S5000x16 (shapeCast S1x16 x3 shapeCasts_S1x16_S1x16) broadcasts_S1x16_S5000x16)

/-- The row maximum of a tile of logits, kept as a column. -/
def rowMaxCol (L : FVec Ideal S5000x16 .f32) : FVec Ideal S5000x1 .f32 :=
  shapeCast S5000x1 (multiReduction (F := Ideal) .maximumf [1] S5000 L 0xFF800000#32 reduces_S5000x16_S5000 (.inl rfl) rfl) shapeCasts_S5000_S5000x1

/-- The row sum of the exponentials of the logits less their row maximum, kept as a column. -/
def rowExpSumCol (L : FVec Ideal S5000x16 .f32) : FVec Ideal S5000x1 .f32 :=
  shapeCast S5000x1 (multiReduction (F := Ideal) .add [1] S5000
      (exp (subf L (broadcastTo S5000x16 (rowMaxCol L) broadcasts_S5000x1_S5000x16))) 0x00000000#32 reduces_S5000x16_S5000 (.inl rfl) rfl)
    shapeCasts_S5000_S5000x1

/-- The tile the body stores: the logits less (row maximum plus log of the row's shifted exponential sum). -/
def lseTile (L : FVec Ideal S5000x16 .f32) : FVec Ideal S5000x16 .f32 :=
  subf L (broadcastTo S5000x16 (addf (rowMaxCol L) (log (rowExpSumCol L))) broadcasts_S5000x1_S5000x16)

/-- The payload is the log-soft-max half applied to the logits half. -/
theorem pay2_split (x0 : Vec Ideal S5000x64 .f32) (x1 : Vec Ideal S1x64 .f32) (x2 : Vec Ideal S64x16 .f32) (x3 : Vec Ideal S1x16 .f32) :
    k2_pay1 (F := Ideal) x0 x1 x2 x3 = lseTile (logitsTile x0 x1 x2 x3) := rfl

/-- The product half of the logits at an index: the sum over the 64 contracted positions of max (A + B, 0) times the weight. -/
theorem reluProductTile_apply (x0 : Vec Ideal S5000x64 .f32) (x1 : Vec Ideal S1x64 .f32) (x2 : Vec Ideal S64x16 .f32)
    (p : Fin 5000) (c : Fin 16) :
    (matmul dot_S5000x64_S64x16_S5000x16_1_0_0_1_n_n none
      (truncf .bf16 (maximumf (addf (shapeCast S5000x64 x0 shapeCasts_S5000x64_S5000x64)
          (broadcastTo S5000x64 (shapeCast S1x64 x1 shapeCasts_S1x64_S1x64) broadcasts_S1x64_S5000x64))
        (broadcast S5000x64 (Scalar.ofBits (F := Ideal) .f32 0x00000000#32))) bitsLt_bf16_f32)
      (truncf .bf16 x2 bitsLt_bf16_f32) (constant (F := Ideal) S5000x16 .f32 0x00000000#32) : FVec Ideal S5000x16 .f32) (ix2 p c)
      = ∑ k : Fin 64, max (x0 (ix2 p k) + x1 (ix2 0 k)) 0 * x2 (ix2 k c) := by
  refine (Ideal.matmul_constant_zero_apply dot_S5000x64_S64x16_S5000x16_1_0_0_1_n_n none _ _ (ix2 p c)).trans ?_
  rw [← Equiv.sum_comp (contrEquiv1 dot_S5000x64_S64x16_S5000x16_1_0_0_1_n_n 64 rfl rfl).symm]
  refine Finset.sum_congr rfl fun k _ => ?_
  have hk := contrEquiv1_symm_val dot_S5000x64_S64x16_S5000x16_1_0_0_1_n_n 64 rfl rfl k
  have el : dot_S5000x64_S64x16_S5000x16_1_0_0_1_n_n.lhsIdx (ix2 p c) ((contrEquiv1 dot_S5000x64_S64x16_S5000x16_1_0_0_1_n_n 64 rfl rfl).symm k) = ix2 p k := funext fun a => Fin.ext (by
    match a with
    | ⟨0, _⟩ => exact lhsR2_0 _ _
    | ⟨1, _⟩ => exact (lhsR2_1 _ _).trans hk)
  have er : dot_S5000x64_S64x16_S5000x16_1_0_0_1_n_n.rhsIdx (ix2 p c) ((contrEquiv1 dot_S5000x64_S64x16_S5000x16_1_0_0_1_n_n 64 rfl rfl).symm k) = ix2 k c := funext fun a => Fin.ext (by
    match a with
    | ⟨0, _⟩ => exact (rhsR2_0 _ _).trans hk
    | ⟨1, _⟩ => exact rhsR2_1 _ _)
  rw [el, er]
  show max (shapeCast S5000x64 x0 shapeCasts_S5000x64_S5000x64 (ix2 p k)
        + broadcastTo S5000x64 (shapeCast S1x64 x1 shapeCasts_S1x64_S1x64) broadcasts_S1x64_S5000x64 (ix2 p k))
      (Ideal.ofBits .f32 0x00000000#32) * x2 (ix2 k c) = _
  rw [shapeCast_self, shapeCast_self, Ideal.ofBits_zero_f32,
    broadcastTo_apply x1 broadcasts_S1x64_S5000x64 (ix2 p k) (ix2 0 k) (by
      intro a
      match a with
      | ⟨0, _⟩ => rfl
      | ⟨1, _⟩ => rfl)]

/-- The logits at an index. -/
theorem logitsTile_apply (x0 : Vec Ideal S5000x64 .f32) (x1 : Vec Ideal S1x64 .f32) (x2 : Vec Ideal S64x16 .f32) (x3 : Vec Ideal S1x16 .f32)
    (p : Fin 5000) (c : Fin 16) :
    logitsTile x0 x1 x2 x3 (ix2 p c)
      = (∑ k : Fin 64, max (x0 (ix2 p k) + x1 (ix2 0 k)) 0 * x2 (ix2 k c)) + x3 (ix2 0 c) := by
  unfold logitsTile
  refine (addf_apply _ _ (ix2 p c)).trans ?_
  refine congrArg₂ (· + ·) (reluProductTile_apply x0 x1 x2 p c) ?_
  rw [shapeCast_self]
  exact broadcastTo_apply x3 broadcasts_S1x16_S5000x16 (ix2 p c) (ix2 0 c) (by
    intro a
    match a with
    | ⟨0, _⟩ => rfl
    | ⟨1, _⟩ => rfl)
/-- A row's position put back among the tile's positions: the row and the column. -/
theorem lift_row (p : Fin 5000) (c' : Fin 16) : reduces_S5000x16_S5000.lift (ix1 p) c' = ix2 p c' :=
  funext fun a => Fin.ext (by
    match a with
    | ⟨0, _⟩ => rfl
    | ⟨1, _⟩ => rfl)

/-- The kept column of row maxima at a row is the maximum of the row, folded from the bottom element. -/
theorem rowMaxCol_apply (L : FVec Ideal S5000x16 .f32) (p : Fin 5000) (u : Fin 1) :
    rowMaxCol L (ix2 p u) = Cert.Row.rowMax (fun c' : Fin 16 => L (ix2 p c')) := by
  unfold rowMaxCol
  refine (shapeCast_a_a1_apply _ shapeCasts_S5000_S5000x1 p u).trans ?_
  refine (Ideal.multiReduction_maximumf_single L 0xFF800000#32 reduces_S5000x16_S5000 (.inl rfl) rfl (ix1 p)).trans ?_
  unfold Cert.Row.rowMax
  have hb : FloatOps.ofBits (F := Ideal) .f32 0xFF800000#32 = (⊥ : EReal) := by
    show Ideal.ofBits .f32 0xFF800000#32 = ⊥
    simp [Ideal.ofBits, Ideal.ieee]
  have hf : (L ∘ reduces_S5000x16_S5000.lift (ix1 p)) = fun c' : Fin 16 => L (ix2 p c') :=
    funext fun c' => congrArg L (lift_row p c')
  rw [hb, hf]
  rfl

/-- The kept column of row sums at a row is the sum over the row of the exponentials of the entries less the row's maximum. -/
theorem rowExpSumCol_apply (L : FVec Ideal S5000x16 .f32) (p : Fin 5000) (u : Fin 1) :
    rowExpSumCol L (ix2 p u)
      = ∑ c' : Fin 16, Ideal.exp (L (ix2 p c') - Cert.Row.rowMax (fun c'' : Fin 16 => L (ix2 p c''))) := by
  unfold rowExpSumCol
  refine (shapeCast_a_a1_apply _ shapeCasts_S5000_S5000x1 p u).trans ?_
  refine (Ideal.multiReduction_add_single _ 0x00000000#32 reduces_S5000x16_S5000 (.inl rfl) rfl (ix1 p)).trans ?_
  refine Finset.sum_congr rfl fun (c' : Fin 16) _ => ?_
  rw [lift_row p c']
  show Ideal.exp (L (ix2 p c') - broadcastTo S5000x16 (rowMaxCol L) broadcasts_S5000x1_S5000x16 (ix2 p c')) = _
  exact congrArg (fun z => Ideal.exp (L (ix2 p c') - z))
    ((broadcastTo_a1_ab_apply (rowMaxCol L) broadcasts_S5000x1_S5000x16 p c').trans (rowMaxCol_apply L p 0))

/-- The stored tile at an index: the row's log-soft-max in the grouping that subtracts the whole log-sum-exp at once. -/
theorem lseTile_apply (L : FVec Ideal S5000x16 .f32) (p : Fin 5000) (q : Fin 16) :
    lseTile L (ix2 p q) = Cert.Row.lseAtOnce (fun c' : Fin 16 => L (ix2 p c')) q := by
  unfold lseTile
  show L (ix2 p q) - broadcastTo S5000x16 (addf (rowMaxCol L) (log (rowExpSumCol L))) broadcasts_S5000x1_S5000x16 (ix2 p q) = _
  refine (congrArg (fun z => L (ix2 p q) - z)
    (broadcastTo_a1_ab_apply (addf (rowMaxCol L) (log (rowExpSumCol L))) broadcasts_S5000x1_S5000x16 p q)).trans ?_
  show L (ix2 p q) - (rowMaxCol L (ix2 p 0) + Ideal.log (rowExpSumCol L (ix2 p 0))) = _
  rw [rowMaxCol_apply L p 0, rowExpSumCol_apply L p 0]
  rfl

/-- The payload of region 2 at an index: the log-soft-max, along the row, of the logits
    sum over k of max (A + B, 0) · W plus the output bias. -/
theorem pay2_apply (x0 : Vec Ideal S5000x64 .f32) (x1 : Vec Ideal S1x64 .f32) (x2 : Vec Ideal S64x16 .f32) (x3 : Vec Ideal S1x16 .f32)
    (p : Fin 5000) (q : Fin 16) :
    k2_pay1 (F := Ideal) x0 x1 x2 x3 (ix2 p q)
      = Cert.Row.lseAtOnce (fun c' : Fin 16 =>
          (∑ k : Fin 64, max (x0 (ix2 p k) + x1 (ix2 0 k)) 0 * x2 (ix2 k c')) + x3 (ix2 0 c')) q := by
  rw [pay2_split, lseTile_apply]
  refine congrArg (fun a => Cert.Row.lseAtOnce a q) (funext fun c' => ?_)
  exact logitsTile_apply x0 x1 x2 x3 p c'

variable (V : (c : Dev nD) → (b : Ref sig .tc) → Buf (Elt Ideal) ((c : Thread nD τ).loc b))

theorem hz2 : (![0, 0] : Fin 2 → Nat) = fun _ => 0 := funext fun a => by fin_cases a <;> rfl

/-- What region 2 leaves in its output array, index by index: at (r, c) the log-soft-max along row r, in the grouping that
    subtracts the whole log-sum-exp at once, of the logits
    sum over the 64 contracted positions k of max (A (r, k) + B (0, k), 0) · W (k, c') plus Bo (0, c'). -/
abbrev logSoftmaxRows (A : S100000x64.Idx → EReal) (B : S1x64.Idx → EReal) (W : S64x16.Idx → EReal) (Bo : S1x16.Idx → EReal) :
    S100000x16.Idx → EReal :=
  fun i => Cert.Row.lseAtOnce (fun c' : Fin 16 =>
    (∑ k : Fin 64, max (A (ix2 (i 0) k) + B (ix2 0 k)) 0 * W (ix2 k c')) + Bo (ix2 0 c')) (i 1)

/-- The printed index maps over the 20 grid points: the row-tiled input moves with the output, whose row block is the
    point's number; the weight and the two biases stay at block (0, 0). -/
theorem idx_facts2 : ∀ t : Fin cfg2.N,
    win2_0.index t (0 : Fin 2) = win2_4.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The row-tiled input's block at point t, read at (p, k), is the array at the output block's row and column k. -/
theorem blk2_0 (c : Dev nD) (t : Fin cfg2.N) (p : Fin 5000) (k : Fin 64) (i : S100000x64.Idx)
    (hi0 : (i 0).val = win2_4.index t (0 : Fin 2) * 5000 + 1 * p.val) (hi1 : (i 1).val = k.val) :
    iblk2 V c 0 t (ix2 p k) = (V c (Pipeline.arrRef spec2 0) : S100000x64.Idx → EReal) i := by
  obtain ⟨e0, e1, e2, e3, e4, e5, e6, e7, e8, e9⟩ := idx_facts2 t
  show (V c (Pipeline.arrRef spec2 0) : S100000x64.Idx → EReal) (((cfg2.win 0).blk t).view.emb (ix2 p k)) = _
  refine congrArg (V c (Pipeline.arrRef spec2 0) : S100000x64.Idx → EReal) (funext fun a => Fin.ext ?_)
  match a with
  | ⟨0, _⟩ => show win2_0.index t (0 : Fin 2) * 5000 + 1 * p.val = (i 0).val; omega
  | ⟨1, _⟩ => show win2_0.index t (1 : Fin 2) * 64 + 1 * k.val = (i 1).val; omega

/-- The hidden bias's window always shows the whole array. -/
theorem blk2_1 (c : Dev nD) (t : Fin cfg2.N) (k : Fin 64) :
    iblk2 V c 1 t (ix2 0 k) = (V c (Pipeline.arrRef spec2 1) : S1x64.Idx → EReal) (ix2 0 k) := by
  obtain ⟨e0, e1, e2, e3, e4, e5, e6, e7, e8, e9⟩ := idx_facts2 t
  show (V c (Pipeline.arrRef spec2 1) : S1x64.Idx → EReal) (((cfg2.win 1).blk t).view.emb (ix2 0 k)) = _
  refine congrArg (V c (Pipeline.arrRef spec2 1) : S1x64.Idx → EReal) (funext fun a => Fin.ext ?_)
  match a with
  | ⟨0, _⟩ => show win2_1.index t (0 : Fin 2) * 1 + 1 * 0 = 0; omega
  | ⟨1, _⟩ => show win2_1.index t (1 : Fin 2) * 64 + 1 * k.val = k.val; omega

/-- The weight's window always shows the whole array. -/
theorem blk2_2 (c : Dev nD) (t : Fin cfg2.N) (k : Fin 64) (c' : Fin 16) :
    iblk2 V c 2 t (ix2 k c') = (V c (Pipeline.arrRef spec2 2) : S64x16.Idx → EReal) (ix2 k c') := by
  obtain ⟨e0, e1, e2, e3, e4, e5, e6, e7, e8, e9⟩ := idx_facts2 t
  show (V c (Pipeline.arrRef spec2 2) : S64x16.Idx → EReal) (((cfg2.win 2).blk t).view.emb (ix2 k c')) = _
  refine congrArg (V c (Pipeline.arrRef spec2 2) : S64x16.Idx → EReal) (funext fun a => Fin.ext ?_)
  match a with
  | ⟨0, _⟩ => show win2_2.index t (0 : Fin 2) * 64 + 1 * k.val = k.val; omega
  | ⟨1, _⟩ => show win2_2.index t (1 : Fin 2) * 16 + 1 * c'.val = c'.val; omega

/-- The output bias's window always shows the whole array. -/
theorem blk2_3 (c : Dev nD) (t : Fin cfg2.N) (c' : Fin 16) :
    iblk2 V c 3 t (ix2 0 c') = (V c (Pipeline.arrRef spec2 3) : S1x16.Idx → EReal) (ix2 0 c') := by
  obtain ⟨e0, e1, e2, e3, e4, e5, e6, e7, e8, e9⟩ := idx_facts2 t
  show (V c (Pipeline.arrRef spec2 3) : S1x16.Idx → EReal) (((cfg2.win 3).blk t).view.emb (ix2 0 c')) = _
  refine congrArg (V c (Pipeline.arrRef spec2 3) : S1x16.Idx → EReal) (funext fun a => Fin.ext ?_)
  match a with
  | ⟨0, _⟩ => show win2_3.index t (0 : Fin 2) * 1 + 1 * 0 = 0; omega
  | ⟨1, _⟩ => show win2_3.index t (1 : Fin 2) * 16 + 1 * c'.val = c'.val; omega

/-- A row of logits that agrees, entry by entry, with the region's logits at an index's row gives the region's function at
    that index, read at the index's column. -/
theorem logSoftmaxRows_of_row (A : S100000x64.Idx → EReal) (B : S1x64.Idx → EReal) (W : S64x16.Idx → EReal) (Bo : S1x16.Idx → EReal)
    (i : S100000x16.Idx) (q : Fin 16) (hq : i 1 = q) (a : Fin 16 → EReal)
    (ha : ∀ c' : Fin 16, a c' = (∑ k : Fin 64, max (A (ix2 (i 0) k) + B (ix2 0 k)) 0 * W (ix2 k c')) + Bo (ix2 0 c')) :
    Cert.Row.lseAtOnce a q = logSoftmaxRows A B W Bo i := by
  subst hq
  rw [show a = fun c' : Fin 16 => (∑ k : Fin 64, max (A (ix2 (i 0) k) + B (ix2 0 k)) 0 * W (ix2 k c')) + Bo (ix2 0 c') from funext ha]

set_option maxHeartbeats 1000000 in
/-- What point t writes back is block t of the region's function of the arrays the region finds. -/
theorem flushed2_eq (c : Dev nD) (t : Fin cfg2.N) :
    (dat2 (F := Ideal) V c).flushed 4 t = ((cfg2.win 4).blk t).view.read (Elt Ideal)
      (logSoftmaxRows (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero hz2]
  simp only [View.ld_unit_zero (S := S5000x64) hz2, View.ld_unit_zero (S := S1x64) hz2, View.ld_unit_zero (S := S64x16) hz2, View.ld_unit_zero (S := S1x16) hz2]
  funext j
  obtain ⟨p, q, rfl⟩ : ∃ (p : Fin 5000) (q : Fin 16), j = ix2 p q := ⟨j 0, j 1, eq_ix2 j⟩
  show k2_pay1 (iblk2 V c 0 t) (iblk2 V c 1 t) (iblk2 V c 2 t) (iblk2 V c 3 t) (ix2 p q) = _
  refine (pay2_apply (iblk2 V c 0 t) (iblk2 V c 1 t) (iblk2 V c 2 t) (iblk2 V c 3 t) p q).trans ?_
  obtain ⟨e0, e1, e2, e3, e4, e5, e6, e7, e8, e9⟩ := idx_facts2 t
  have hq : (((cfg2.win 4).blk t).view.emb (ix2 p q)) 1 = q :=
    Fin.ext (by show win2_4.index t (1 : Fin 2) * 16 + 1 * q.val = q.val; omega)
  show _ = logSoftmaxRows (V c (Pipeline.arrRef spec2 0)) (V c (Pipeline.arrRef spec2 1)) (V c (Pipeline.arrRef spec2 2)) (V c (Pipeline.arrRef spec2 3))
      (((cfg2.win 4).blk t).view.emb (ix2 p q))
  refine logSoftmaxRows_of_row (V c (Pipeline.arrRef spec2 0)) (V c (Pipeline.arrRef spec2 1)) (V c (Pipeline.arrRef spec2 2)) (V c (Pipeline.arrRef spec2 3))
    (((cfg2.win 4).blk t).view.emb (ix2 p q)) q hq _ (fun c' => ?_)
  beta_reduce
  refine congrArg₂ (fun (x y : EReal) => x + y) (Finset.sum_congr rfl fun k _ => ?_) (blk2_3 V c t c')
  rw [blk2_0 V c t p k (ix2 ((((cfg2.win 4).blk t).view.emb (ix2 p q)) 0) k) rfl rfl, blk2_1 V c t k, blk2_2 V c t k c']

/-- An index of the array is in point t's block iff each coordinate is in the block's range on its axis. -/
theorem mem_blk2 (t : Fin cfg2.N) (i : S100000x16.Idx) :
    i ∈ ((cfg2.win 4).blk t).view.set ↔ ∀ a : Fin 2, win2_4.index t a * S5000x16.size a ≤ (i a).val ∧ (i a).val < win2_4.index t a * S5000x16.size a + S5000x16.size a := by
  show i ∈ ((View.whole main_v65).slice (win2_4.rect t)).set ↔ _
  rw [View.set_slice_whole, Rect.mem_set_unit]
  exact Iff.rfl

/-- Every row of the array lies in the block of the point numbered by the row's quotient by the tile height. -/
theorem cover2 (i : S100000x16.Idx) : ∃ t : Fin cfg2.N, (cfg2.win 4).flush t = true ∧ i ∈ ((cfg2.win 4).blk t).view.set := by
  have hi0 : (i 0).val < 100000 := (i 0).isLt
  have hi1 : (i 1).val < 16 := (i 1).isLt
  obtain ⟨t, ht⟩ : ∃ t : Fin cfg2.N, t.val = (i 0).val / 5000 := ⟨⟨(i 0).val / 5000, by rw [show cfg2.N = 20 from N_2]; omega⟩, rfl⟩
  obtain ⟨e0, e1, e2, e3, e4, e5, e6, e7, e8, e9⟩ := idx_facts2 t
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 16 ≤ (i 1).val ∧ (i 1).val < win2_4.index t (1 : Fin 2) * 16 + 16; omega

/-- REGION 2: after its 20 points the output array holds, at (r, c), the log-soft-max along row r (the whole log-sum-exp
    subtracted at once) of the logits sum over k of max (A (r, k) + B (0, k), 0) · W (k, c') + Bo (0, c') of the arrays
    the region finds. -/
theorem region2 (c : Dev nD) :
    (dat2 (F := Ideal) V c).arrAt 4 cfg2.N = logSoftmaxRows (V c (Pipeline.arrRef spec2 0)) (V c (Pipeline.arrRef spec2 1)) (V c (Pipeline.arrRef spec2 2)) (V c (Pipeline.arrRef spec2 3)) :=
  (dat2 V c).arrAt_eq_of_cover 4 (logSoftmaxRows (V c (Pipeline.arrRef spec2 0)) (V c (Pipeline.arrRef spec2 1)) (V c (Pipeline.arrRef spec2 2)) (V c (Pipeline.arrRef spec2 3)))
    (fun t _ => flushed2_eq V c t) cover2

end Cert.KernelIdeal.RegionValue

end
-- ==== Proof.RefRows.lean ====
/-
  The reference's three dense stages read at an index, as plain sums over the extended reals.

  Each of the reference's feature transforms is a matrix product of a rectified affine stage with a weight matrix:
    stage 38 (r, c) = sum over k of max (sum over j of h(r, j) * Wf(j, k) + bf(k), 0) * Wc1(k, c),   h = [x | n2v],
    stage 56 (r, c) = sum over k of max (agg1(r, k) + b1(k), 0) * Wc2(k, c),
    stage 77 (r, c) = sum over k of max (agg2(r, k) + b2(k), 0) * Wout(k, c) + bout(c)            (the logits),
  where agg1 and agg2 are the scatter-added neighbour aggregates (stages 51 and 69), kept as they are.
  The result (stage 78) is the log-soft-max of a logits row in the reference's grouping: subtract the row maximum first,
  then the log of the sum of the shifted exponentials.
  The proofs chain the stage-by-stage reading lemmas and identify the composed index maps with coordinates; a big stage is
  always replaced by a variable before anything is compared by unfolding.
-/
import proofs.«163008_j1984274891426_1_alg».proof.Proof.RefReadP
import proofs.«163008_j1984274891426_1_alg».proof.Proof.RowDefs
import Idealize.ShloMosaic.Lib.ValueIdx
import Idealize.ShloMosaic.PureOps.Ideal.Laws

set_option maxRecDepth 16384

noncomputable section

open scoped BigOperators

namespace Cert.ReferenceIdeal.Rows

open Cert.ReferenceIdeal Cert.ReferenceIdeal.Gen Cert.ReferenceIdeal.ReadP Idealize.ShloMosaic Idealize.ShloMosaic.ValueIdx

/-- Stage 38 at an index: the rectified first affine layer times the first convolution's weights. -/
theorem v38_at (x0 : S100000x128.Idx → EReal) (x3 : S100000x64.Idx → EReal) (x4 : S192x64.Idx → EReal) (x5 : S64.Idx → EReal)
    (x6 : S64x64.Idx → EReal) (i : S100000x64.Idx) :
    val_main_v38 (F := Ideal) x0 x3 x4 x5 x6 i
      = ∑ k : Fin 64, max (∑ j : Fin 192, val_main_v32 (F := Ideal) x0 x3 (ix2 (i 0) j) * x4 (ix2 j k) + x5 (ix1 k)) 0
          * x6 (ix2 k (i 1)) := by
  rw [val_main_v38_apply]
  refine Finset.sum_congr rfl fun k _ => ?_
  rw [val_main_v37_apply, val_main_v36_apply, val_main_v35_apply, val_main_v34_apply, val_main_v33_apply,
    val_main_call1_v0_apply, val_main_call1_cst_apply]
  have e1 : ∀ j : Fin 192, lidx_main_v33 (lidx_main_v38 i k) j = ix2 (i 0) j := fun _ => by funext a; match a with | ⟨0, _⟩ => rfl | ⟨1, _⟩ => rfl
  have e2 : ∀ j : Fin 192, ridx_main_v33 (lidx_main_v38 i k) j = ix2 j k := fun _ => by funext a; match a with | ⟨0, _⟩ => rfl | ⟨1, _⟩ => rfl
  have e3 : idx_main_v34 (idx_main_v35 (lidx_main_v38 i k)) = ix1 k := by funext a; match a with | ⟨0, _⟩ => rfl
  have e4 : ridx_main_v38 i k = ix2 k (i 1) := by funext a; match a with | ⟨0, _⟩ => rfl | ⟨1, _⟩ => rfl
  simp only [e1, e2, e3, e4, Ideal.maximumf_def, Ideal.addf_def, Ideal.ofBits_def, Ideal.ofBits_zero_f32]
  rfl

/-- Stage 56 at an index: the rectified first aggregate (plus its bias) times the second convolution's weights. -/
theorem v56_at (x0 : S100000x128.Idx → EReal) (x1 : (⟨S2x3200000, .i32⟩ : BufTy).Contents (Elt Ideal)) (x2 : S3200000.Idx → EReal) (x3 : S100000x64.Idx → EReal) (x4 : S192x64.Idx → EReal) (x5 : S64.Idx → EReal)
    (x6 : S64x64.Idx → EReal) (x7 : S64.Idx → EReal) (x8 : S64x64.Idx → EReal) (x9 : S64.Idx → EReal) (x10 : S64x16.Idx → EReal) (x11 : S16.Idx → EReal) (i : S100000x64.Idx) :
    val_main_v56 (F := Ideal) x0 x1 x2 x3 x4 x5 x6 x7 x8 i
      = ∑ k : Fin 64, max (val_main_v51 (F := Ideal) x0 x1 x2 x3 x4 x5 x6 (ix2 (i 0) k) + x7 (ix1 k)) 0 * x8 (ix2 k (i 1)) := by
  rw [val_main_v56_apply]
  refine Finset.sum_congr rfl fun k _ => ?_
  rw [val_main_v55_apply, val_main_v54_apply, val_main_v53_apply, val_main_v52_apply, val_main_call2_v0_apply, val_main_call2_cst_apply]
  have e1 : lidx_main_v56 i k = ix2 (i 0) k := by funext a; match a with | ⟨0, _⟩ => rfl | ⟨1, _⟩ => rfl
  have e3 : idx_main_v52 (idx_main_v53 (lidx_main_v56 i k)) = ix1 k := by funext a; match a with | ⟨0, _⟩ => rfl
  have e4 : ridx_main_v56 i k = ix2 k (i 1) := by funext a; match a with | ⟨0, _⟩ => rfl | ⟨1, _⟩ => rfl
  simp only [e1, e3, e4, Ideal.maximumf_def, Ideal.addf_def, Ideal.ofBits_def, Ideal.ofBits_zero_f32]
  rfl

/-- Stage 77 (the logits) at an index: the rectified second aggregate (plus its bias) times the output weights, plus the
    output bias. -/
theorem v77_at (x0 : S100000x128.Idx → EReal) (x1 : (⟨S2x3200000, .i32⟩ : BufTy).Contents (Elt Ideal)) (x2 : S3200000.Idx → EReal) (x3 : S100000x64.Idx → EReal) (x4 : S192x64.Idx → EReal) (x5 : S64.Idx → EReal)
    (x6 : S64x64.Idx → EReal) (x7 : S64.Idx → EReal) (x8 : S64x64.Idx → EReal) (x9 : S64.Idx → EReal) (x10 : S64x16.Idx → EReal) (x11 : S16.Idx → EReal) (i : S100000x16.Idx) :
    val_main_v77 (F := Ideal) x0 x1 x2 x3 x4 x5 x6 x7 x8 x9 x10 x11 i
      = ∑ k : Fin 64, max (val_main_v69 (F := Ideal) x0 x1 x2 x3 x4 x5 x6 x7 x8 (ix2 (i 0) k) + x9 (ix1 k)) 0 * x10 (ix2 k (i 1))
          + x11 (ix1 (i 1)) := by
  rw [val_main_v77_apply, val_main_v76_apply, val_main_v75_apply, val_main_v74_apply]
  have e5 : idx_main_v75 (idx_main_v76 i) = ix1 (i 1) := by funext a; match a with | ⟨0, _⟩ => rfl
  rw [e5]
  show (∑ k : Fin 64, _) + _ = _
  refine congrArg (· + x11 (ix1 (i 1))) (Finset.sum_congr rfl fun k _ => ?_)
  rw [val_main_v73_apply, val_main_v72_apply, val_main_v71_apply, val_main_v70_apply, val_main_call3_v0_apply, val_main_call3_cst_apply]
  have e1 : lidx_main_v74 i k = ix2 (i 0) k := by funext a; match a with | ⟨0, _⟩ => rfl | ⟨1, _⟩ => rfl
  have e3 : idx_main_v70 (idx_main_v71 (lidx_main_v74 i k)) = ix1 k := by funext a; match a with | ⟨0, _⟩ => rfl
  have e4 : ridx_main_v74 i k = ix2 k (i 1) := by funext a; match a with | ⟨0, _⟩ => rfl | ⟨1, _⟩ => rfl
  simp only [e1, e3, e4, Ideal.maximumf_def, Ideal.addf_def, Ideal.ofBits_def, Ideal.ofBits_zero_f32]
  rfl

/-! ## The reference's log-soft-max tail -/

/-- The float word of minus infinity is the bottom element. -/
theorem negInf : Ideal.ofBits .f32 0xFF800000#32 = (⊥ : EReal) := by simp [Ideal.ofBits, Ideal.ieee]

/-- The host's max-reduction of a [100000, 16] array over its second axis, from minus infinity, is each row's maximum. -/
theorem hostRowMax (y : FVec Ideal S100000x16 .f32) (j : S100000.Idx) :
    Host.reduce FloatOps.maximumf y (constant (F := Ideal) S_ .f32 0xFF800000#32) reducesTo_S100000x16_S100000_d1 h_S_ j
      = Cert.Row.rowMax (fun c' : Fin 16 => y (ix2 (j 0) c')) := by
  have hr : S100000x16.Reduces [1] S100000 := by decide
  refine (Host.reduce_eq_fold_single FloatOps.maximumf y _ reducesTo_S100000x16_S100000_d1 hr h_S_ j).trans ?_
  have hl : (y ∘ hr.lift j) = fun c' : Fin 16 => y (ix2 (j 0) c') :=
    funext fun c' => congrArg y (funext fun a => Fin.ext (by match a with | ⟨0, _⟩ => rfl | ⟨1, _⟩ => rfl))
  rw [hl]
  show Finset.univ.fold max (Ideal.ofBits .f32 0xFF800000#32) _ = Finset.univ.fold max ⊥ _
  rw [negInf]
  rfl

/-- Stage call4_v2 (the row maximum the reference subtracts) at a row. -/
theorem rowmax_ref (x0 : S100000x128.Idx → EReal) (x1 : (⟨S2x3200000, .i32⟩ : BufTy).Contents (Elt Ideal)) (x2 : S3200000.Idx → EReal) (x3 : S100000x64.Idx → EReal) (x4 : S192x64.Idx → EReal) (x5 : S64.Idx → EReal)
    (x6 : S64x64.Idx → EReal) (x7 : S64.Idx → EReal) (x8 : S64x64.Idx → EReal) (x9 : S64.Idx → EReal) (x10 : S64x16.Idx → EReal) (x11 : S16.Idx → EReal) (j : S100000.Idx) :
    val_main_call4_v2 (F := Ideal) x0 x1 x2 x3 x4 x5 x6 x7 x8 x9 x10 x11 j
      = Cert.Row.rowMax (fun c' : Fin 16 => val_main_v77 (F := Ideal) x0 x1 x2 x3 x4 x5 x6 x7 x8 x9 x10 x11 (ix2 (j 0) c')) := by
  rw [val_main_call4_v2_apply, val_main_call4_v1_apply, val_main_call4_cst_0_apply]
  unfold val_main_call4_v0 val_main_call4_cst
  generalize val_main_v77 (F := Ideal) x0 x1 x2 x3 x4 x5 x6 x7 x8 x9 x10 x11 = y
  rw [hostRowMax y j]
  show max (Ideal.ofBits .f32 0xFF800000#32) _ = _
  rw [negInf, max_bot_left]

/-- Stage 78 (the result) at an index: the reference's grouping of the log-soft-max of the logits' row. -/
theorem v78_at (x0 : S100000x128.Idx → EReal) (x1 : (⟨S2x3200000, .i32⟩ : BufTy).Contents (Elt Ideal)) (x2 : S3200000.Idx → EReal) (x3 : S100000x64.Idx → EReal) (x4 : S192x64.Idx → EReal) (x5 : S64.Idx → EReal)
    (x6 : S64x64.Idx → EReal) (x7 : S64.Idx → EReal) (x8 : S64x64.Idx → EReal) (x9 : S64.Idx → EReal) (x10 : S64x16.Idx → EReal) (x11 : S16.Idx → EReal) (i : S100000x16.Idx) :
    val_main_v78 (F := Ideal) x0 x1 x2 x3 x4 x5 x6 x7 x8 x9 x10 x11 i
      = Cert.Row.maxThenLse (fun c' : Fin 16 => val_main_v77 (F := Ideal) x0 x1 x2 x3 x4 x5 x6 x7 x8 x9 x10 x11 (ix2 (i 0) c')) (i 1) := by
  rw [val_main_v78_apply, val_main_call4_v5_apply, val_main_call4_v4_apply, val_main_call4_v3_apply,
    val_main_call4_v10_apply, val_main_call4_v9_apply, val_main_call4_v8_apply, val_main_call4_v7_apply, val_main_call4_cst_1_apply]
  rw [rowmax_ref]
  have hs : ∀ k : Fin 16, val_main_call4_v6 (F := Ideal) x0 x1 x2 x3 x4 x5 x6 x7 x8 x9 x10 x11 (idx_main_call4_v7 (idx_main_call4_v8 (idx_main_call4_v10 i)) k)
      = Ideal.exp (val_main_v77 (F := Ideal) x0 x1 x2 x3 x4 x5 x6 x7 x8 x9 x10 x11 (ix2 (i 0) k)
          - Cert.Row.rowMax (fun c' : Fin 16 => val_main_v77 (F := Ideal) x0 x1 x2 x3 x4 x5 x6 x7 x8 x9 x10 x11 (ix2 (i 0) c'))) := by
    intro k
    rw [val_main_call4_v6_apply, val_main_call4_v5_apply, val_main_call4_v4_apply, val_main_call4_v3_apply, rowmax_ref]
    generalize val_main_v77 (F := Ideal) x0 x1 x2 x3 x4 x5 x6 x7 x8 x9 x10 x11 = y
    have e7 : idx_main_call4_v7 (idx_main_call4_v8 (idx_main_call4_v10 i)) k = ix2 (i 0) k := by
      funext a; match a with | ⟨0, _⟩ => rfl | ⟨1, _⟩ => rfl
    rw [e7, Ideal.hostUnary_exp_def, Ideal.subf_def]
    rfl
  rw [Finset.sum_congr rfl (fun k _ => hs k)]
  generalize val_main_v77 (F := Ideal) x0 x1 x2 x3 x4 x5 x6 x7 x8 x9 x10 x11 = y
  have e3 : idx_main_call4_v3 (idx_main_call4_v4 i) 0 = i 0 := rfl
  have ei : y i = y (ix2 (i 0) (i 1)) := congrArg y (eq_ix2 i)
  rw [e3, ei, Ideal.hostUnary_log_def, Ideal.subf_def, Ideal.subf_def]
  unfold Cert.Row.maxThenLse Cert.Row.shiftedLogSum
  simp only [Ideal.ofBits_def, Ideal.ofBits_zero_f32, zero_add]

end Cert.ReferenceIdeal.Rows

end
-- ==== Proof.LibLogSoftmaxRow.lean ====
/-
  The two groupings of a row's log-soft-max agree on a real row.

  With M the row's maximum, the kernel's grouping is  a c - (M + L)  and the reference's is
  (a c - M) - L,  where L is the shifted log-sum. On the extended reals negation distributes over
  a sum,  -(M + L) = -M - L,  whenever the sum is not of the two opposite infinities; if M is a real
  number this holds for EVERY extended real L. Then both sides are  a c + (-M + -L)  by
  associativity of addition.

  The maximum of a nonempty real row is real: the fold of max from the bottom element lies strictly
  below the top element because the start value and every entry do, and strictly above the bottom
  element because the first entry does.
-/
import Mathlib
import Idealize.ShloMosaic.PureOps.Ideal
import proofs.«163008_j1984274891426_1_alg».proof.Proof.RowDefs

noncomputable section

open scoped BigOperators

namespace Cert.Row

open Idealize.ShloMosaic

/-- A real number is neither infinity. -/
theorem IsReal.ne_top {x : EReal} (h : IsReal x) : x ≠ ⊤ := by
  obtain ⟨r, rfl⟩ := h
  exact EReal.coe_ne_top r

theorem IsReal.ne_bot {x : EReal} (h : IsReal x) : x ≠ ⊥ := by
  obtain ⟨r, rfl⟩ := h
  exact EReal.coe_ne_bot r

/-- An extended real that is neither infinity is a real number. -/
theorem isReal_of_ne {x : EReal} (ht : x ≠ ⊤) (hb : x ≠ ⊥) : IsReal x :=
  ⟨x.toReal, (EReal.coe_toReal ht hb).symm⟩

/-- The maximum of a nonempty real row is a real number. -/
theorem rowMax_real {n : Nat} (hn : 0 < n) (a : Fin n → EReal) (h : AllReal a) :
    IsReal (rowMax a) := by
  apply isReal_of_ne
  · -- below the top element: the start value and every entry are
    apply ne_of_lt
    unfold rowMax
    rw [Finset.fold_max_lt]
    exact ⟨bot_lt_top, fun x _ => lt_top_iff_ne_top.mpr (h x).ne_top⟩
  · -- above the bottom element: the first entry is
    apply ne_of_gt
    unfold rowMax
    rw [Finset.lt_fold_max]
    exact Or.inr ⟨⟨0, hn⟩, Finset.mem_univ _, bot_lt_iff_ne_bot.mpr (h ⟨0, hn⟩).ne_bot⟩

/-- Subtracting a sum whose first summand is real: a - (M + L) = (a - M) - L for every L. -/
theorem sub_add_eq_sub_sub_of_real (x L : EReal) (M : ℝ) :
    x - ((M : EReal) + L) = (x - (M : EReal)) - L := by
  rw [sub_eq_add_neg, sub_eq_add_neg, sub_eq_add_neg,
    EReal.neg_add (Or.inl (EReal.coe_ne_bot M)) (Or.inl (EReal.coe_ne_top M)),
    sub_eq_add_neg, add_assoc]

/-- On a nonempty real row the two groupings of the log-soft-max agree. -/
theorem lseAtOnce_eq_maxThenLse {n : Nat} (hn : 0 < n) (a : Fin n → EReal) (h : AllReal a)
    (c : Fin n) : lseAtOnce a c = maxThenLse a c := by
  obtain ⟨M, hM⟩ := rowMax_real hn a h
  unfold lseAtOnce maxThenLse
  generalize shiftedLogSum a = L
  rw [hM]
  exact sub_add_eq_sub_sub_of_real (a c) L M

end Cert.Row

end
-- ==== Proof.RealEntries.lean ====
/-
  Closure of "is a real number" over the extended reals, under the operations the reference program applies
  on the way to its logits.

  An extended real is REAL when it is neither infinity. Zero and one are real; sums, products and maxima of
  reals are real; a finite sum of reals is real; the reciprocal square root of a POSITIVE real is real (at
  zero it is the top element, below zero the bottom one, so positivity is needed). A comparison "greater than"
  that answers true says the strict inequality holds, which is how a guarded reciprocal square root stays real.

  At the exact-arithmetic instance every whole-array operation below reads each result entry either as one
  operand entry (gather, concatenate, broadcast, select), or as an exact finite sum of operand entries
  (accumulating scatter: the operand's own entry plus the updates that land on it) or of products of operand
  entries (contraction). So each preserves "every entry is real", whatever the integer indices are.
-/
import proofs.«163008_j1984274891426_1_alg».proof.Proof.RowDefs
import Idealize.ShloMosaic.PureOps.Ideal.Laws

noncomputable section

open scoped BigOperators

namespace Cert.Row

open Idealize.ShloMosaic

/-! ### Scalars -/

theorem isReal_coe (r : ℝ) : IsReal (r : EReal) := ⟨r, rfl⟩

theorem isReal_zero : IsReal 0 := ⟨0, EReal.coe_zero.symm⟩

theorem isReal_one : IsReal 1 := ⟨1, EReal.coe_one.symm⟩

/-- The 32-bit pattern of +0.0 denotes zero. -/
theorem isReal_ofBits_zero : IsReal (Ideal.ofBits .f32 0x00000000#32) := by
  rw [Ideal.ofBits_zero_f32]; exact isReal_zero

/-- The 32-bit pattern of 1.0 denotes one. -/
theorem ofBits_one_f32 : Ideal.ofBits .f32 0x3F800000#32 = 1 := by
  simp [Ideal.ofBits, Ideal.ieee, -EReal.coe_mul]; norm_num

theorem isReal_ofBits_one : IsReal (Ideal.ofBits .f32 0x3F800000#32) := by
  rw [ofBits_one_f32]; exact isReal_one

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The maximum of two extended reals is one of them. -/
theorem isReal_max {x y : EReal} (hx : IsReal x) (hy : IsReal y) : IsReal (max x y) := by
  rcases max_choice x y with h | h
  · rw [h]; exact hx
  · rw [h]; exact hy

/-- A finite sum of reals is real: by induction on the index set, from zero and binary sums. -/
theorem isReal_sum {ι : Type} (s : Finset ι) (f : ι → EReal) :
    (∀ i ∈ s, IsReal (f i)) → IsReal (∑ i ∈ s, f i) := by
  classical
  induction s using Finset.induction_on with
  | empty => intro _; rw [Finset.sum_empty]; exact isReal_zero
  | insert a s ha ih =>
    intro h
    rw [Finset.sum_insert ha]
    exact isReal_add (h a (Finset.mem_insert_self a s)) (ih fun i hi => h i (Finset.mem_insert_of_mem hi))

/-- The reciprocal square root of a positive real is the real 1 / sqrt r. -/
theorem isReal_rsqrt_of_pos {r : ℝ} (h : 0 < r) : IsReal (Ideal.rsqrt (r : EReal)) := by
  rw [Ideal.rsqrt_coe, if_neg (not_lt.2 h.le), if_neg h.ne']
  exact isReal_coe _

/-- The reciprocal square root of a real extended real that is positive. -/
theorem isReal_rsqrt {x : EReal} (hx : IsReal x) (h : 0 < x) : IsReal (Ideal.rsqrt x) := by
  obtain ⟨r, rfl⟩ := hx
  exact isReal_rsqrt_of_pos (by exact_mod_cast h)

/-- An ordered "greater than" that answers true: the strict inequality holds. -/
theorem lt_of_cmp_ogt {x y : EReal} (h : Ideal.cmp .ogt x y = 1) : y < x := by
  by_contra hn
  simp [Ideal.cmp, hn] at h

/-- A scalar choice is real when the chosen branch is: the first branch need only be real when it is chosen. -/
theorem isReal_select {c : BitVec 1} {a b : EReal} (ha : c = 1 → IsReal a) (hb : IsReal b) :
    IsReal (Scalar.select c a b) := by
  unfold Scalar.select
  split_ifs with h
  · exact ha h
  · exact hb

/-! ### Whole arrays, at the exact-arithmetic instance -/

section Arrays
variable {s : Shape} {φ : FTy}

theorem allReal_constant_zero : AllReal (constant (F := Ideal) s .f32 0x00000000#32) :=
  fun _ => isReal_ofBits_zero

theorem allReal_constant_one : AllReal (constant (F := Ideal) s .f32 0x3F800000#32) :=
  fun _ => isReal_ofBits_one

theorem allReal_addf {x y : FVec Ideal s φ} (hx : AllReal x) (hy : AllReal y) : AllReal (addf x y) :=
  fun i => isReal_add (hx i) (hy i)

theorem allReal_mulf {x y : FVec Ideal s φ} (hx : AllReal x) (hy : AllReal y) : AllReal (mulf x y) :=
  fun i => isReal_mul (hx i) (hy i)

theorem allReal_maximumf {x y : FVec Ideal s φ} (hx : AllReal x) (hy : AllReal y) : AllReal (maximumf x y) :=
  fun i => isReal_max (hx i) (hy i)

/-- A choice between two arrays: the first need only be real where the condition holds. -/
theorem allReal_select {c : IVec s 1} {a b : s.Idx → EReal} (ha : ∀ i, c i = 1 → IsReal (a i)) (hb : AllReal b) :
    AllReal (select c a b) :=
  fun i => isReal_select (ha i) (hb i)

/-- A broadcast reads each result entry from one operand entry. -/
theorem allReal_broadcastInDim {t : Shape} (dims : Fin s.rank → Fin t.rank) (h : s.BroadcastsInDim t dims)
    {x : s.Idx → EReal} (hx : AllReal x) : AllReal (broadcastInDim t dims h x) :=
  fun _ => hx _

/-- A gather reads each result entry from one operand entry, whatever the start indices are. -/
theorem allReal_gather {si t : Shape} {w : Nat} (d : GatherDims s si t) {x : s.Idx → EReal} (idx : IVec si w)
    (hx : AllReal x) : AllReal (Host.gather d x idx) :=
  fun _ => hx _

/-- A concatenation reads each result entry from one entry of one of the pieces. -/
theorem allReal_concatenate (t : Shape) (a : Fin t.rank) (xs : List ((s : Shape) × (s.Idx → EReal)))
    (h : Shape.Concatenates (xs.map (·.1)) t a) (hx : ∀ p ∈ xs, AllReal p.2) :
    AllReal (concatenate t a xs h) := by
  intro j
  unfold concatenate
  exact hx _ (List.getElem_mem _) _

/-- The two-piece case. -/
theorem allReal_concatenate₂ (t : Shape) (a : Fin t.rank) {s₁ s₂ : Shape} (x₁ : s₁.Idx → EReal) (x₂ : s₂.Idx → EReal)
    (h : Shape.Concatenates (([⟨s₁, x₁⟩, ⟨s₂, x₂⟩] : List ((s : Shape) × (s.Idx → EReal))).map (·.1)) t a)
    (h₁ : AllReal x₁) (h₂ : AllReal x₂) :
    AllReal (concatenate t a [⟨s₁, x₁⟩, ⟨s₂, x₂⟩] h) := by
  refine allReal_concatenate t a _ h fun p hp => ?_
  rcases List.mem_pair.1 hp with rfl | rfl
  · exact h₁
  · exact h₂

/-- An accumulating scatter: each entry is the operand's own entry plus the finite sum of the updates that
    land on it. -/
theorem allReal_scatterAdd {si su : Shape} {w : Nat} (d : ScatterDims s si su) {x : FVec Ideal s φ}
    (idx : IVec si w) {upd : FVec Ideal su φ} (hx : AllReal x) (hu : AllReal upd) :
    AllReal (Host.scatterAdd d x idx upd) :=
  fun i => isReal_add (hx i) (isReal_sum _ _ fun j _ => hu j)

/-- A contraction: each entry is a finite sum of products of one entry of each operand. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) := by
  intro j
  simp only [Host.dotGeneral]
  rw [Ideal.dotGeneral_apply]
  exact isReal_sum _ _ fun k _ => isReal_mul (hl _) (hr _)

end Arrays

end Cert.Row

end
-- ==== Proof.LogitsReal.lean ====
/-
  Every logit of the reference is a real number when the float inputs are.

  The reference computes its logits (the array its log-soft-max is applied to) from the float inputs by
  broadcasts, concatenations, gathers, accumulating scatters, contractions, sums, products and maxima with
  zero, and ONE reciprocal square root, of the weighted degree. Each of these keeps every entry real, whatever
  the integer edge indices are, except the reciprocal square root, which is infinite at zero; the program takes
  it only where the degree compares greater than zero and takes zero elsewhere, so the guarded value is real.
  One lemma per float stage, in program order, each from the earlier ones.
-/
import proofs.«163008_j1984274891426_1_alg».proof.Proof.RealEntries
import proofs.«163008_j1984274891426_1_alg».proof.Proof.RefReadP

noncomputable section

namespace Cert.Row

open Cert.ReferenceIdeal Cert.ReferenceIdeal.Gen Cert.ReferenceIdeal.ReadP Idealize.ShloMosaic Idealize.ShloMosaic.TcCoe Idealize.SL.Sem Idealize.ShloMosaic.StableHlo

/-- Stage 7: the splat of 1.0. -/
theorem v7_real :
    AllReal (Cert.ReferenceIdeal.ReadP.val_main_v7 (F := Ideal)) := by
  unfold val_main_v7 val_main_cst
  exact allReal_broadcastInDim _ _ allReal_constant_one

/-- Stage 8: the edge weights followed by ones. -/
theorem v8_real (x2 : (⟨S3200000, .f32⟩ : BufTy).Contents (Elt Ideal)) (h2 : AllReal x2) :
    AllReal (Cert.ReferenceIdeal.ReadP.val_main_v8 (F := Ideal) x2) := by
  unfold val_main_v8
  exact allReal_concatenate₂ _ _ _ _ _ h2 v7_real

/-- Stage 9: the splat of 0.0. -/
theorem v9_real :
    AllReal (Cert.ReferenceIdeal.ReadP.val_main_v9 (F := Ideal)) := by
  unfold val_main_v9 val_main_cst_0
  exact allReal_broadcastInDim _ _ allReal_constant_zero

/-- Stage 11, the weighted degree: zero plus the weights that land on each node. -/
theorem v11_real (x1 : (⟨S2x3200000, .i32⟩ : BufTy).Contents (Elt Ideal)) (x2 : (⟨S3200000, .f32⟩ : BufTy).Contents (Elt Ideal)) (h2 : AllReal x2) :
    AllReal (Cert.ReferenceIdeal.ReadP.val_main_v11 (F := Ideal) x1 x2) := by
  unfold val_main_v11
  exact allReal_scatterAdd _ _ v9_real (v8_real x2 h2)

/-- The zero splat the guarded reciprocal square root falls back to. -/
theorem call0_v1_real :
    AllReal (Cert.ReferenceIdeal.ReadP.val_main_call0_v1 (F := Ideal)) := by
  unfold val_main_call0_v1 val_main_call0_v0 val_main_cst_2
  exact allReal_broadcastInDim _ _ allReal_constant_zero

/-- Stage 15: the reciprocal square root of the degree where the degree is positive, zero elsewhere. Where it is taken the degree is a positive real, so the result is real; the unguarded stage 14 alone need not be. -/
theorem v15_real (x1 : (⟨S2x3200000, .i32⟩ : BufTy).Contents (Elt Ideal)) (x2 : (⟨S3200000, .f32⟩ : BufTy).Contents (Elt Ideal)) (h2 : AllReal x2) :
    AllReal (Cert.ReferenceIdeal.ReadP.val_main_v15 (F := Ideal) x1 x2) := by
  unfold val_main_v15
  refine allReal_select (fun i hc => ?_) call0_v1_real
  rw [val_main_v13_apply] at hc
  have hc' : Ideal.cmp .ogt (val_main_v11 (F := Ideal) x1 x2 i) (val_main_v12 (F := Ideal) i) = 1 := hc
  have h12 : val_main_v12 (F := Ideal) i = 0 := by
    rw [val_main_v12_apply, val_main_cst_1_apply]; exact Ideal.ofBits_zero_f32
  have hpos : (0 : EReal) < val_main_v11 (F := Ideal) x1 x2 i := by
    have h := lt_of_cmp_ogt hc'
    rwa [h12] at h
  rw [val_main_v14_apply, Ideal.hostUnary_rsqrt_def]
  exact isReal_rsqrt (v11_real x1 x2 h2 i) hpos

/-- Stage 22: stage 15 gathered at one end of each edge. -/
theorem v22_real (x1 : (⟨S2x3200000, .i32⟩ : BufTy).Contents (Elt Ideal)) (x2 : (⟨S3200000, .f32⟩ : BufTy).Contents (Elt Ideal)) (h2 : AllReal x2) :
    AllReal (Cert.ReferenceIdeal.ReadP.val_main_v22 (F := Ideal) x1 x2) := by
  unfold val_main_v22
  exact allReal_gather _ _ (v15_real x1 x2 h2)

/-- Stage 23. -/
theorem v23_real (x1 : (⟨S2x3200000, .i32⟩ : BufTy).Contents (Elt Ideal)) (x2 : (⟨S3200000, .f32⟩ : BufTy).Contents (Elt Ideal)) (h2 : AllReal x2) :
    AllReal (Cert.ReferenceIdeal.ReadP.val_main_v23 (F := Ideal) x1 x2) := by
  unfold val_main_v23
  exact allReal_mulf (v22_real x1 x2 h2) (v8_real x2 h2)

/-- Stage 30: stage 15 gathered at the other end of each edge. -/
theorem v30_real (x1 : (⟨S2x3200000, .i32⟩ : BufTy).Contents (Elt Ideal)) (x2 : (⟨S3200000, .f32⟩ : BufTy).Contents (Elt Ideal)) (h2 : AllReal x2) :
    AllReal (Cert.ReferenceIdeal.ReadP.val_main_v30 (F := Ideal) x1 x2) := by
  unfold val_main_v30
  exact allReal_gather _ _ (v15_real x1 x2 h2)

/-- Stage 31, the edge norm. -/
theorem v31_real (x1 : (⟨S2x3200000, .i32⟩ : BufTy).Contents (Elt Ideal)) (x2 : (⟨S3200000, .f32⟩ : BufTy).Contents (Elt Ideal)) (h2 : AllReal x2) :
    AllReal (Cert.ReferenceIdeal.ReadP.val_main_v31 (F := Ideal) x1 x2) := by
  unfold val_main_v31
  exact allReal_mulf (v23_real x1 x2 h2) (v30_real x1 x2 h2)

/-- Stage 32: the features beside the embedding. -/
theorem v32_real (x0 : (⟨S100000x128, .f32⟩ : BufTy).Contents (Elt Ideal)) (x3 : (⟨S100000x64, .f32⟩ : BufTy).Contents (Elt Ideal)) (h0 : AllReal x0) (h3 : AllReal x3) :
    AllReal (Cert.ReferenceIdeal.ReadP.val_main_v32 (F := Ideal) x0 x3) := by
  unfold val_main_v32
  exact allReal_concatenate₂ _ _ _ _ _ h0 h3

/-- Stage 33. -/
theorem v33_real (x0 : (⟨S100000x128, .f32⟩ : BufTy).Contents (Elt Ideal)) (x3 : (⟨S100000x64, .f32⟩ : BufTy).Contents (Elt Ideal)) (x4 : (⟨S192x64, .f32⟩ : BufTy).Contents (Elt Ideal)) (h0 : AllReal x0) (h3 : AllReal x3) (h4 : AllReal x4) :
    AllReal (Cert.ReferenceIdeal.ReadP.val_main_v33 (F := Ideal) x0 x3 x4) := by
  unfold val_main_v33
  exact allReal_dotGeneral _ _ (v32_real x0 x3 h0 h3) h4

/-- Stage 35: the first bias along the rows. -/
theorem v35_real (x5 : (⟨S64, .f32⟩ : BufTy).Contents (Elt Ideal)) (h5 : AllReal x5) :
    AllReal (Cert.ReferenceIdeal.ReadP.val_main_v35 (F := Ideal) x5) := by
  unfold val_main_v35 val_main_v34
  exact allReal_broadcastInDim _ _ (allReal_broadcastInDim _ _ h5)

/-- Stage 36. -/
theorem v36_real (x0 : (⟨S100000x128, .f32⟩ : BufTy).Contents (Elt Ideal)) (x3 : (⟨S100000x64, .f32⟩ : BufTy).Contents (Elt Ideal)) (x4 : (⟨S192x64, .f32⟩ : BufTy).Contents (Elt Ideal)) (x5 : (⟨S64, .f32⟩ : BufTy).Contents (Elt Ideal)) (h0 : AllReal x0) (h3 : AllReal x3) (h4 : AllReal x4) (h5 : AllReal x5) :
    AllReal (Cert.ReferenceIdeal.ReadP.val_main_v36 (F := Ideal) x0 x3 x4 x5) := by
  unfold val_main_v36
  exact allReal_addf (v33_real x0 x3 x4 h0 h3 h4) (v35_real x5 h5)

/-- The zero splat of the first rectifier. -/
theorem call1_v0_real :
    AllReal (Cert.ReferenceIdeal.ReadP.val_main_call1_v0 (F := Ideal)) := by
  unfold val_main_call1_v0 val_main_call1_cst
  exact allReal_broadcastInDim _ _ allReal_constant_zero

/-- Stage 37. -/
theorem v37_real (x0 : (⟨S100000x128, .f32⟩ : BufTy).Contents (Elt Ideal)) (x3 : (⟨S100000x64, .f32⟩ : BufTy).Contents (Elt Ideal)) (x4 : (⟨S192x64, .f32⟩ : BufTy).Contents (Elt Ideal)) (x5 : (⟨S64, .f32⟩ : BufTy).Contents (Elt Ideal)) (h0 : AllReal x0) (h3 : AllReal x3) (h4 : AllReal x4) (h5 : AllReal x5) :
    AllReal (Cert.ReferenceIdeal.ReadP.val_main_v37 (F := Ideal) x0 x3 x4 x5) := by
  unfold val_main_v37
  exact allReal_maximumf (v36_real x0 x3 x4 x5 h0 h3 h4 h5) call1_v0_real

/-- Stage 38. -/
theorem v38_real (x0 : (⟨S100000x128, .f32⟩ : BufTy).Contents (Elt Ideal)) (x3 : (⟨S100000x64, .f32⟩ : BufTy).Contents (Elt Ideal)) (x4 : (⟨S192x64, .f32⟩ : BufTy).Contents (Elt Ideal)) (x5 : (⟨S64, .f32⟩ : BufTy).Contents (Elt Ideal)) (x6 : (⟨S64x64, .f32⟩ : BufTy).Contents (Elt Ideal)) (h0 : AllReal x0) (h3 : AllReal x3) (h4 : AllReal x4) (h5 : AllReal x5) (h6 : AllReal x6) :
    AllReal (Cert.ReferenceIdeal.ReadP.val_main_v38 (F := Ideal) x0 x3 x4 x5 x6) := by
  unfold val_main_v38
  exact allReal_dotGeneral _ _ (v37_real x0 x3 x4 x5 h0 h3 h4 h5) h6

/-- Stage 45: rows of stage 38 gathered per edge. -/
theorem v45_real (x0 : (⟨S100000x128, .f32⟩ : BufTy).Contents (Elt Ideal)) (x1 : (⟨S2x3200000, .i32⟩ : BufTy).Contents (Elt Ideal)) (x3 : (⟨S100000x64, .f32⟩ : BufTy).Contents (Elt Ideal)) (x4 : (⟨S192x64, .f32⟩ : BufTy).Contents (Elt Ideal)) (x5 : (⟨S64, .f32⟩ : BufTy).Contents (Elt Ideal)) (x6 : (⟨S64x64, .f32⟩ : BufTy).Contents (Elt Ideal)) (h0 : AllReal x0) (h3 : AllReal x3) (h4 : AllReal x4) (h5 : AllReal x5) (h6 : AllReal x6) :
    AllReal (Cert.ReferenceIdeal.ReadP.val_main_v45 (F := Ideal) x0 x1 x3 x4 x5 x6) := by
  unfold val_main_v45
  exact allReal_gather _ _ (v38_real x0 x3 x4 x5 x6 h0 h3 h4 h5 h6)

/-- Stage 47: the edge norm along the columns. -/
theorem v47_real (x1 : (⟨S2x3200000, .i32⟩ : BufTy).Contents (Elt Ideal)) (x2 : (⟨S3200000, .f32⟩ : BufTy).Contents (Elt Ideal)) (h2 : AllReal x2) :
    AllReal (Cert.ReferenceIdeal.ReadP.val_main_v47 (F := Ideal) x1 x2) := by
  unfold val_main_v47 val_main_v46
  exact allReal_broadcastInDim _ _ (allReal_broadcastInDim _ _ (v31_real x1 x2 h2))

/-- Stage 48. -/
theorem v48_real (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S100000x64, .f32⟩ : BufTy).Contents (Elt Ideal)) (x4 : (⟨S192x64, .f32⟩ : BufTy).Contents (Elt Ideal)) (x5 : (⟨S64, .f32⟩ : BufTy).Contents (Elt Ideal)) (x6 : (⟨S64x64, .f32⟩ : BufTy).Contents (Elt Ideal)) (h0 : AllReal x0) (h2 : AllReal x2) (h3 : AllReal x3) (h4 : AllReal x4) (h5 : AllReal x5) (h6 : AllReal x6) :
    AllReal (Cert.ReferenceIdeal.ReadP.val_main_v48 (F := Ideal) x0 x1 x2 x3 x4 x5 x6) := by
  unfold val_main_v48
  exact allReal_mulf (v45_real x0 x1 x3 x4 x5 x6 h0 h3 h4 h5 h6) (v47_real x1 x2 h2)

/-- Stage 49: zeros. -/
theorem v49_real :
    AllReal (Cert.ReferenceIdeal.ReadP.val_main_v49 (F := Ideal)) := by
  unfold val_main_v49 val_main_cst_8
  exact allReal_broadcastInDim _ _ allReal_constant_zero

/-- Stage 51: the first aggregation over incoming edges. -/
theorem v51_real (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S100000x64, .f32⟩ : BufTy).Contents (Elt Ideal)) (x4 : (⟨S192x64, .f32⟩ : BufTy).Contents (Elt Ideal)) (x5 : (⟨S64, .f32⟩ : BufTy).Contents (Elt Ideal)) (x6 : (⟨S64x64, .f32⟩ : BufTy).Contents (Elt Ideal)) (h0 : AllReal x0) (h2 : AllReal x2) (h3 : AllReal x3) (h4 : AllReal x4) (h5 : AllReal x5) (h6 : AllReal x6) :
    AllReal (Cert.ReferenceIdeal.ReadP.val_main_v51 (F := Ideal) x0 x1 x2 x3 x4 x5 x6) := by
  unfold val_main_v51
  exact allReal_scatterAdd _ _ v49_real (v48_real x0 x1 x2 x3 x4 x5 x6 h0 h2 h3 h4 h5 h6)

/-- Stage 53: the second bias along the rows. -/
theorem v53_real (x7 : (⟨S64, .f32⟩ : BufTy).Contents (Elt Ideal)) (h7 : AllReal x7) :
    AllReal (Cert.ReferenceIdeal.ReadP.val_main_v53 (F := Ideal) x7) := by
  unfold val_main_v53 val_main_v52
  exact allReal_broadcastInDim _ _ (allReal_broadcastInDim _ _ h7)

/-- Stage 54. -/
theorem v54_real (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S100000x64, .f32⟩ : BufTy).Contents (Elt Ideal)) (x4 : (⟨S192x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (h0 : AllReal x0) (h2 : AllReal x2) (h3 : AllReal x3) (h4 : AllReal x4) (h5 : AllReal x5) (h6 : AllReal x6) (h7 : AllReal x7) :
    AllReal (Cert.ReferenceIdeal.ReadP.val_main_v54 (F := Ideal) x0 x1 x2 x3 x4 x5 x6 x7) := by
  unfold val_main_v54
  exact allReal_addf (v51_real x0 x1 x2 x3 x4 x5 x6 h0 h2 h3 h4 h5 h6) (v53_real x7 h7)

/-- The zero splat of the second rectifier. -/
theorem call2_v0_real :
    AllReal (Cert.ReferenceIdeal.ReadP.val_main_call2_v0 (F := Ideal)) := by
  unfold val_main_call2_v0 val_main_call2_cst
  exact allReal_broadcastInDim _ _ allReal_constant_zero

/-- Stage 55. -/
theorem v55_real (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S100000x64, .f32⟩ : BufTy).Contents (Elt Ideal)) (x4 : (⟨S192x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (h0 : AllReal x0) (h2 : AllReal x2) (h3 : AllReal x3) (h4 : AllReal x4) (h5 : AllReal x5) (h6 : AllReal x6) (h7 : AllReal x7) :
    AllReal (Cert.ReferenceIdeal.ReadP.val_main_v55 (F := Ideal) x0 x1 x2 x3 x4 x5 x6 x7) := by
  unfold val_main_v55
  exact allReal_maximumf (v54_real x0 x1 x2 x3 x4 x5 x6 x7 h0 h2 h3 h4 h5 h6 h7) call2_v0_real

/-- Stage 56. -/
theorem v56_real (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S100000x64, .f32⟩ : BufTy).Contents (Elt Ideal)) (x4 : (⟨S192x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (h0 : AllReal x0) (h2 : AllReal x2) (h3 : AllReal x3) (h4 : AllReal x4) (h5 : AllReal x5) (h6 : AllReal x6) (h7 : AllReal x7) (h8 : AllReal x8) :
    AllReal (Cert.ReferenceIdeal.ReadP.val_main_v56 (F := Ideal) x0 x1 x2 x3 x4 x5 x6 x7 x8) := by
  unfold val_main_v56
  exact allReal_dotGeneral _ _ (v55_real x0 x1 x2 x3 x4 x5 x6 x7 h0 h2 h3 h4 h5 h6 h7) h8

/-- Stage 63: rows of stage 56 gathered per edge. -/
theorem v63_real (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S100000x64, .f32⟩ : BufTy).Contents (Elt Ideal)) (x4 : (⟨S192x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (h0 : AllReal x0) (h2 : AllReal x2) (h3 : AllReal x3) (h4 : AllReal x4) (h5 : AllReal x5) (h6 : AllReal x6) (h7 : AllReal x7) (h8 : AllReal x8) :
    AllReal (Cert.ReferenceIdeal.ReadP.val_main_v63 (F := Ideal) x0 x1 x2 x3 x4 x5 x6 x7 x8) := by
  unfold val_main_v63
  exact allReal_gather _ _ (v56_real x0 x1 x2 x3 x4 x5 x6 x7 x8 h0 h2 h3 h4 h5 h6 h7 h8)

/-- Stage 65: the edge norm along the columns, again. -/
theorem v65_real (x1 : (⟨S2x3200000, .i32⟩ : BufTy).Contents (Elt Ideal)) (x2 : (⟨S3200000, .f32⟩ : BufTy).Contents (Elt Ideal)) (h2 : AllReal x2) :
    AllReal (Cert.ReferenceIdeal.ReadP.val_main_v65 (F := Ideal) x1 x2) := by
  unfold val_main_v65 val_main_v64
  exact allReal_broadcastInDim _ _ (allReal_broadcastInDim _ _ (v31_real x1 x2 h2))

/-- Stage 66. -/
theorem v66_real (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S100000x64, .f32⟩ : BufTy).Contents (Elt Ideal)) (x4 : (⟨S192x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (h0 : AllReal x0) (h2 : AllReal x2) (h3 : AllReal x3) (h4 : AllReal x4) (h5 : AllReal x5) (h6 : AllReal x6) (h7 : AllReal x7) (h8 : AllReal x8) :
    AllReal (Cert.ReferenceIdeal.ReadP.val_main_v66 (F := Ideal) x0 x1 x2 x3 x4 x5 x6 x7 x8) := by
  unfold val_main_v66
  exact allReal_mulf (v63_real x0 x1 x2 x3 x4 x5 x6 x7 x8 h0 h2 h3 h4 h5 h6 h7 h8) (v65_real x1 x2 h2)

/-- Stage 67: zeros. -/
theorem v67_real :
    AllReal (Cert.ReferenceIdeal.ReadP.val_main_v67 (F := Ideal)) := by
  unfold val_main_v67 val_main_cst_11
  exact allReal_broadcastInDim _ _ allReal_constant_zero

/-- Stage 69: the second aggregation over incoming edges. -/
theorem v69_real (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S100000x64, .f32⟩ : BufTy).Contents (Elt Ideal)) (x4 : (⟨S192x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (h0 : AllReal x0) (h2 : AllReal x2) (h3 : AllReal x3) (h4 : AllReal x4) (h5 : AllReal x5) (h6 : AllReal x6) (h7 : AllReal x7) (h8 : AllReal x8) :
    AllReal (Cert.ReferenceIdeal.ReadP.val_main_v69 (F := Ideal) x0 x1 x2 x3 x4 x5 x6 x7 x8) := by
  unfold val_main_v69
  exact allReal_scatterAdd _ _ v67_real (v66_real x0 x1 x2 x3 x4 x5 x6 x7 x8 h0 h2 h3 h4 h5 h6 h7 h8)

/-- Stage 71: the third bias along the rows. -/
theorem v71_real (x9 : (⟨S64, .f32⟩ : BufTy).Contents (Elt Ideal)) (h9 : AllReal x9) :
    AllReal (Cert.ReferenceIdeal.ReadP.val_main_v71 (F := Ideal) x9) := by
  unfold val_main_v71 val_main_v70
  exact allReal_broadcastInDim _ _ (allReal_broadcastInDim _ _ h9)

/-- Stage 72. -/
theorem v72_real (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S100000x64, .f32⟩ : BufTy).Contents (Elt Ideal)) (x4 : (⟨S192x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (h0 : AllReal x0) (h2 : AllReal x2) (h3 : AllReal x3) (h4 : AllReal x4) (h5 : AllReal x5) (h6 : AllReal x6) (h7 : AllReal x7) (h8 : AllReal x8) (h9 : AllReal x9) :
    AllReal (Cert.ReferenceIdeal.ReadP.val_main_v72 (F := Ideal) x0 x1 x2 x3 x4 x5 x6 x7 x8 x9) := by
  unfold val_main_v72
  exact allReal_addf (v69_real x0 x1 x2 x3 x4 x5 x6 x7 x8 h0 h2 h3 h4 h5 h6 h7 h8) (v71_real x9 h9)

/-- The zero splat of the third rectifier. -/
theorem call3_v0_real :
    AllReal (Cert.ReferenceIdeal.ReadP.val_main_call3_v0 (F := Ideal)) := by
  unfold val_main_call3_v0 val_main_call3_cst
  exact allReal_broadcastInDim _ _ allReal_constant_zero

/-- Stage 73. -/
theorem v73_real (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S100000x64, .f32⟩ : BufTy).Contents (Elt Ideal)) (x4 : (⟨S192x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (h0 : AllReal x0) (h2 : AllReal x2) (h3 : AllReal x3) (h4 : AllReal x4) (h5 : AllReal x5) (h6 : AllReal x6) (h7 : AllReal x7) (h8 : AllReal x8) (h9 : AllReal x9) :
    AllReal (Cert.ReferenceIdeal.ReadP.val_main_v73 (F := Ideal) x0 x1 x2 x3 x4 x5 x6 x7 x8 x9) := by
  unfold val_main_v73
  exact allReal_maximumf (v72_real x0 x1 x2 x3 x4 x5 x6 x7 x8 x9 h0 h2 h3 h4 h5 h6 h7 h8 h9) call3_v0_real

/-- Stage 74. -/
theorem v74_real (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S100000x64, .f32⟩ : BufTy).Contents (Elt Ideal)) (x4 : (⟨S192x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x16, .f32⟩ : BufTy).Contents (Elt Ideal)) (h0 : AllReal x0) (h2 : AllReal x2) (h3 : AllReal x3) (h4 : AllReal x4) (h5 : AllReal x5) (h6 : AllReal x6) (h7 : AllReal x7) (h8 : AllReal x8) (h9 : AllReal x9) (h10 : AllReal x10) :
    AllReal (Cert.ReferenceIdeal.ReadP.val_main_v74 (F := Ideal) x0 x1 x2 x3 x4 x5 x6 x7 x8 x9 x10) := by
  unfold val_main_v74
  exact allReal_dotGeneral _ _ (v73_real x0 x1 x2 x3 x4 x5 x6 x7 x8 x9 h0 h2 h3 h4 h5 h6 h7 h8 h9) h10

/-- Stage 76: the last bias along the rows. -/
theorem v76_real (x11 : (⟨S16, .f32⟩ : BufTy).Contents (Elt Ideal)) (h11 : AllReal x11) :
    AllReal (Cert.ReferenceIdeal.ReadP.val_main_v76 (F := Ideal) x11) := by
  unfold val_main_v76 val_main_v75
  exact allReal_broadcastInDim _ _ (allReal_broadcastInDim _ _ h11)

/-- The logits (stage 77: stage 74 plus the last bias) are real when the float inputs are. -/
theorem logits_real (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S100000x64, .f32⟩ : BufTy).Contents (Elt Ideal)) (x4 : (⟨S192x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x16, .f32⟩ : BufTy).Contents (Elt Ideal)) (x11 : (⟨S16, .f32⟩ : BufTy).Contents (Elt Ideal))
    (h0 : AllReal x0) (h2 : AllReal x2) (h3 : AllReal x3) (h4 : AllReal x4) (h5 : AllReal x5) (h6 : AllReal x6) (h7 : AllReal x7) (h8 : AllReal x8) (h9 : AllReal x9) (h10 : AllReal x10) (h11 : AllReal x11) :
    AllReal (Cert.ReferenceIdeal.ReadP.val_main_v77 (F := Ideal) x0 x1 x2 x3 x4 x5 x6 x7 x8 x9 x10 x11) := by
  unfold val_main_v77
  exact allReal_addf (v74_real x0 x1 x2 x3 x4 x5 x6 x7 x8 x9 x10 h0 h2 h3 h4 h5 h6 h7 h8 h9 h10) (v76_real x11 h11)

end Cert.Row

end
-- ==== Proof.InputsReal.lean ====
/-
  The certificate's precondition, read back: every float input is a real number.

  The precondition is the conjunction, over the eleven float arguments, of "every entry x has
  |x| < +infinity", where |x| is max x (-x) on the extended reals and each "every entry" is a
  reduction by "and" of the entrywise comparisons into a single word. A conjunction of single-bit
  words is 1 exactly when each word is 1; a reduction by "and" into one word is 1 only if every
  entry's word is 1; and max x (-x) < +infinity rules out both infinities (at either one the
  maximum is +infinity), so the entry is a real number.
-/
import Mathlib
import Idealize.ShloMosaic.PureOps.Ideal
import Idealize.ShloMosaic.Lib.ReduceAll
import Idealize.ShloMosaic.Lib.ValueIdx
import proofs.«163008_j1984274891426_1_alg».proof.Defs
import proofs.«163008_j1984274891426_1_alg».proof.Proof.RowDefs

set_option maxRecDepth 16384

noncomputable section

namespace Cert.Row

open Idealize.ShloMosaic Idealize.SL.Sem

/-- The scalar shape has one index. -/
instance subsingleton_scalar_idx : Subsingleton Cert.Pre_finite_inputs.S_.Idx :=
  ⟨fun a b => funext fun d => d.elim0⟩

/-- The bit pattern 0x7F800000 denotes +infinity. -/
theorem ofBits_inf : Ideal.ofBits .f32 0x7F800000#32 = (⊤ : EReal) := by
  simp [Ideal.ofBits, Ideal.ieee]

/-- An extended real whose absolute value max x (-x) is below +infinity is a real number. -/
theorem isReal_of_abs_lt_top (x : EReal) (h : max x (-x) < ⊤) : IsReal x := by
  induction x using EReal.rec with
  | bot => simp at h
  | coe r => exact ⟨r, rfl⟩
  | top => simp at h

/-- The comparison word of |x| < +infinity being 1 says x is a real number. -/
theorem isReal_of_cmp (x : EReal)
    (h : Ideal.cmp .olt (max x (-x)) (Ideal.ofBits .f32 0x7F800000#32) = 1#1) : IsReal x := by
  rw [ofBits_inf] at h
  apply isReal_of_abs_lt_top
  by_contra hc
  simp [Ideal.cmp, hc] at h

/-- One conjunct of the precondition: if the reduction by "and" of the entrywise comparisons
    |x i| < +infinity into one word is 1, every entry is a real number. -/
theorem allReal_of_all {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x)
          (broadcastInDim s ![] bc (constant Cert.Pre_finite_inputs.S_ .f32 0x7F800000#32)))
        (constantI Cert.Pre_finite_inputs.S_ 1 1#1) hr hu ValueIdx.ix0 = 1#1) :
    AllReal x := by
  intro i
  have hi := Host.reduce_andi_all _ _ hr hu ValueIdx.ix0 e i
  exact isReal_of_cmp (x i) hi

/-- THE PRECONDITION DECODED: on every device, each of the eleven float arguments (arguments 0 and
    2 to 11; argument 1 is the integer edge list) holds only real numbers. The precondition's word
    at its one index is the conjunction of eleven reductions by "and"; each conjunct gives its
    argument's entries by the lemma above. -/
theorem inputs_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0)) ∧
      AllReal (m ((c.tc : Thread Cert.KernelIdeal.nD Cert.KernelIdeal.τ).loc Cert.KernelIdeal.main_arg2)) ∧
      AllReal (m ((c.tc : Thread Cert.KernelIdeal.nD Cert.KernelIdeal.τ).loc Cert.KernelIdeal.main_arg3)) ∧
      AllReal (m ((c.tc : Thread Cert.KernelIdeal.nD Cert.KernelIdeal.τ).loc Cert.KernelIdeal.main_arg4)) ∧
      AllReal (m ((c.tc : Thread Cert.KernelIdeal.nD Cert.KernelIdeal.τ).loc Cert.KernelIdeal.main_arg5)) ∧
      AllReal (m ((c.tc : Thread Cert.KernelIdeal.nD Cert.KernelIdeal.τ).loc Cert.KernelIdeal.main_arg6)) ∧
      AllReal (m ((c.tc : Thread Cert.KernelIdeal.nD Cert.KernelIdeal.τ).loc Cert.KernelIdeal.main_arg7)) ∧
      AllReal (m ((c.tc : Thread Cert.KernelIdeal.nD Cert.KernelIdeal.τ).loc Cert.KernelIdeal.main_arg8)) ∧
      AllReal (m ((c.tc : Thread Cert.KernelIdeal.nD Cert.KernelIdeal.τ).loc Cert.KernelIdeal.main_arg9)) ∧
      AllReal (m ((c.tc : Thread Cert.KernelIdeal.nD Cert.KernelIdeal.τ).loc Cert.KernelIdeal.main_arg10)) ∧
      AllReal (m ((c.tc : Thread Cert.KernelIdeal.nD Cert.KernelIdeal.τ).loc Cert.KernelIdeal.main_arg11)) := by
  have e := congrFun (h c) ValueIdx.ix0
  dsimp only [Cert.Pre_finite_inputs.fn, Cert.Pre_finite_inputs.fn_part1,
    Cert.Pre_finite_inputs.fn_part2, Cert.Pre_finite_inputs.fn_part3] at e
  simp only [Idealize.ShloMosaic.andi, IntOp.andi_eq_one] at e
  obtain ⟨⟨⟨⟨⟨⟨⟨⟨⟨⟨h0, h2⟩, h3⟩, h4⟩, h5⟩, h6⟩, h7⟩, h8⟩, h9⟩, h10⟩, h11⟩ := e
  exact ⟨allReal_of_all _ _ _ _ h0,
    allReal_of_all _ _ _ _ h2,
    allReal_of_all _ _ _ _ h3,
    allReal_of_all _ _ _ _ h4,
    allReal_of_all _ _ _ _ h5,
    allReal_of_all _ _ _ _ h6,
    allReal_of_all _ _ _ _ h7,
    allReal_of_all _ _ _ _ h8,
    allReal_of_all _ _ _ _ h9,
    allReal_of_all _ _ _ _ h10,
    allReal_of_all _ _ _ _ h11⟩

end Cert.Row

end
-- ==== Proof.Bridge.lean ====
/-
  From the kernel's three regions to the reference's stages, and the kernel's result.

  Region 0 finds the concatenated features, the first weights, the first bias as a row and the first convolution's
  weights, and leaves the rectified affine layer times those weights: the reference's stage 38. The host operations after
  it aggregate that over the edges exactly as the reference does (stage 51); region 1 adds the bias, rectifies and
  multiplies by the second convolution's weights: stage 56. After the second aggregation (stage 69) region 2 forms the
  logits (stage 77) and subtracts each row's log-sum-exp, the maximum and the shifted log-sum added first and subtracted
  at once. The reference subtracts the maximum first and the shifted log-sum after. The two groupings agree on a row
  of real numbers, and the logits are real because every float input is: that is the one place the precondition is used.
-/
import proofs.«163008_j1984274891426_1_alg».proof.Proof.HostToRegion2
import proofs.«163008_j1984274891426_1_alg».proof.Proof.Region0
import proofs.«163008_j1984274891426_1_alg».proof.Proof.Region1
import proofs.«163008_j1984274891426_1_alg».proof.Proof.Region2
import proofs.«163008_j1984274891426_1_alg».proof.Proof.RefRows
import proofs.«163008_j1984274891426_1_alg».proof.Proof.LibLogSoftmaxRow
import proofs.«163008_j1984274891426_1_alg».proof.Proof.LogitsReal
import proofs.«163008_j1984274891426_1_alg».proof.Proof.InputsReal
import Idealize.ShloMosaic.Lib.ValueIdx

set_option maxRecDepth 16384

noncomputable section

open scoped BigOperators

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- Region 0's output array is the reference's stage 38. -/
theorem w4_v34 (c : Dev nD) : W4 m ρ c (Proc.devRef .tc main_v34) = Cert.ReferenceIdeal.ReadP.val_main_v38 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) := by
  have hA : W4 m ρ c (Proc.devRef .tc main_v34) = (dat0 (F := Ideal) (V3 m ρ) c).arrAt 4 cfg0.N := W4_arr m ρ c 4
  rw [hA, RegionValue.region0 (V3 m ρ) c]
  have e0 : V3 m ρ c (Pipeline.arrRef spec0 0) = Cert.ReferenceIdeal.ReadP.val_main_v32 (F := Ideal) (m ((c.tc : Thread nD τ).loc main_arg0)) (m ((c.tc : Thread nD τ).loc main_arg3)) := w3_v32 m ρ c
  have e1 : V3 m ρ c (Pipeline.arrRef spec0 1) = (m ((c.tc : Thread nD τ).loc main_arg4)) := w3_arg4 m ρ c
  have e3 : V3 m ρ c (Pipeline.arrRef spec0 3) = (m ((c.tc : Thread nD τ).loc main_arg6)) := w3_arg6 m ρ c
  have e2 : ∀ k : Fin 64, (V3 m ρ c (Pipeline.arrRef spec0 2)) (ix2 0 k) = (m ((c.tc : Thread nD τ).loc main_arg5)) (ix1 k) := w3_v33_at m ρ c
  rw [e0, e1, e3]
  funext i
  rw [Cert.ReferenceIdeal.Rows.v38_at]
  show (∑ k : Fin 64, _) = _
  refine Finset.sum_congr rfl fun k _ => ?_
  rw [e2 k]

/-- Region 1's output array is the reference's stage 56. -/
theorem w6_v49 (c : Dev nD) : W6 m ρ c (Proc.devRef .tc main_v49) = Cert.ReferenceIdeal.ReadP.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have hA : W6 m ρ c (Proc.devRef .tc main_v49) = (dat1 (F := Ideal) (V5 m ρ) c).arrAt 3 cfg1.N := W6_arr m ρ c 3
  rw [hA, RegionValue.region1 (V5 m ρ) c]
  have e0 : V5 m ρ c (Pipeline.arrRef spec1 0) = Cert.ReferenceIdeal.ReadP.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := w5_v47 m ρ c (w4_v34 m ρ c)
  have e2 : V5 m ρ c (Pipeline.arrRef spec1 2) = (m ((c.tc : Thread nD τ).loc main_arg8)) := w5_arg8 m ρ c
  have e1 : ∀ k : Fin 64, (V5 m ρ c (Pipeline.arrRef spec1 1)) (ix2 0 k) = (m ((c.tc : Thread nD τ).loc main_arg7)) (ix1 k) := w5_v48_at m ρ c
  rw [e0, e2]
  funext i
  rw [Cert.ReferenceIdeal.Rows.v56_at (x9 := (m ((c.tc : Thread nD τ).loc main_arg9))) (x10 := (m ((c.tc : Thread nD τ).loc main_arg10))) (x11 := (m ((c.tc : Thread nD τ).loc main_arg11)))]
  show (∑ k : Fin 64, _) = _
  refine Finset.sum_congr rfl fun k _ => ?_
  rw [e1 k]

/-- The logits at explicit coordinates. -/
theorem v77_row (x0 : Cert.ReferenceIdeal.S100000x128.Idx → EReal) (x1 : (⟨Cert.ReferenceIdeal.S2x3200000, .i32⟩ : BufTy).Contents (Elt Ideal)) (x2 : Cert.ReferenceIdeal.S3200000.Idx → EReal) (x3 : Cert.ReferenceIdeal.S100000x64.Idx → EReal) (x4 : Cert.ReferenceIdeal.S192x64.Idx → EReal) (x5 : Cert.ReferenceIdeal.S64.Idx → EReal)
    (x6 : Cert.ReferenceIdeal.S64x64.Idx → EReal) (x7 : Cert.ReferenceIdeal.S64.Idx → EReal) (x8 : Cert.ReferenceIdeal.S64x64.Idx → EReal) (x9 : Cert.ReferenceIdeal.S64.Idx → EReal) (x10 : Cert.ReferenceIdeal.S64x16.Idx → EReal) (x11 : Cert.ReferenceIdeal.S16.Idx → EReal) (r : Fin 100000) (q : Fin 16) :
    Cert.ReferenceIdeal.ReadP.val_main_v77 (F := Ideal) x0 x1 x2 x3 x4 x5 x6 x7 x8 x9 x10 x11 (ix2 r q)
      = (∑ k : Fin 64, max (Cert.ReferenceIdeal.ReadP.val_main_v69 (F := Ideal) x0 x1 x2 x3 x4 x5 x6 x7 x8 (ix2 r k) + x9 (ix1 k)) 0 * x10 (ix2 k q)) + x11 (ix1 q) :=
  Cert.ReferenceIdeal.Rows.v77_at x0 x1 x2 x3 x4 x5 x6 x7 x8 x9 x10 x11 (ix2 r q)

/-- Region 2's output array: the kernel's grouping of the log-soft-max of the reference's logits. -/
theorem w8_v65 (c : Dev nD) : W8 m ρ c (Proc.devRef .tc main_v65)
    = fun i : S100000x16.Idx => Cert.Row.lseAtOnce (fun c' : Fin 16 => Cert.ReferenceIdeal.ReadP.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix2 (i 0) c')) (i 1) := by
  have hA : W8 m ρ c (Proc.devRef .tc main_v65) = (dat2 (F := Ideal) (V7 m ρ) c).arrAt 4 cfg2.N := W8_arr m ρ c 4
  rw [hA, RegionValue.region2 (V7 m ρ) c]
  have e0 : V7 m ρ c (Pipeline.arrRef spec2 0) = Cert.ReferenceIdeal.ReadP.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := w7_v62 m ρ c (w6_v49 m ρ c)
  have e2 : V7 m ρ c (Pipeline.arrRef spec2 2) = (m ((c.tc : Thread nD τ).loc main_arg10)) := w7_arg10 m ρ c
  have e1 : ∀ k : Fin 64, (V7 m ρ c (Pipeline.arrRef spec2 1)) (ix2 0 k) = (m ((c.tc : Thread nD τ).loc main_arg9)) (ix1 k) := w7_v63_at m ρ c
  have e3 : ∀ k : Fin 16, (V7 m ρ c (Pipeline.arrRef spec2 3)) (ix2 0 k) = (m ((c.tc : Thread nD τ).loc main_arg11)) (ix1 k) := w7_v64_at m ρ c
  rw [e0, e2]
  funext i
  show Cert.Row.lseAtOnce _ _ = Cert.Row.lseAtOnce _ _
  refine congrArg (fun a => Cert.Row.lseAtOnce a (i 1)) (funext fun c' => ?_)
  refine Eq.trans ?_ (v77_row _ _ _ _ _ _ _ _ _ _ _ _ (i 0) c').symm
  rw [e3 c']
  generalize Cert.ReferenceIdeal.ReadP.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = y
  refine congrArg (· + (m ((c.tc : Thread nD τ).loc main_arg11)) (ix1 c')) (Finset.sum_congr rfl fun k _ => ?_)
  rw [e1 k]

/-- The kernel's result is the reference's result stage, under the precondition. -/
theorem kernel_value [hP : Cert.Pre_finite_inputs.Facts] (hpre : Cert.Pre_KernelIdeal m) (c : Dev nD) :
    W8 m ρ c (Proc.devRef .tc main_v65) = Cert.ReferenceIdeal.ReadP.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [w8_v65 m ρ c]
  funext i
  rw [Cert.ReferenceIdeal.Rows.v78_at]
  obtain ⟨r0, r2, r3, r4, r5, r6, r7, r8, r9, r10, r11⟩ := Cert.Row.inputs_real m hpre c
  have hlog := Cert.Row.logits_real (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) r0 r2 r3 r4 r5 r6 r7 r8 r9 r10 r11
  exact Cert.Row.lseAtOnce_eq_maxThenLse (by decide) _ (fun c' => hlog (ix2 (i 0) c')) (i 1)

end Cert.KernelIdeal.HostValue

end
-- ==== Proof.lean ====
/-
  A two-layer graph convolution with a node embedding beside the features, a dense stem before it and a log-soft-max after
  it, computed by three row-tiled kernels with the edge aggregation between them, against the same network written as
  plain array operations.

  Over the extended reals the two programs apply the same operations in the same order up to the logits: the
  normalisation of the edge weights by the inverse square roots of the degrees, the stem's rectified affine layer, and
  twice "multiply by the layer's weights, gather along the edges, scale, scatter-add into the targets, add the bias,
  rectify" (a change of float format is the identity, a matrix unit's product into a zero accumulator is the plain sum
  of products, a row tile of a row-wise function is that function on the tile's rows). They differ only in how the
  log-soft-max is grouped: the kernel subtracts (row maximum + log of the sum of shifted exponentials) at once, the
  reference subtracts the row maximum and then the log-sum. On the extended reals these agree exactly when the row maximum is a
  real number, which holds because every float input is finite: sums, products, maxima, positive inverse square roots,
  gathers and scatter-adds of real numbers are real, so the logits are.

  The three frames: the kernel's two are the generated ones; the reference's is its run with the result dropped.
  The idealization changes no operation, so there is nothing to preserve beyond the program's own text.
-/
import proofs.«163008_j1984274891426_1_alg».proof.Defs
import proofs.«163008_j1984274891426_1_alg».proof.Proof.Gen.Kernel
import proofs.«163008_j1984274891426_1_alg».proof.Proof.Gen.Kernel.Frame
import proofs.«163008_j1984274891426_1_alg».proof.Proof.Gen.KernelIdeal
import proofs.«163008_j1984274891426_1_alg».proof.Proof.Gen.KernelIdeal.Frame
import proofs.«163008_j1984274891426_1_alg».proof.Proof.Gen.ReferenceIdeal
import proofs.«163008_j1984274891426_1_alg».proof.Proof.Gen.Pre_finite_inputs
import proofs.«163008_j1984274891426_1_alg».proof.Proof.KernelRun
import proofs.«163008_j1984274891426_1_alg».proof.Proof.RefRun
import proofs.«163008_j1984274891426_1_alg».proof.Proof.Bridge
import Idealize.ShloMosaic.Adequacy
import Idealize.ShloMosaic.Init

set_option maxRecDepth 16384

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the result dropped
    intro m ρ _
    exact (θ_run Cert.ReferenceIdeal.defs _ _).mono (fun _ h c => (h c).2) (Cert.ReferenceIdeal.RunValue.run m ρ)
  · -- both programs end at the reference's result stage of the (agreeing) arguments
    intro m ρ m' ρ' hpre hagree
    refine ⟨fun c => Cert.ReferenceIdeal.ReadP.val_main_v78 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
    · exact (θ_run Cert.KernelIdeal.defs _ _).mono
        (fun _ h c => ⟨(h c).1.trans (Cert.KernelIdeal.HostValue.kernel_value m ρ hpre c), (h c).2⟩)
        (Cert.KernelIdeal.RunValue.run_named m ρ)
    · refine (θ_run Cert.ReferenceIdeal.defs _ _).mono (fun _ h c => ⟨(h c).1.trans ?_, (h c).2⟩)
        (Cert.ReferenceIdeal.RunValue.run m' ρ')
      obtain ⟨a0, a1, a2, a3, a4, a5, a6, a7, a8, a9, a10, a11⟩ := hagree c
      rw [a0, a1, a2, a3, a4, a5, a6, a7, a8, a9, a10, a11]⟩

end Cert.Proof

end
